-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.truncf_extf.Statement Cert.KernelIdeal.S2000x320 .f32 .bf16
  ∧ IdealRules.truncf_extf.Statement Cert.KernelIdeal.S320x160 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x320000 : Shape := ⟨3, ![64, 1, 320000]⟩
abbrev S64x2000x128 : Shape := ⟨3, ![64, 2000, 128]⟩
abbrev S160x128x2 : Shape := ⟨3, ![160, 128, 2]⟩
abbrev S160 : Shape := ⟨1, ![160]⟩
abbrev S160x41x2 : Shape := ⟨3, ![160, 41, 2]⟩
abbrev S160x160x2 : Shape := ⟨3, ![160, 160, 2]⟩
abbrev S_ : Shape := ⟨0, ![]⟩

class Facts : Prop where
  bcast_S_S64x1x320000 : S_.BroadcastsInDim S64x1x320000 (![] : Fin 0 → Fin S64x1x320000.rank)
  reducesTo_S64x1x320000_S_d0_1_2 : S64x1x320000.ReducesTo [0, 1, 2] S_
  h_S_ : 0 < S_.numel
  bcast_S_S64x2000x128 : S_.BroadcastsInDim S64x2000x128 (![] : Fin 0 → Fin S64x2000x128.rank)
  reducesTo_S64x2000x128_S_d0_1_2 : S64x2000x128.ReducesTo [0, 1, 2] S_
  bcast_S_S160x128x2 : S_.BroadcastsInDim S160x128x2 (![] : Fin 0 → Fin S160x128x2.rank)
  reducesTo_S160x128x2_S_d0_1_2 : S160x128x2.ReducesTo [0, 1, 2] S_
  bcast_S_S160 : S_.BroadcastsInDim S160 (![] : Fin 0 → Fin S160.rank)
  reducesTo_S160_S_d0 : S160.ReducesTo [0] S_
  bcast_S_S160x41x2 : S_.BroadcastsInDim S160x41x2 (![] : Fin 0 → Fin S160x41x2.rank)
  reducesTo_S160x41x2_S_d0_1_2 : S160x41x2.ReducesTo [0, 1, 2] S_
  bcast_S_S160x160x2 : S_.BroadcastsInDim S160x160x2 (![] : Fin 0 → Fin S160x160x2.rank)
  reducesTo_S160x160x2_S_d0_1_2 : S160x160x2.ReducesTo [0, 1, 2] S_

variable [Facts]

def fn_part2 {F : FTy → Type} [FloatOps F] (main_arg7 : FVec F S160 .f32) (main_v33 : IVec S_ 1) : IVec S_ 1 :=
  let main_v34 : FVec F S160 .f32 := Host.absf main_arg7
  let main_cst_12 : FVec F S_ .f32 := constant S_ .f32 0x7F800000#32
  let main_v35 : FVec F S160 .f32 := broadcastInDim S160 ![] bcast_S_S160 main_cst_12
  let main_v36 : IVec S160 1 := cmpf .olt main_v34 main_v35
  let main_c_13 : IVec S_ 1 := constantI S_ 1 1#1
  let main_v37 : IVec S_ 1 := (fun x v => Host.reduce IntOp.andi x v reducesTo_S160_S_d0 h_S_) main_v36 main_c_13
  let main_v38 : IVec S_ 1 := andi main_v33 main_v37
  main_v38

def fn_part1 {F : FTy → Type} [FloatOps F] (main_arg4 : FVec F S160x41x2 .f32) (main_arg5 : FVec F S160 .f32) (main_arg6 : FVec F S160x160x2 .f32) (main_arg7 : FVec F S160 .f32) (main_v13 : IVec S_ 1) (main_v16 : IVec S160 1) : IVec S_ 1 :=
  let main_c_5 : IVec S_ 1 := constantI S_ 1 1#1
  let main_v17 : IVec S_ 1 := (fun x v => Host.reduce IntOp.andi x v reducesTo_S160_S_d0 h_S_) main_v16 main_c_5
  let main_v18 : IVec S_ 1 := andi main_v13 main_v17
  let main_v19 : FVec F S160x41x2 .f32 := Host.absf main_arg4
  let main_cst_6 : FVec F S_ .f32 := constant S_ .f32 0x7F800000#32
  let main_v20 : FVec F S160x41x2 .f32 := broadcastInDim S160x41x2 ![] bcast_S_S160x41x2 main_cst_6
  let main_v21 : IVec S160x41x2 1 := cmpf .olt main_v19 main_v20
  let main_c_7 : IVec S_ 1 := constantI S_ 1 1#1
  let main_v22 : IVec S_ 1 := (fun x v => Host.reduce IntOp.andi x v reducesTo_S160x41x2_S_d0_1_2 h_S_) main_v21 main_c_7
  let main_v23 : IVec S_ 1 := andi main_v18 main_v22
  let main_v24 : FVec F S160 .f32 := Host.absf main_arg5
  let main_cst_8 : FVec F S_ .f32 := constant S_ .f32 0x7F800000#32
  let main_v25 : FVec F S160 .f32 := broadcastInDim S160 ![] bcast_S_S160 main_cst_8
  let main_v26 : IVec S160 1 := cmpf .olt main_v24 main_v25
  let main_c_9 : IVec S_ 1 := constantI S_ 1 1#1
  let main_v27 : IVec S_ 1 := (fun x v => Host.reduce IntOp.andi x v reducesTo_S160_S_d0 h_S_) main_v26 main_c_9
  let main_v28 : IVec S_ 1 := andi main_v23 main_v27
  let main_v29 : FVec F S160x160x2 .f32 := Host.absf main_arg6
  let main_cst_10 : FVec F S_ .f32 := constant S_ .f32 0x7F800000#32
  let main_v30 : FVec F S160x160x2 .f32 := broadcastInDim S160x160x2 ![] bcast_S_S160x160x2 main_cst_10
  let main_v31 : IVec S160x160x2 1 := cmpf .olt main_v29 main_v30
  let main_c_11 : IVec S_ 1 := constantI S_ 1 1#1
  let main_v32 : IVec S_ 1 := (fun x v => Host.reduce IntOp.andi x v reducesTo_S160x160x2_S_d0_1_2 h_S_) main_v31 main_c_11
  let main_v33 : IVec S_ 1 := andi main_v28 main_v32
  fn_part2 (F := F) main_arg7 main_v33

def fn {F : FTy → Type} [FloatOps F] (main_arg0 : FVec F S64x1x320000 .f32) (main_arg1 : FVec F S64x2000x128 .f32) (main_arg2 : FVec F S160x128x2 .f32) (main_arg3 : FVec F S160 .f32) (main_arg4 : FVec F S160x41x2 .f32) (main_arg5 : FVec F S160 .f32) (main_arg6 : FVec F S160x160x2 .f32) (main_arg7 : FVec F S160 .f32) : IVec S_ 1 :=
  let main_v0 : FVec F S64x1x320000 .f32 := Host.absf main_arg0
  let main_cst : FVec F S_ .f32 := constant S_ .f32 0x7F800000#32
  let main_v1 : FVec F S64x1x320000 .f32 := broadcastInDim S64x1x320000 ![] bcast_S_S64x1x320000 main_cst
  let main_v2 : IVec S64x1x320000 1 := cmpf .olt main_v0 main_v1
  let main_c : IVec S_ 1 := constantI S_ 1 1#1
  let main_v3 : IVec S_ 1 := (fun x v => Host.reduce IntOp.andi x v reducesTo_S64x1x320000_S_d0_1_2 h_S_) main_v2 main_c
  let main_v4 : FVec F S64x2000x128 .f32 := Host.absf main_arg1
  let main_cst_0 : FVec F S_ .f32 := constant S_ .f32 0x7F800000#32
  let main_v5 : FVec F S64x2000x128 .f32 := broadcastInDim S64x2000x128 ![] bcast_S_S64x2000x128 main_cst_0
  let main_v6 : IVec S64x2000x128 1 := cmpf .olt main_v4 main_v5
  let main_c_1 : IVec S_ 1 := constantI S_ 1 1#1
  let main_v7 : IVec S_ 1 := (fun x v => Host.reduce IntOp.andi x v reducesTo_S64x2000x128_S_d0_1_2 h_S_) main_v6 main_c_1
  let main_v8 : IVec S_ 1 := andi main_v3 main_v7
  let main_v9 : FVec F S160x128x2 .f32 := Host.absf main_arg2
  let main_cst_2 : FVec F S_ .f32 := constant S_ .f32 0x7F800000#32
  let main_v10 : FVec F S160x128x2 .f32 := broadcastInDim S160x128x2 ![] bcast_S_S160x128x2 main_cst_2
  let main_v11 : IVec S160x128x2 1 := cmpf .olt main_v9 main_v10
  let main_c_3 : IVec S_ 1 := constantI S_ 1 1#1
  let main_v12 : IVec S_ 1 := (fun x v => Host.reduce IntOp.andi x v reducesTo_S160x128x2_S_d0_1_2 h_S_) main_v11 main_c_3
  let main_v13 : IVec S_ 1 := andi main_v8 main_v12
  let main_v14 : FVec F S160 .f32 := Host.absf main_arg3
  let main_cst_4 : FVec F S_ .f32 := constant S_ .f32 0x7F800000#32
  let main_v15 : FVec F S160 .f32 := broadcastInDim S160 ![] bcast_S_S160 main_cst_4
  let main_v16 : IVec S160 1 := cmpf .olt main_v14 main_v15
  fn_part1 (F := F) main_arg4 main_arg5 main_arg6 main_arg7 main_v13 main_v16
-- ==== Kernel.lean ====
abbrev S64x1x320000 : Shape := ⟨3, ![64, 1, 320000]⟩
abbrev S64x2000x128 : Shape := ⟨3, ![64, 2000, 128]⟩
abbrev S160x128x2 : Shape := ⟨3, ![160, 128, 2]⟩
abbrev S160 : Shape := ⟨1, ![160]⟩
abbrev S160x41x2 : Shape := ⟨3, ![160, 41, 2]⟩
abbrev S160x160x2 : Shape := ⟨3, ![160, 160, 2]⟩
abbrev S64x2000x160 : Shape := ⟨3, ![64, 2000, 160]⟩
abbrev S160x128x1 : Shape := ⟨3, ![160, 128, 1]⟩
abbrev S160x128 : Shape := ⟨2, ![160, 128]⟩
abbrev S128x160 : Shape := ⟨2, ![128, 160]⟩
abbrev S256x160 : Shape := ⟨2, ![256, 160]⟩
abbrev S160x41x1 : Shape := ⟨3, ![160, 41, 1]⟩
abbrev S160x41 : Shape := ⟨2, ![160, 41]⟩
abbrev S160x40 : Shape := ⟨2, ![160, 40]⟩
abbrev S160x1 : Shape := ⟨2, ![160, 1]⟩
abbrev S_ : Shape := ⟨0, ![]⟩
abbrev S40x160 : Shape := ⟨2, ![40, 160]⟩
abbrev S1x160 : Shape := ⟨2, ![1, 160]⟩
abbrev S80x160 : Shape := ⟨2, ![80, 160]⟩
abbrev S160x160x1 : Shape := ⟨3, ![160, 160, 1]⟩
abbrev S160x160 : Shape := ⟨2, ![160, 160]⟩
abbrev S320x160 : Shape := ⟨2, ![320, 160]⟩
abbrev S1x2000x160 : Shape := ⟨3, ![1, 2000, 160]⟩
abbrev S1x2000x128 : Shape := ⟨3, ![1, 2000, 128]⟩
abbrev S2000x160 : Shape := ⟨2, ![2000, 160]⟩
abbrev S2000x128 : Shape := ⟨2, ![2000, 128]⟩
abbrev S2000x40x4 : Shape := ⟨3, ![2000, 40, 4]⟩
abbrev S2000x40 : Shape := ⟨2, ![2000, 40]⟩
abbrev S1x128 : Shape := ⟨2, ![1, 128]⟩
abbrev S1999x128 : Shape := ⟨2, ![1999, 128]⟩
abbrev S1x40 : Shape := ⟨2, ![1, 40]⟩
abbrev S1999x40 : Shape := ⟨2, ![1999, 40]⟩
abbrev S2000x256 : Shape := ⟨2, ![2000, 256]⟩
abbrev S2000x80 : Shape := ⟨2, ![2000, 80]⟩
abbrev S1999x160 : Shape := ⟨2, ![1999, 160]⟩
abbrev S2000x320 : Shape := ⟨2, ![2000, 320]⟩

abbrev nBuf : Space → Nat
  | .hbm => 59
  | .vmem => 11
  | .smem => 0
  | _ => 0

abbrev bufTy : (tb : Table) → Fin (tcTables nBuf tb) → BufTy
  | .hbm, ⟨0, _⟩ => ⟨S64x1x320000, .f32⟩
  | .hbm, ⟨1, _⟩ => ⟨S64x2000x128, .f32⟩
  | .hbm, ⟨2, _⟩ => ⟨S160x128x2, .f32⟩
  | .hbm, ⟨3, _⟩ => ⟨S160, .f32⟩
  | .hbm, ⟨4, _⟩ => ⟨S160x41x2, .f32⟩
  | .hbm, ⟨5, _⟩ => ⟨S160, .f32⟩
  | .hbm, ⟨6, _⟩ => ⟨S160x160x2, .f32⟩
  | .hbm, ⟨7, _⟩ => ⟨S160, .f32⟩
  | .hbm, ⟨8, _⟩ => ⟨S64x2000x160, .f32⟩
  | .hbm, ⟨9, _⟩ => ⟨S160x128x1, .f32⟩
  | .hbm, ⟨10, _⟩ => ⟨S160x128, .f32⟩
  | .hbm, ⟨11, _⟩ => ⟨S128x160, .f32⟩
  | .hbm, ⟨12, _⟩ => ⟨S160x128x1, .f32⟩
  | .hbm, ⟨13, _⟩ => ⟨S160x128, .f32⟩
  | .hbm, ⟨14, _⟩ => ⟨S128x160, .f32⟩
  | .hbm, ⟨15, _⟩ => ⟨S256x160, .f32⟩
  | .hbm, ⟨16, _⟩ => ⟨S256x160, .bf16⟩
  | .hbm, ⟨17, _⟩ => ⟨S160x41x1, .f32⟩
  | .hbm, ⟨18, _⟩ => ⟨S160x41, .f32⟩
  | .hbm, ⟨19, _⟩ => ⟨S160x40, .f32⟩
  | .hbm, ⟨20, _⟩ => ⟨S160x1, .f32⟩
  | .hbm, ⟨21, _⟩ => ⟨S160, .f32⟩
  | .hbm, ⟨22, _⟩ => ⟨S_, .f32⟩
  | .hbm, ⟨23, _⟩ => ⟨S160, .f32⟩
  | .hbm, ⟨24, _⟩ => ⟨S160, .f32⟩
  | .hbm, ⟨25, _⟩ => ⟨S40x160, .f32⟩
  | .hbm, ⟨26, _⟩ => ⟨S1x160, .f32⟩
  | .hbm, ⟨27, _⟩ => ⟨S_, .f32⟩
  | .hbm, ⟨28, _⟩ => ⟨S1x160, .f32⟩
  | .hbm, ⟨29, _⟩ => ⟨S1x160, .f32⟩
  | .hbm, ⟨30, _⟩ => ⟨S40x160, .f32⟩
  | .hbm, ⟨31, _⟩ => ⟨S40x160, .f32⟩
  | .hbm, ⟨32, _⟩ => ⟨S160x41x1, .f32⟩
  | .hbm, ⟨33, _⟩ => ⟨S160x41, .f32⟩
  | .hbm, ⟨34, _⟩ => ⟨S160x40, .f32⟩
  | .hbm, ⟨35, _⟩ => ⟨S160x1, .f32⟩
  | .hbm, ⟨36, _⟩ => ⟨S160, .f32⟩
  | .hbm, ⟨37, _⟩ => ⟨S_, .f32⟩
  | .hbm, ⟨38, _⟩ => ⟨S160, .f32⟩
  | .hbm, ⟨39, _⟩ => ⟨S160, .f32⟩
  | .hbm, ⟨40, _⟩ => ⟨S40x160, .f32⟩
  | .hbm, ⟨41, _⟩ => ⟨S1x160, .f32⟩
  | .hbm, ⟨42, _⟩ => ⟨S_, .f32⟩
  | .hbm, ⟨43, _⟩ => ⟨S1x160, .f32⟩
  | .hbm, ⟨44, _⟩ => ⟨S1x160, .f32⟩
  | .hbm, ⟨45, _⟩ => ⟨S40x160, .f32⟩
  | .hbm, ⟨46, _⟩ => ⟨S40x160, .f32⟩
  | .hbm, ⟨47, _⟩ => ⟨S80x160, .f32⟩
  | .hbm, ⟨48, _⟩ => ⟨S80x160, .bf16⟩
  | .hbm, ⟨49, _⟩ => ⟨S160x160x1, .f32⟩
  | .hbm, ⟨50, _⟩ => ⟨S160x160, .f32⟩
  | .hbm, ⟨51, _⟩ => ⟨S160x160, .f32⟩
  | .hbm, ⟨52, _⟩ => ⟨S160x160x1, .f32⟩
  | .hbm, ⟨53, _⟩ => ⟨S160x160, .f32⟩
  | .hbm, ⟨54, _⟩ => ⟨S160x160, .f32⟩
  | .hbm, ⟨55, _⟩ => ⟨S320x160, .f32⟩
  | .hbm, ⟨56, _⟩ => ⟨S160, .f32⟩
  | .hbm, ⟨57, _⟩ => ⟨S64x2000x160, .f32⟩
  | .hbm, ⟨58, _⟩ => ⟨S64x1x320000, .f32⟩
  | .local _ .vmem, ⟨0, _⟩ => ⟨S1x2000x160, .f32⟩
  | .local _ .vmem, ⟨1, _⟩ => ⟨S1x2000x160, .f32⟩
  | .local _ .vmem, ⟨2, _⟩ => ⟨S1x2000x128, .f32⟩
  | .local _ .vmem, ⟨3, _⟩ => ⟨S1x2000x128, .f32⟩
  | .local _ .vmem, ⟨4, _⟩ => ⟨S256x160, .bf16⟩
  | .local _ .vmem, ⟨5, _⟩ => ⟨S80x160, .bf16⟩
  | .local _ .vmem, ⟨6, _⟩ => ⟨S160, .f32⟩
  | .local _ .vmem, ⟨7, _⟩ => ⟨S320x160, .f32⟩
  | .local _ .vmem, ⟨8, _⟩ => ⟨S160, .f32⟩
  | .local _ .vmem, ⟨9, _⟩ => ⟨S1x2000x160, .f32⟩
  | .local _ .vmem, ⟨10, _⟩ => ⟨S1x2000x160, .f32⟩
  | _, _ => ⟨S64x1x320000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2000x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x160 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S80x160 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S320x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x2000x160 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S64x1x320000_S64x2000x160 : S64x1x320000.ShapeCasts S64x2000x160
  slices_S160x128x2_S160x128x1_0_0_0 : S160x128x2.Slices ![0, 0, 0] S160x128x1
  shapeCasts_S160x128x1_S160x128 : S160x128x1.ShapeCasts S160x128
  transposes_S160x128_S128x160_1_0 : S160x128.Transposes [1, 0] S128x160
  slices_S160x128x2_S160x128x1_0_0_1 : S160x128x2.Slices ![0, 0, 1] S160x128x1
  concatenates_S128x160_S128x160_S256x160_d0 : Shape.Concatenates [S128x160, S128x160] S256x160 0
  bitsLt_bf16_f32 : FTy.bits .bf16 < FTy.bits .f32
  slices_S160x41x2_S160x41x1_0_0_0 : S160x41x2.Slices ![0, 0, 0] S160x41x1
  shapeCasts_S160x41x1_S160x41 : S160x41x1.ShapeCasts S160x41
  slices_S160x41_S160x40_0_0 : S160x41.Slices ![0, 0] S160x40
  slices_S160x41_S160x1_0_40 : S160x41.Slices ![0, 40] S160x1
  shapeCasts_S160x1_S160 : S160x1.ShapeCasts S160
  reducesTo_S160x40_S160_d1 : S160x40.ReducesTo [1] S160
  h_S_ : 0 < S_.numel
  transposes_S160x40_S40x160_1_0 : S160x40.Transposes [1, 0] S40x160
  bcast_S160_S1x160_1 : S160.BroadcastsInDim S1x160 (![1] : Fin 1 → Fin S1x160.rank)
  bcast_S_S1x160 : S_.BroadcastsInDim S1x160 (![] : Fin 0 → Fin S1x160.rank)
  bcast_S1x160_S40x160_0_1 : S1x160.BroadcastsInDim S40x160 (![0, 1] : Fin 2 → Fin S40x160.rank)
  slices_S160x41x2_S160x41x1_0_0_1 : S160x41x2.Slices ![0, 0, 1] S160x41x1
  concatenates_S40x160_S40x160_S80x160_d0 : Shape.Concatenates [S40x160, S40x160] S80x160 0
  slices_S160x160x2_S160x160x1_0_0_0 : S160x160x2.Slices ![0, 0, 0] S160x160x1
  shapeCasts_S160x160x1_S160x160 : S160x160x1.ShapeCasts S160x160
  transposes_S160x160_S160x160_1_0 : S160x160.Transposes [1, 0] S160x160
  slices_S160x160x2_S160x160x1_0_0_1 : S160x160x2.Slices ![0, 0, 1] S160x160x1
  concatenates_S160x160_S160x160_S320x160_d0 : Shape.Concatenates [S160x160, S160x160] S320x160 0
  inb_S1x2000x160_S1x2000x160_0_0_0 : ∀ a, (![0, 0, 0] : Fin 3 → Nat) a + S1x2000x160.size a ≤ S1x2000x160.size a
  h_S1x2000x160 : 0 < S1x2000x160.numel
  shapeCasts_S1x2000x160_S2000x160 : S1x2000x160.ShapeCasts S2000x160
  inb_S1x2000x128_S1x2000x128_0_0_0 : ∀ a, (![0, 0, 0] : Fin 3 → Nat) a + S1x2000x128.size a ≤ S1x2000x128.size a
  h_S1x2000x128 : 0 < S1x2000x128.numel
  shapeCasts_S1x2000x128_S2000x128 : S1x2000x128.ShapeCasts S2000x128
  shapeCasts_S2000x160_S2000x40x4 : S2000x160.ShapeCasts S2000x40x4
  reduces_S2000x40x4_S2000x40 : S2000x40x4.Reduces [2] S2000x40
  slices_S2000x128_o0_0_S1999x128 : S2000x128.Slices ![0, 0] S1999x128
  concatenates_S1x128_S1999x128_S2000x128_d0 : Shape.Concatenates [S1x128, S1999x128] S2000x128 0
  slices_S2000x40_o0_0_S1999x40 : S2000x40.Slices ![0, 0] S1999x40
  concatenates_S1x40_S1999x40_S2000x40_d0 : Shape.Concatenates [S1x40, S1999x40] S2000x40 0
  concatenates_S2000x128_S2000x128_S2000x256_d1 : Shape.Concatenates [S2000x128, S2000x128] S2000x256 1
  concatenates_S2000x40_S2000x40_S2000x80_d1 : Shape.Concatenates [S2000x40, S2000x40] S2000x80 1
  inb_S256x160_S256x160_0_0 : ∀ a, (![0, 0] : Fin 2 → Nat) a + S256x160.size a ≤ S256x160.size a
  h_S256x160 : 0 < S256x160.numel
  shapeCasts_S256x160_S256x160 : S256x160.ShapeCasts S256x160
  inb_S80x160_S80x160_0_0 : ∀ a, (![0, 0] : Fin 2 → Nat) a + S80x160.size a ≤ S80x160.size a
  h_S80x160 : 0 < S80x160.numel
  shapeCasts_S80x160_S80x160 : S80x160.ShapeCasts S80x160
  inb_S160_S160_0 : ∀ a, (![0] : Fin 1 → Nat) a + S160.size a ≤ S160.size a
  h_S160 : 0 < S160.numel
  shapeCasts_S160_S160 : S160.ShapeCasts S160
  shapeCasts_S160_S1x160 : S160.ShapeCasts S1x160
  broadcasts_S1x160_S2000x160 : S1x160.Broadcasts S2000x160
  slices_S2000x160_o0_0_S1999x160 : S2000x160.Slices ![0, 0] S1999x160
  concatenates_S1x160_S1999x160_S2000x160_d0 : Shape.Concatenates [S1x160, S1999x160] S2000x160 0
  concatenates_S2000x160_S2000x160_S2000x320_d1 : Shape.Concatenates [S2000x160, S2000x160] S2000x320 1
  inb_S320x160_S320x160_0_0 : ∀ a, (![0, 0] : Fin 2 → Nat) a + S320x160.size a ≤ S320x160.size a
  h_S320x160 : 0 < S320x160.numel
  shapeCasts_S320x160_S320x160 : S320x160.ShapeCasts S320x160
  shapeCasts_S2000x160_S1x2000x160 : S2000x160.ShapeCasts S1x2000x160
  shapeCasts_S64x2000x160_S64x1x320000 : S64x2000x160.ShapeCasts S64x1x320000
  dot_S2000x256_S256x160_S2000x160_1_0_0_1_n_n_wf : DotDims.WF S2000x256 S256x160 S2000x160 [1] [0] [0] [1] [] []
  dot_S2000x80_S80x160_S2000x160_1_0_0_1_n_n_wf : DotDims.WF S2000x80 S80x160 S2000x160 [1] [0] [0] [1] [] []
  dot_S2000x320_S320x160_S2000x160_1_0_0_1_n_n_wf : DotDims.WF S2000x320 S320x160 S2000x160 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2000x160.size a ≤ S64x2000x160.size a
  hwx0_0 : ∀ i : grid0.Coords, EltTy.bits .f32 = 32 ∨ (Rect.block (s := S64x2000x160) S1x2000x160.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2000x128.size a ≤ S64x2000x128.size a
  hwx0_1 : ∀ i : grid0.Coords, EltTy.bits .f32 = 32 ∨ (Rect.block (s := S64x2000x128) S1x2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x160.size a ≤ S256x160.size a
  hwx0_2 : ∀ i : grid0.Coords, EltTy.bits .bf16 = 32 ∨ (Rect.block (s := S256x160) S256x160.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S80x160.size a ≤ S80x160.size a
  hwx0_3 : ∀ i : grid0.Coords, EltTy.bits .bf16 = 32 ∨ (Rect.block (s := S80x160) S80x160.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S160.size a ≤ S160.size a
  hwx0_4 : ∀ i : grid0.Coords, EltTy.bits .f32 = 32 ∨ (Rect.block (s := S160) S160.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S320x160.size a ≤ S320x160.size a
  hwx0_5 : ∀ i : grid0.Coords, EltTy.bits .f32 = 32 ∨ (Rect.block (s := S320x160) S320x160.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S160.size a ≤ S160.size a
  hwx0_6 : ∀ i : grid0.Coords, EltTy.bits .f32 = 32 ∨ (Rect.block (s := S160) S160.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2000x160.size a ≤ S64x2000x160.size a
  hwx0_7 : ∀ i : grid0.Coords, EltTy.bits .f32 = 32 ∨ (Rect.block (s := S64x2000x160) S1x2000x160.size (cc0_transform_7 i) (hinb0_7 i)).WholeWords (EltTy.packing .f32)

variable [Facts₀]

def dot_S2000x256_S256x160_S2000x160_1_0_0_1_n_n : DotDims S2000x256 S256x160 S2000x160 where
  lhsContracting := [1]
  rhsContracting := [0]
  lhsNonContracting := [0]
  rhsNonContracting := [1]
  lhsBatch := []
  rhsBatch := []
  wf := dot_S2000x256_S256x160_S2000x160_1_0_0_1_n_n_wf
def dot_S2000x80_S80x160_S2000x160_1_0_0_1_n_n : DotDims S2000x80 S80x160 S2000x160 where
  lhsContracting := [1]
  rhsContracting := [0]
  lhsNonContracting := [0]
  rhsNonContracting := [1]
  lhsBatch := []
  rhsBatch := []
  wf := dot_S2000x80_S80x160_S2000x160_1_0_0_1_n_n_wf
def dot_S2000x320_S320x160_S2000x160_1_0_0_1_n_n : DotDims S2000x320 S320x160 S2000x160 where
  lhsContracting := [1]
  rhsContracting := [0]
  lhsNonContracting := [0]
  rhsNonContracting := [1]
  lhsBatch := []
  rhsBatch := []
  wf := dot_S2000x320_S320x160_S2000x160_1_0_0_1_n_n_wf

abbrev win0_0 : Pipeline.Window sig grid0 :=
  Pipeline.Window.ofSpec (Memref.whole main_v0) S1x2000x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S256x160.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S80x160.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v44) S160.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v43) S320x160.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S160.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v45) S1x2000x160.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x1x320000 : Shape := ⟨3, ![64, 1, 320000]⟩
abbrev S64x2000x128 : Shape := ⟨3, ![64, 2000, 128]⟩
abbrev S160x128x2 : Shape := ⟨3, ![160, 128, 2]⟩
abbrev S160 : Shape := ⟨1, ![160]⟩
abbrev S160x41x2 : Shape := ⟨3, ![160, 41, 2]⟩
abbrev S160x160x2 : Shape := ⟨3, ![160, 160, 2]⟩
abbrev S64x320000 : Shape := ⟨2, ![64, 320000]⟩
abbrev S64x80000x4 : Shape := ⟨3, ![64, 80000, 4]⟩
abbrev S_ : Shape := ⟨0, ![]⟩
abbrev S64x80000 : Shape := ⟨2, ![64, 80000]⟩
abbrev S64x2000x40 : Shape := ⟨3, ![64, 2000, 40]⟩
abbrev S64x2000 : Shape := ⟨2, ![64, 2000]⟩
abbrev S64x2000x1 : Shape := ⟨3, ![64, 2000, 1]⟩
abbrev S64x2000x41 : Shape := ⟨3, ![64, 2000, 41]⟩
abbrev S64x2001x128 : Shape := ⟨3, ![64, 2001, 128]⟩
abbrev S160x128x1 : Shape := ⟨3, ![160, 128, 1]⟩
abbrev S160x128 : Shape := ⟨2, ![160, 128]⟩
abbrev S64x2000x160 : Shape := ⟨3, ![64, 2000, 160]⟩
abbrev S1x1x160 : Shape := ⟨3, ![1, 1, 160]⟩
abbrev S64x2001x41 : Shape := ⟨3, ![64, 2001, 41]⟩
abbrev S160x41x1 : Shape := ⟨3, ![160, 41, 1]⟩
abbrev S160x41 : Shape := ⟨2, ![160, 41]⟩
abbrev S64x2001x160 : Shape := ⟨3, ![64, 2001, 160]⟩
abbrev S160x160x1 : Shape := ⟨3, ![160, 160, 1]⟩
abbrev S160x160 : Shape := ⟨2, ![160, 160]⟩

abbrev nBuf : Space → Nat
  | .hbm => 85
  | .vmem => 0
  | .smem => 0
  | _ => 0

abbrev bufTy : (tb : Table) → Fin (tcTables nBuf tb) → BufTy
  | .hbm, ⟨0, _⟩ => ⟨S64x1x320000, .f32⟩
  | .hbm, ⟨1, _⟩ => ⟨S64x2000x128, .f32⟩
  | .hbm, ⟨2, _⟩ => ⟨S160x128x2, .f32⟩
  | .hbm, ⟨3, _⟩ => ⟨S160, .f32⟩
  | .hbm, ⟨4, _⟩ => ⟨S160x41x2, .f32⟩
  | .hbm, ⟨5, _⟩ => ⟨S160, .f32⟩
  | .hbm, ⟨6, _⟩ => ⟨S160x160x2, .f32⟩
  | .hbm, ⟨7, _⟩ => ⟨S160, .f32⟩
  | .hbm, ⟨8, _⟩ => ⟨S64x320000, .f32⟩
  | .hbm, ⟨9, _⟩ => ⟨S64x320000, .f32⟩
  | .hbm, ⟨10, _⟩ => ⟨S64x80000x4, .f32⟩
  | .hbm, ⟨11, _⟩ => ⟨S_, .f32⟩
  | .hbm, ⟨12, _⟩ => ⟨S64x80000, .f32⟩
  | .hbm, ⟨13, _⟩ => ⟨S_, .f32⟩
  | .hbm, ⟨14, _⟩ => ⟨S64x80000, .f32⟩
  | .hbm, ⟨15, _⟩ => ⟨S64x80000, .f32⟩
  | .hbm, ⟨16, _⟩ => ⟨S_, .f32⟩
  | .hbm, ⟨17, _⟩ => ⟨S64x80000, .f32⟩
  | .hbm, ⟨18, _⟩ => ⟨S64x80000, .f32⟩
  | .hbm, ⟨19, _⟩ => ⟨S64x80000, .f32⟩
  | .hbm, ⟨20, _⟩ => ⟨S64x2000x40, .f32⟩
  | .hbm, ⟨21, _⟩ => ⟨S_, .f32⟩
  | .hbm, ⟨22, _⟩ => ⟨S64x2000, .f32⟩
  | .hbm, ⟨23, _⟩ => ⟨S64x2000x1, .f32⟩
  | .hbm, ⟨24, _⟩ => ⟨S_, .f32⟩
  | .hbm, ⟨25, _⟩ => ⟨S64x2000x1, .f32⟩
  | .hbm, ⟨26, _⟩ => ⟨S64x2000x1, .f32⟩
  | .hbm, ⟨27, _⟩ => ⟨S64x2000x40, .f32⟩
  | .hbm, ⟨28, _⟩ => ⟨S64x2000x40, .f32⟩
  | .hbm, ⟨29, _⟩ => ⟨S64x2000x41, .f32⟩
  | .hbm, ⟨30, _⟩ => ⟨S_, .i32⟩
  | .hbm, ⟨31, _⟩ => ⟨S_, .f32⟩
  | .hbm, ⟨32, _⟩ => ⟨S64x2001x128, .f32⟩
  | .hbm, ⟨33, _⟩ => ⟨S64x2000x128, .f32⟩
  | .hbm, ⟨34, _⟩ => ⟨S160x128x1, .f32⟩
  | .hbm, ⟨35, _⟩ => ⟨S160x128, .f32⟩
  | .hbm, ⟨36, _⟩ => ⟨S64x2000x160, .f32⟩
  | .hbm, ⟨37, _⟩ => ⟨S160x128x1, .f32⟩
  | .hbm, ⟨38, _⟩ => ⟨S160x128, .f32⟩
  | .hbm, ⟨39, _⟩ => ⟨S64x2000x160, .f32⟩
  | .hbm, ⟨40, _⟩ => ⟨S64x2000x160, .f32⟩
  | .hbm, ⟨41, _⟩ => ⟨S1x1x160, .f32⟩
  | .hbm, ⟨42, _⟩ => ⟨S64x2000x160, .f32⟩
  | .hbm, ⟨43, _⟩ => ⟨S64x2000x160, .f32⟩
  | .hbm, ⟨44, _⟩ => ⟨S_, .i32⟩
  | .hbm, ⟨45, _⟩ => ⟨S_, .f32⟩
  | .hbm, ⟨46, _⟩ => ⟨S64x2001x41, .f32⟩
  | .hbm, ⟨47, _⟩ => ⟨S64x2000x41, .f32⟩
  | .hbm, ⟨48, _⟩ => ⟨S160x41x1, .f32⟩
  | .hbm, ⟨49, _⟩ => ⟨S160x41, .f32⟩
  | .hbm, ⟨50, _⟩ => ⟨S64x2000x160, .f32⟩
  | .hbm, ⟨51, _⟩ => ⟨S160x41x1, .f32⟩
  | .hbm, ⟨52, _⟩ => ⟨S160x41, .f32⟩
  | .hbm, ⟨53, _⟩ => ⟨S64x2000x160, .f32⟩
  | .hbm, ⟨54, _⟩ => ⟨S64x2000x160, .f32⟩
  | .hbm, ⟨55, _⟩ => ⟨S1x1x160, .f32⟩
  | .hbm, ⟨56, _⟩ => ⟨S64x2000x160, .f32⟩
  | .hbm, ⟨57, _⟩ => ⟨S64x2000x160, .f32⟩
  | .hbm, ⟨58, _⟩ => ⟨S64x2000x160, .f32⟩
  | .hbm, ⟨59, _⟩ => ⟨S_, .f32⟩
  | .hbm, ⟨60, _⟩ => ⟨S_, .f32⟩
  | .hbm, ⟨61, _⟩ => ⟨S64x2000x160, .f32⟩
  | .hbm, ⟨62, _⟩ => ⟨S64x2000x160, .i1⟩
  | .hbm, ⟨63, _⟩ => ⟨S_, .f32⟩
  | .hbm, ⟨64, _⟩ => ⟨S64x2000x160, .f32⟩
  | .hbm, ⟨65, _⟩ => ⟨S64x2000x160, .f32⟩
  | .hbm, ⟨66, _⟩ => ⟨S64x2000x160, .f32⟩
  | .hbm, ⟨67, _⟩ => ⟨S_, .i32⟩
  | .hbm, ⟨68, _⟩ => ⟨S_, .f32⟩
  | .hbm, ⟨69, _⟩ => ⟨S64x2001x160, .f32⟩
  | .hbm, ⟨70, _⟩ => ⟨S64x2000x160, .f32⟩
  | .hbm, ⟨71, _⟩ => ⟨S160x160x1, .f32⟩
  | .hbm, ⟨72, _⟩ => ⟨S160x160, .f32⟩
  | .hbm, ⟨73, _⟩ => ⟨S64x2000x160, .f32⟩
  | .hbm, ⟨74, _⟩ => ⟨S160x160x1, .f32⟩
  | .hbm, ⟨75, _⟩ => ⟨S160x160, .f32⟩
  | .hbm, ⟨76, _⟩ => ⟨S64x2000x160, .f32⟩
  | .hbm, ⟨77, _⟩ => ⟨S64x2000x160, .f32⟩
  | .hbm, ⟨78, _⟩ => ⟨S1x1x160, .f32⟩
  | .hbm, ⟨79, _⟩ => ⟨S64x2000x160, .f32⟩
  | .hbm, ⟨80, _⟩ => ⟨S64x2000x160, .f32⟩
  | .hbm, ⟨81, _⟩ => ⟨S64x2000x160, .f32⟩
  | .hbm, ⟨82, _⟩ => ⟨S64x2000x160, .f32⟩
  | .hbm, ⟨83, _⟩ => ⟨S64x2000x160, .f32⟩
  | .hbm, ⟨84, _⟩ => ⟨S64x1x320000, .f32⟩
  | _, _ => ⟨S64x1x320000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_call1_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_5 : Ref sig .tc := ⟨.hbm, 59, rfl⟩
abbrev main_call2_cst : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v42 : Ref sig .tc := ⟨.hbm, 66, rfl⟩
abbrev main_c_6 : Ref sig .tc := ⟨.hbm, 67, rfl⟩
abbrev main_call3_v0 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩

abbrev nD : Nat := 1
abbrev τ : Topo := Topo.v7x

variable {F : FTy → Type} [FloatOps F]

class Facts₀ : Prop where
  shapeCasts_S64x1x320000_S64x320000 : S64x1x320000.ShapeCasts S64x320000
  shapeCasts_S64x320000_S64x80000x4 : S64x320000.ShapeCasts S64x80000x4
  reducesTo_S64x80000x4_S64x80000_d2 : S64x80000x4.ReducesTo [2] S64x80000
  h_S_ : 0 < S_.numel
  bcast_S_S64x80000 : S_.BroadcastsInDim S64x80000 (![] : Fin 0 → Fin S64x80000.rank)
  shapeCasts_S64x80000_S64x2000x40 : S64x80000.ShapeCasts S64x2000x40
  reducesTo_S64x2000x40_S64x2000_d2 : S64x2000x40.ReducesTo [2] S64x2000
  bcast_S64x2000_S64x2000x1_0_1 : S64x2000.BroadcastsInDim S64x2000x1 (![0, 1] : Fin 2 → Fin S64x2000x1.rank)
  bcast_S_S64x2000x1 : S_.BroadcastsInDim S64x2000x1 (![] : Fin 0 → Fin S64x2000x1.rank)
  bcast_S64x2000x1_S64x2000x40_0_1_2 : S64x2000x1.BroadcastsInDim S64x2000x40 (![0, 1, 2] : Fin 3 → Fin S64x2000x40.rank)
  concatenates_S64x2000x40_S64x2000x1_S64x2000x41_d2 : Shape.Concatenates [S64x2000x40, S64x2000x1] S64x2000x41 2
  pads_S64x2000x128_S64x2001x128_000_100_000 : S64x2000x128.Pads (![0, 1, 0] : Fin 3 → Nat) ![0, 0, 0] ![0, 0, 0] S64x2001x128
  slices_S64x2001x128_S64x2000x128_0_0_0 : S64x2001x128.Slices ![0, 0, 0] S64x2000x128
  slices_S160x128x2_S160x128x1_0_0_0 : S160x128x2.Slices ![0, 0, 0] S160x128x1
  shapeCasts_S160x128x1_S160x128 : S160x128x1.ShapeCasts S160x128
  slices_S160x128x2_S160x128x1_0_0_1 : S160x128x2.Slices ![0, 0, 1] S160x128x1
  bcast_S160_S1x1x160_2 : S160.BroadcastsInDim S1x1x160 (![2] : Fin 1 → Fin S1x1x160.rank)
  bcast_S1x1x160_S64x2000x160_0_1_2 : S1x1x160.BroadcastsInDim S64x2000x160 (![0, 1, 2] : Fin 3 → Fin S64x2000x160.rank)
  pads_S64x2000x41_S64x2001x41_000_100_000 : S64x2000x41.Pads (![0, 1, 0] : Fin 3 → Nat) ![0, 0, 0] ![0, 0, 0] S64x2001x41
  slices_S64x2001x41_S64x2000x41_0_0_0 : S64x2001x41.Slices ![0, 0, 0] S64x2000x41
  slices_S160x41x2_S160x41x1_0_0_0 : S160x41x2.Slices ![0, 0, 0] S160x41x1
  shapeCasts_S160x41x1_S160x41 : S160x41x1.ShapeCasts S160x41
  slices_S160x41x2_S160x41x1_0_0_1 : S160x41x2.Slices ![0, 0, 1] S160x41x1
  bcast_S_S64x2000x160 : S_.BroadcastsInDim S64x2000x160 (![] : Fin 0 → Fin S64x2000x160.rank)
  pads_S64x2000x160_S64x2001x160_000_100_000 : S64x2000x160.Pads (![0, 1, 0] : Fin 3 → Nat) ![0, 0, 0] ![0, 0, 0] S64x2001x160
  slices_S64x2001x160_S64x2000x160_0_0_0 : S64x2001x160.Slices ![0, 0, 0] S64x2000x160
  slices_S160x160x2_S160x160x1_0_0_0 : S160x160x2.Slices ![0, 0, 0] S160x160x1
  shapeCasts_S160x160x1_S160x160 : S160x160x1.ShapeCasts S160x160
  slices_S160x160x2_S160x160x1_0_0_1 : S160x160x2.Slices ![0, 0, 1] S160x160x1
  shapeCasts_S64x1x320000_S64x2000x160 : S64x1x320000.ShapeCasts S64x2000x160
  shapeCasts_S64x2000x160_S64x1x320000 : S64x2000x160.ShapeCasts S64x1x320000
  dot_S64x2000x128_S160x128_S64x2000x160_2_1_01_0_n_n_wf : DotDims.WF S64x2000x128 S160x128 S64x2000x160 [2] [1] [0, 1] [0] [] []
  dot_S64x2000x41_S160x41_S64x2000x160_2_1_01_0_n_n_wf : DotDims.WF S64x2000x41 S160x41 S64x2000x160 [2] [1] [0, 1] [0] [] []
  dot_S64x2000x160_S160x160_S64x2000x160_2_1_01_0_n_n_wf : DotDims.WF S64x2000x160 S160x160 S64x2000x160 [2] [1] [0, 1] [0] [] []

variable [Facts₀]

def dot_S64x2000x128_S160x128_S64x2000x160_2_1_01_0_n_n : DotDims S64x2000x128 S160x128 S64x2000x160 where
  lhsContracting := [2]
  rhsContracting := [1]
  lhsNonContracting := [0, 1]
  rhsNonContracting := [0]
  lhsBatch := []
  rhsBatch := []
  wf := dot_S64x2000x128_S160x128_S64x2000x160_2_1_01_0_n_n_wf
def dot_S64x2000x41_S160x41_S64x2000x160_2_1_01_0_n_n : DotDims S64x2000x41 S160x41 S64x2000x160 where
  lhsContracting := [2]
  rhsContracting := [1]
  lhsNonContracting := [0, 1]
  rhsNonContracting := [0]
  lhsBatch := []
  rhsBatch := []
  wf := dot_S64x2000x41_S160x41_S64x2000x160_2_1_01_0_n_n_wf
def dot_S64x2000x160_S160x160_S64x2000x160_2_1_01_0_n_n : DotDims S64x2000x160 S160x160 S64x2000x160 where
  lhsContracting := [2]
  rhsContracting := [1]
  lhsNonContracting := [0, 1]
  rhsNonContracting := [0]
  lhsBatch := []
  rhsBatch := []
  wf := dot_S64x2000x160_S160x160_S64x2000x160_2_1_01_0_n_n_wf

class Facts : Prop extends Facts₀ where

variable [Facts]
-- ==== Proof.Spec.lean ====
/-
  The mathematics of the temporal-envelope shaping gain, stated once, index by index, on the extended reals.

  A batch row is a waveform of 2000 frames of 160 samples. From each frame the LOG-ENVELOPE is taken: the mean
  absolute value of each of its 40 groups of 4 samples, plus 2⁻¹⁶, under the logarithm. Two causal two-tap
  convolutions over the frames — one of the 128 conditioning features, one of the centred envelope (the 40 entries
  minus their mean, then the mean itself: 41 channels) — are added, passed through a leaky rectifier of slope 0.2,
  convolved once more (160 → 160 channels), exponentiated, and multiply the frame's samples.

  Two arrangements of this computation are written here over the same argument arrays.
  * `GR` is the arrangement above, literally.
  * `GK` contracts, per layer, ONE product over the previous frame's channels followed by the current frame's
    (256, 80 and 320 wide) against the two taps' weights stacked; the envelope's mean is folded into the weights
    (row c of the folded matrix is tap weight c plus a fortieth of "the mean's weight minus the sum of the 40
    others"); and the last product is taken three times — against the weights, against "weights minus weights",
    and of "activations minus activations" against the weights.
  `Cert.Shaping.Law` proves the two equal where every argument entry is finite.
-/
import Idealize.ShloMosaic.PureOps.Ideal
import Idealize.ShloMosaic.PureOps.Ideal.Laws
import Idealize.ShloMosaic.Lib.ValueIdx

noncomputable section

open scoped BigOperators

namespace Cert.Shaping

open Idealize.ShloMosaic Idealize.ShloMosaic.ValueIdx

/-! ## The argument arrays and the literals -/

/-- The waveforms: 64 rows of one channel of 320000 = 2000 · 160 samples. -/
abbrev Wave := (⟨3, ![64, 1, 320000]⟩ : Shape).Idx → EReal
/-- The conditioning features: 64 rows of 2000 frames of 128 channels. -/
abbrev Feat := (⟨3, ![64, 2000, 128]⟩ : Shape).Idx → EReal
/-- A two-tap convolution's weights, (output channel, input channel, tap). -/
abbrev Taps (cin : Nat) := (⟨3, ![160, cin, 2]⟩ : Shape).Idx → EReal
/-- A bias per output channel. -/
abbrev Bias := (⟨1, ![160]⟩ : Shape).Idx → EReal

/-- 4, the group length. -/
abbrev four : EReal := Ideal.ofBits .f32 0x40800000#32
/-- 2⁻¹⁶, added under the logarithm. -/
abbrev eps : EReal := Ideal.ofBits .f32 0x37800000#32
/-- 40, the number of groups. -/
abbrev forty : EReal := Ideal.ofBits .f32 0x42200000#32
/-- The rectifier's slope on the negative side: the f32 nearest 0.2, the same word in both arrangements. -/
abbrev slope : EReal := Ideal.ofBits .f32 0x3E4CCCCD#32

/-! ## Coordinates -/

/-- Sample `f` of frame `t`, as a position in the row: `160 t + f`. -/
def smpPos (t : Fin 2000) (f : Fin 160) : Fin 320000 := ⟨160 * t.val + f.val, by have := t.isLt; have := f.isLt; omega⟩
/-- Member `k` of group `j`, as a sample of the frame: `4 j + k`. -/
def grpPos (j : Fin 40) (k : Fin 4) : Fin 160 := ⟨4 * j.val + k.val, by have := j.isLt; have := k.isLt; omega⟩
/-- A channel below `n` of a wider axis, narrowed. -/
def lo {n N : Nat} (c : Fin N) (h : c.val < n) : Fin n := ⟨c.val, h⟩
/-- A channel at or above `n` of an axis of `n + n'`, shifted down. -/
def hi {n n' N : Nat} (hN : N = n + n') (c : Fin N) (h : ¬ c.val < n) : Fin n' := ⟨c.val - n, by have := c.isLt; omega⟩
/-- A channel of the narrower axis as one of the wider. -/
def wide {n N : Nat} (hN : n ≤ N) (c : Fin n) : Fin N := ⟨c.val, lt_of_lt_of_le c.isLt hN⟩
/-- The frame before `t`, for `t ≠ 0`. -/
def pred (t : Fin 2000) (h : t.val ≠ 0) : Fin 2000 := ⟨t.val - 1, by have := t.isLt; omega⟩

/-- A sequence over the frames shifted by one frame, zero at the first: the causal tap. -/
def prev (a : Fin 2000 → EReal) (t : Fin 2000) : EReal := if h : t.val = 0 then 0 else a (pred t h)

/-! ## What both arrangements share -/

/-- Sample `f` of frame `t` of row `b`. -/
def smp (X : Wave) (b : Fin 64) (t : Fin 2000) (f : Fin 160) : EReal := X (ix3 b 0 (smpPos t f))

/-- The log-envelope: `log (mean of the group's |samples| + 2⁻¹⁶)`. -/
def env (X : Wave) (b : Fin 64) (t : Fin 2000) (j : Fin 40) : EReal :=
  Ideal.log (Ideal.div (∑ k : Fin 4, max (smp X b t (grpPos j k)) (-(smp X b t (grpPos j k)))) four + eps)

/-- The leaky rectifier: `v` where `0 ≤ v`, `v · slope` elsewhere. -/
def lrelu (v : EReal) : EReal := Scalar.select (Ideal.cmp .oge v 0) v (v * slope)

/-! ## The convolution arrangement (`GR`) -/

/-- The envelope's mean over its 40 groups. -/
def avg (X : Wave) (b : Fin 64) (t : Fin 2000) : EReal := Ideal.div (∑ j : Fin 40, env X b t j) forty

/-- The centred envelope with its mean appended: 41 channels. -/
def tenv (X : Wave) (b : Fin 64) (t : Fin 2000) (c : Fin 41) : EReal :=
  if h : c.val < 40 then env X b t (lo c h) - avg X b t else avg X b t

/-- A causal two-tap convolution at (frame, output channel): tap 0 on the previous frame, tap 1 on this one, plus the bias. -/
def conv {cin : Nat} (a : Fin 2000 → Fin cin → EReal) (W : Taps cin) (bias : Bias) (t : Fin 2000) (o : Fin 160) : EReal :=
  ((∑ c : Fin cin, prev (fun s => a s c) t * W (ix3 o c 0)) + (∑ c : Fin cin, a t c * W (ix3 o c 1))) + bias (ix1 o)

/-- The first layer before the rectifier: the features' convolution plus the centred envelope's. -/
def pre1R (X : Wave) (Ft : Feat) (W1f : Taps 128) (b1f : Bias) (W1t : Taps 41) (b1t : Bias) (b : Fin 64) (t : Fin 2000) (o : Fin 160) : EReal :=
  conv (fun s c => Ft (ix3 b s c)) W1f b1f t o + conv (fun s c => tenv X b s c) W1t b1t t o

/-- The result, convolution arrangement. -/
def GR (X : Wave) (Ft : Feat) (W1f : Taps 128) (b1f : Bias) (W1t : Taps 41) (b1t : Bias) (W2 : Taps 160) (b2 : Bias)
    (b : Fin 64) (t : Fin 2000) (f : Fin 160) : EReal :=
  Ideal.exp (conv (fun s c => lrelu (pre1R X Ft W1f b1f W1t b1t b s c)) W2 b2 t f) * smp X b t f

/-! ## The stacked arrangement (`GK`) -/

/-- Previous frame's channels followed by this frame's: `2 n` channels. -/
def stack {n N : Nat} (hN : N = n + n) (a : Fin 2000 → Fin n → EReal) (t : Fin 2000) (c : Fin N) : EReal :=
  if h : c.val < n then prev (fun s => a s (lo c h)) t else a t (hi hN c h)

/-- The two taps' weights stacked the same way, (stacked input channel, output channel). -/
def stackW {n N : Nat} (hN : N = n + n) (M : Fin 2 → Fin n → Fin 160 → EReal) (c : Fin N) (o : Fin 160) : EReal :=
  if h : c.val < n then M 0 (lo c h) o else M 1 (hi hN c h) o

/-- A tap's weights, transposed to (input channel, output channel). -/
def tapW {cin : Nat} (W : Taps cin) (τ : Fin 2) (c : Fin cin) (o : Fin 160) : EReal := W (ix3 o c τ)

/-- The envelope tap with the mean folded in: weight `c` plus a fortieth of (the mean's weight minus the 40 others' sum). -/
def foldW (W1t : Taps 41) (τ : Fin 2) (c : Fin 40) (o : Fin 160) : EReal :=
  W1t (ix3 o (wide (by decide) c) τ)
    + Ideal.div (W1t (ix3 o (40 : Fin 41) τ) - ∑ c' : Fin 40, W1t (ix3 o (wide (by decide) c') τ)) forty

/-- The first layer before the rectifier, stacked arrangement. -/
def pre1K (X : Wave) (Ft : Feat) (W1f : Taps 128) (b1f : Bias) (W1t : Taps 41) (b1t : Bias) (b : Fin 64) (t : Fin 2000) (o : Fin 160) : EReal :=
  ((∑ c : Fin 256, stack (n := 128) rfl (fun s c' => Ft (ix3 b s c')) t c * stackW (n := 128) rfl (tapW W1f) c o)
    + (∑ c : Fin 80, stack (n := 40) rfl (fun s j => env X b s j) t c * stackW (n := 40) rfl (foldW W1t) c o))
    + (b1f (ix1 o) + b1t (ix1 o))

/-- The second layer before the exponential, stacked arrangement: the product taken three times. -/
def pre2K (A : Fin 2000 → Fin 160 → EReal) (W2 : Taps 160) (b2 : Bias) (t : Fin 2000) (o : Fin 160) : EReal :=
  (((∑ c : Fin 320, stack (n := 160) rfl A t c * stackW (n := 160) rfl (tapW W2) c o)
      + (∑ c : Fin 320, stack (n := 160) rfl A t c * (stackW (n := 160) rfl (tapW W2) c o - stackW (n := 160) rfl (tapW W2) c o)))
    + (∑ c : Fin 320, (stack (n := 160) rfl A t c - stack (n := 160) rfl A t c) * stackW (n := 160) rfl (tapW W2) c o))
    + b2 (ix1 o)

/-- The result, stacked arrangement. -/
def GK (X : Wave) (Ft : Feat) (W1f : Taps 128) (b1f : Bias) (W1t : Taps 41) (b1t : Bias) (W2 : Taps 160) (b2 : Bias)
    (b : Fin 64) (t : Fin 2000) (f : Fin 160) : EReal :=
  Ideal.exp (pre2K (fun s c => lrelu (pre1K X Ft W1f b1f W1t b1t b s c)) W2 b2 t f) * smp X b t f

end Cert.Shaping

end
-- ==== Proof.Prefix.Args.lean ====
/-
  The argument arrays as launched on a core, typed as the specification's arrays.
-/
import proofs.«118238_j46170898432119_2_alg».proof.Proof.Gen.KernelIdeal.Frame
import proofs.«118238_j46170898432119_2_alg».proof.Proof.Spec

noncomputable section

namespace Cert.KernelIdeal.Prefix

open Idealize.ShloMosaic Idealize.ShloMosaic.TcCoe Idealize.SL.Sem Cert.KernelIdeal Cert.Shaping

variable (m : (ℓ : Loc nD τ sig) → Buf (Elt Ideal) ℓ) (c : Dev nD)

/-- The waveforms. -/
abbrev argWave : Wave := m ((c.tc : Thread nD τ).loc main_arg0)
/-- The features' two-tap weights. -/
abbrev argFeatTaps : Taps 128 := m ((c.tc : Thread nD τ).loc main_arg2)
/-- The features' bias. -/
abbrev argFeatBias : Bias := m ((c.tc : Thread nD τ).loc main_arg3)
/-- The envelope's two-tap weights. -/
abbrev argEnvTaps : Taps 41 := m ((c.tc : Thread nD τ).loc main_arg4)
/-- The envelope's bias. -/
abbrev argEnvBias : Bias := m ((c.tc : Thread nD τ).loc main_arg5)
/-- The second layer's two-tap weights. -/
abbrev argOutTaps : Taps 160 := m ((c.tc : Thread nD τ).loc main_arg6)

end Cert.KernelIdeal.Prefix

end
-- ==== Proof.Prefix.Bias.lean ====
/-
  The sum of the first layer's two biases, as the region finds it: the one host addition before the region, read back
  from the program's run as a term of the two bias arguments.
-/
import proofs.«118238_j46170898432119_2_alg».proof.Proof.Prefix.Args
import Idealize.ShloMosaic.Lib.ValueIdx
import Idealize.ShloMosaic.Lib.StableHlo.Run

noncomputable section

namespace Cert.KernelIdeal.Prefix

open Idealize.ShloMosaic Idealize.ShloMosaic.TcCoe Idealize.ShloMosaic.ValueIdx Idealize.SL.Sem
open Cert.KernelIdeal Cert.KernelIdeal.Gen Cert.Shaping

variable (m : (ℓ : Loc nD τ sig) → Buf (Elt Ideal) ℓ) (c : Dev nD)

/-- The array of added biases is the elementwise sum of the two bias arguments. -/
theorem bias1_term :
    (V m c main_v44 : S160.Idx → EReal) = addf (F := Ideal) (φ := .f32) (argFeatBias m c) (argEnvBias m c) := by
  show StableHlo.after hostOps0 (fun b => m (c, b)) (Proc.devRef .tc main_v44) = _
  after_results_simp
  all_goals rfl

/-- … so at output channel `o` it is the sum of the two biases there. -/
theorem bias1_read (o : Fin 160) :
    (V m c main_v44 : S160.Idx → EReal) (ix1 o) = argFeatBias m c (ix1 o) + argEnvBias m c (ix1 o) :=
  congrFun (bias1_term m c) (ix1 o)

end Cert.KernelIdeal.Prefix

end
-- ==== Proof.Prefix.Layout.lean ====
/-
  Reading the prepared arrays at an index: the layout steps alone, over any arrays of the literal shapes.

  A two-tap weight array (output channel, input channel, tap) is prepared, per tap, by cutting the tap out, dropping
  the unit axis and transposing, which gives the matrix (input channel, output channel) of that tap; the two matrices
  are then stacked along the rows, tap 0 above tap 1. For the envelope's 41-channel weights the 41st input channel (the
  mean's) is first folded into the other 40: each gets a fortieth of "the mean's weight minus the sum of the 40".
  The waveform's rows are cut into frames by a reshape, which keeps the row-major position: 160 t + f.
-/
import proofs.«118238_j46170898432119_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Shaping.Layout

open Idealize.ShloMosaic Idealize.ShloMosaic.ValueIdx Cert.Shaping

variable {α : Type}

/-! ## The waveform cut into frames -/

/-- A row of 320000 samples reshaped to 2000 frames of 160: entry (b, t, f) is sample 160 t + f of row b. -/
theorem frames_read (X : Wave) (h : (⟨3, ![64, 1, 320000]⟩ : Shape).ShapeCasts ⟨3, ![64, 2000, 160]⟩)
    (b : Fin 64) (t : Fin 2000) (f : Fin 160) :
    shapeCast ⟨3, ![64, 2000, 160]⟩ X h (ix3 b t f) = smp X b t f := by
  unfold smp
  refine shapeCast_apply X h _ _ ?_
  rw [Shape.rowMajor_val_three, Shape.rowMajor_val_three]
  show (b.val * 1 + 0) * 320000 + (160 * t.val + f.val) = (b.val * 2000 + t.val) * 160 + f.val
  omega

/-! ## One tap as a matrix -/

/-- Tap `τ` cut out of a two-tap weight array and its unit axis dropped: entry (o, k) is the weight (o, k, τ). -/
theorem tapCut_apply {n : ℕ} (W : (⟨3, ![160, n, 2]⟩ : Shape).Idx → α) (off : ℕ) (τ : Fin 2) (hτ : τ.val = off)
    (h1 : (⟨3, ![160, n, 2]⟩ : Shape).Slices ![0, 0, off] ⟨3, ![160, n, 1]⟩)
    (h2 : (⟨3, ![160, n, 1]⟩ : Shape).ShapeCasts ⟨2, ![160, n]⟩) (o : Fin 160) (k : Fin n) :
    shapeCast ⟨2, ![160, n]⟩ (extractStridedSlice ⟨3, ![160, n, 1]⟩ ![0, 0, off] W h1) h2 (ix2 o k) = W (ix3 o k τ) := by
  rw [shapeCast_apply _ h2 (ix2 o k) (ix3 o k (0 : Fin 1)) (by
    rw [Shape.rowMajor_val_three, Shape.rowMajor_val_two]
    show (o.val * n + k.val) * 1 + 0 = o.val * n + k.val
    omega)]
  refine extractStridedSlice_apply _ W h1 _ _ fun ax => ?_
  match ax with
  | ⟨0, _⟩ => exact (Nat.zero_add _).symm
  | ⟨1, _⟩ => exact (Nat.zero_add _).symm
  | ⟨2, _⟩ => exact hτ

/-- … and transposed: entry (k, o) is the weight (o, k, τ). -/
theorem tapMat_apply {n : ℕ} (W : (⟨3, ![160, n, 2]⟩ : Shape).Idx → α) (off : ℕ) (τ : Fin 2) (hτ : τ.val = off)
    (h1 : (⟨3, ![160, n, 2]⟩ : Shape).Slices ![0, 0, off] ⟨3, ![160, n, 1]⟩)
    (h2 : (⟨3, ![160, n, 1]⟩ : Shape).ShapeCasts ⟨2, ![160, n]⟩)
    (h3 : (⟨2, ![160, n]⟩ : Shape).Transposes [1, 0] ⟨2, ![n, 160]⟩) (k : Fin n) (o : Fin 160) :
    transpose ⟨2, ![n, 160]⟩ [1, 0]
        (shapeCast ⟨2, ![160, n]⟩ (extractStridedSlice ⟨3, ![160, n, 1]⟩ ![0, 0, off] W h1) h2) h3 (ix2 k o)
      = W (ix3 o k τ) := by
  rw [transpose_ix2_apply]
  exact tapCut_apply W off τ hτ h1 h2 o k

/-! ## Two matrices stacked along the rows -/

/-- Two (n × 160) matrices stacked: a row below `n` is the first's, a row from `n` on the second's, `n` less. -/
theorem stack2_apply {n N : ℕ} (hN : N = n + n) (A B : (⟨2, ![n, 160]⟩ : Shape).Idx → α)
    (h : Shape.Concatenates [(⟨2, ![n, 160]⟩ : Shape), ⟨2, ![n, 160]⟩] ⟨2, ![N, 160]⟩ 0) (k : Fin N) (o : Fin 160) :
    concatenate ⟨2, ![N, 160]⟩ 0 [⟨⟨2, ![n, 160]⟩, A⟩, ⟨⟨2, ![n, 160]⟩, B⟩] h (ix2 k o)
      = if hk : k.val < n then A (ix2 (lo k hk) o) else B (ix2 (hi hN k hk) o) := by
  by_cases hk : k.val < n
  · rw [dif_pos hk]
    exact concatenate_pair_apply_left 0 A B h (ix2 k o) rfl (ix2 (lo k hk) o) (fun b => by
      match b with
      | ⟨0, _⟩ => rfl
      | ⟨1, _⟩ => rfl)
  · rw [dif_neg hk]
    refine concatenate_pair_apply_right 0 A B h (ix2 k o) rfl rfl (ix2 (hi hN k hk) o) (fun b hb => ?_) ?_
    · match b with
      | ⟨0, _⟩ => exact absurd rfl hb
      | ⟨1, _⟩ => rfl
    · show (k.val - n) + n = k.val
      omega

/-- The two taps of a weight array, each as its matrix, stacked: the specification's stacked weights. -/
theorem stackTaps_apply {n N : ℕ} (hN : N = n + n) (W : Taps n)
    (h10 : (⟨3, ![160, n, 2]⟩ : Shape).Slices ![0, 0, 0] ⟨3, ![160, n, 1]⟩)
    (h11 : (⟨3, ![160, n, 2]⟩ : Shape).Slices ![0, 0, 1] ⟨3, ![160, n, 1]⟩)
    (h2 : (⟨3, ![160, n, 1]⟩ : Shape).ShapeCasts ⟨2, ![160, n]⟩)
    (h3 : (⟨2, ![160, n]⟩ : Shape).Transposes [1, 0] ⟨2, ![n, 160]⟩)
    (hc : Shape.Concatenates [(⟨2, ![n, 160]⟩ : Shape), ⟨2, ![n, 160]⟩] ⟨2, ![N, 160]⟩ 0) (k : Fin N) (o : Fin 160) :
    concatenate ⟨2, ![N, 160]⟩ 0
        [⟨⟨2, ![n, 160]⟩, transpose ⟨2, ![n, 160]⟩ [1, 0]
            (shapeCast ⟨2, ![160, n]⟩ (extractStridedSlice ⟨3, ![160, n, 1]⟩ ![0, 0, 0] W h10) h2) h3⟩,
         ⟨⟨2, ![n, 160]⟩, transpose ⟨2, ![n, 160]⟩ [1, 0]
            (shapeCast ⟨2, ![160, n]⟩ (extractStridedSlice ⟨3, ![160, n, 1]⟩ ![0, 0, 1] W h11) h2) h3⟩] hc (ix2 k o)
      = stackW hN (tapW W) k o := by
  rw [stack2_apply hN]
  unfold stackW tapW
  by_cases hk : k.val < n
  · rw [dif_pos hk, dif_pos hk]
    exact tapMat_apply W 0 0 rfl h10 h2 h3 _ _
  · rw [dif_neg hk, dif_neg hk]
    exact tapMat_apply W 1 1 rfl h11 h2 h3 _ _

end Cert.Shaping.Layout

end
-- ==== Proof.Prefix.Frames.lean ====
/-
  The waveform cut into frames, as the region finds it: the one host reshape of the waveform argument before the
  region, read back from the program's run and then at an index.
-/
import proofs.«118238_j46170898432119_2_alg».proof.Proof.Prefix.Args
import proofs.«118238_j46170898432119_2_alg».proof.Proof.Prefix.Layout
import Idealize.ShloMosaic.Lib.ValueIdx
import Idealize.ShloMosaic.Lib.StableHlo.Run

noncomputable section

namespace Cert.KernelIdeal.Prefix

open Idealize.ShloMosaic Idealize.ShloMosaic.TcCoe Idealize.ShloMosaic.ValueIdx Idealize.SL.Sem
open Cert.KernelIdeal Cert.KernelIdeal.Gen Cert.Shaping

variable (m : (ℓ : Loc nD τ sig) → Buf (Elt Ideal) ℓ) (c : Dev nD)

/-- The framed array is the waveform argument reshaped. -/
theorem frames_term :
    (V m c main_v0 : S64x2000x160.Idx → EReal)
      = shapeCast S64x2000x160 (argWave m c) shapeCasts_S64x1x320000_S64x2000x160 := by
  show StableHlo.after hostOps0 (fun b => m (c, b)) (Proc.devRef .tc main_v0) = _
  after_results_simp
  all_goals rfl

/-- … so entry (b, t, f) is sample 160 t + f of row b. -/
theorem frames_read (b : Fin 64) (t : Fin 2000) (f : Fin 160) :
    (V m c main_v0 : S64x2000x160.Idx → EReal) (ix3 b t f) = smp (argWave m c) b t f :=
  (congrFun (frames_term m c) (ix3 b t f)).trans (Layout.frames_read _ _ b t f)

end Cert.KernelIdeal.Prefix

end
-- ==== Proof.Prefix.OutW.lean ====
/-
  The second layer's taps as the region finds them: each tap cut out of the weight argument, its unit axis dropped,
  transposed to (input channel, output channel), and the two stacked, tap 0 above tap 1 — read back from the program's
  run as a term of the weight argument, and then at an index.
-/
import proofs.«118238_j46170898432119_2_alg».proof.Proof.Prefix.Args
import proofs.«118238_j46170898432119_2_alg».proof.Proof.Prefix.Layout
import Idealize.ShloMosaic.Lib.ValueIdx
import Idealize.ShloMosaic.Lib.StableHlo.Run

noncomputable section

namespace Cert.KernelIdeal.Prefix

open Idealize.ShloMosaic Idealize.ShloMosaic.TcCoe Idealize.ShloMosaic.ValueIdx Idealize.SL.Sem
open Cert.KernelIdeal Cert.KernelIdeal.Gen Cert.Shaping

variable (m : (ℓ : Loc nD τ sig) → Buf (Elt Ideal) ℓ) (c : Dev nD)

/-- The stacked array is the two taps' transposed matrices, concatenated along the rows. -/
theorem outW_term :
    (V m c main_v43 : S320x160.Idx → EReal)
      = concatenate S320x160 0
          [⟨S160x160, transpose S160x160 [1, 0]
              (shapeCast S160x160 (extractStridedSlice S160x160x1 ![0, 0, 0] (argOutTaps m c)
                slices_S160x160x2_S160x160x1_0_0_0) shapeCasts_S160x160x1_S160x160)
              transposes_S160x160_S160x160_1_0⟩,
           ⟨S160x160, transpose S160x160 [1, 0]
              (shapeCast S160x160 (extractStridedSlice S160x160x1 ![0, 0, 1] (argOutTaps m c)
                slices_S160x160x2_S160x160x1_0_0_1) shapeCasts_S160x160x1_S160x160)
              transposes_S160x160_S160x160_1_0⟩]
          concatenates_S160x160_S160x160_S320x160_d0 := by
  show StableHlo.after hostOps0 (fun b => m (c, b)) (Proc.devRef .tc main_v43) = _
  after_results_simp
  all_goals rfl

/-- … so at (stacked input channel k, output channel o) it is the specification's stacked weights. -/
theorem outW_read (k : Fin 320) (o : Fin 160) :
    (V m c main_v43 : S320x160.Idx → EReal) (ix2 k o) = stackW (n := 160) rfl (tapW (argOutTaps m c)) k o :=
  (congrFun (outW_term m c) (ix2 k o)).trans
    (Layout.stackTaps_apply (n := 160) (N := 320) rfl _ _ _ _ _ _ k o)

end Cert.KernelIdeal.Prefix

end
-- ==== Proof.Prefix.FeatW.lean ====
/-
  The features' taps as the region finds them: each tap cut out of the weight argument, its unit axis dropped,
  transposed to (input channel, output channel), the two stacked, tap 0 above tap 1, and the result converted to the
  narrower float format, which changes no extended real — read back from the program's run as a term of the weight
  argument, and then at an index.
-/
import proofs.«118238_j46170898432119_2_alg».proof.Proof.Prefix.Args
import proofs.«118238_j46170898432119_2_alg».proof.Proof.Prefix.Layout
import Idealize.ShloMosaic.Lib.ValueIdx
import Idealize.ShloMosaic.Lib.StableHlo.Run

noncomputable section

namespace Cert.KernelIdeal.Prefix

open Idealize.ShloMosaic Idealize.ShloMosaic.TcCoe Idealize.ShloMosaic.ValueIdx Idealize.SL.Sem
open Cert.KernelIdeal Cert.KernelIdeal.Gen Cert.Shaping

variable (m : (ℓ : Loc nD τ sig) → Buf (Elt Ideal) ℓ) (c : Dev nD)

/-- The stacked array is the two taps' transposed matrices, concatenated along the rows, then converted. -/
theorem featW_term :
    (V m c main_v8 : S256x160.Idx → EReal)
      = truncf (F := Ideal) (φ := .f32) .bf16
          (concatenate S256x160 0
            [⟨S128x160, transpose S128x160 [1, 0]
                (shapeCast S160x128 (extractStridedSlice S160x128x1 ![0, 0, 0] (argFeatTaps m c)
                  slices_S160x128x2_S160x128x1_0_0_0) shapeCasts_S160x128x1_S160x128)
                transposes_S160x128_S128x160_1_0⟩,
             ⟨S128x160, transpose S128x160 [1, 0]
                (shapeCast S160x128 (extractStridedSlice S160x128x1 ![0, 0, 1] (argFeatTaps m c)
                  slices_S160x128x2_S160x128x1_0_0_1) shapeCasts_S160x128x1_S160x128)
                transposes_S160x128_S128x160_1_0⟩]
            concatenates_S128x160_S128x160_S256x160_d0) bitsLt_bf16_f32 := by
  show StableHlo.after hostOps0 (fun b => m (c, b)) (Proc.devRef .tc main_v8) = _
  after_results_simp
  all_goals rfl

/-- … so at (stacked input channel k, output channel o) it is the specification's stacked weights. -/
theorem featW_read (k : Fin 256) (o : Fin 160) :
    (V m c main_v8 : S256x160.Idx → EReal) (ix2 k o) = stackW (n := 128) rfl (tapW (argFeatTaps m c)) k o := by
  refine (congrFun (featW_term m c) (ix2 k o)).trans ?_
  rw [truncf_apply]
  exact Layout.stackTaps_apply (n := 128) (N := 256) rfl _ _ _ _ _ _ k o

end Cert.KernelIdeal.Prefix

end
-- ==== Proof.Prefix.Fold.lean ====
/-
  The envelope tap with the mean's weight folded into the other 40, read at an index.

  From the (output channel, input channel) matrix of one tap of the 41-channel weights: the first 40 input channels are
  kept and transposed; the 41st column minus the row sums of those 40, divided by 40, is added to every one of the 40
  rows. At (input channel j, output channel o) that is weight (o, j) plus a fortieth of "weight (o, 40) minus the sum
  of the weights (o, 0 … 39)".
-/
import proofs.«118238_j46170898432119_2_alg».proof.Proof.Prefix.Layout

noncomputable section

open scoped BigOperators

namespace Cert.Shaping.Layout

open Idealize.ShloMosaic Idealize.ShloMosaic.ValueIdx Cert.Shaping

/-- The host's sum over the 40 input channels, started from the zero word: the plain sum. -/
theorem rowSum_apply (M : (⟨2, ![160, 40]⟩ : Shape).Idx → EReal)
    (hred : (⟨2, ![160, 40]⟩ : Shape).ReducesTo [1] ⟨1, ![160]⟩) (hS : 0 < (⟨0, ![]⟩ : Shape).numel) (o : Fin 160) :
    Host.reduceAdd (F := Ideal) (φ := .f32) M (constant (F := Ideal) ⟨0, ![]⟩ .f32 0x00000000#32) hred hS (ix1 o)
      = ∑ k : Fin 40, M (ix2 o k) := by
  have hR : (⟨2, ![160, 40]⟩ : Shape).Reduces [1] ⟨1, ![160]⟩ := by decide
  show Ideal.hostReduceAdd hred M (Ideal.ofBits .f32 0x00000000#32) (ix1 o) = _
  rw [Ideal.hostReduceAdd_single hred hR, Ideal.ofBits_zero_f32, zero_add]
  show (∑ k : Fin 40, M (hR.lift (ix1 o) k)) = _
  refine Finset.sum_congr rfl fun k _ => congrArg M ?_
  funext c
  apply Fin.ext
  match c with
  | ⟨0, _⟩ => rfl
  | ⟨1, _⟩ => rfl

/-- One tap's matrix with the mean's column folded into the other 40, transposed, at (j, o). -/
theorem foldMat_apply (M : (⟨2, ![160, 41]⟩ : Shape).Idx → EReal)
    (hs40 : (⟨2, ![160, 41]⟩ : Shape).Slices ![0, 0] ⟨2, ![160, 40]⟩)
    (hs1 : (⟨2, ![160, 41]⟩ : Shape).Slices ![0, 40] ⟨2, ![160, 1]⟩)
    (hsc : (⟨2, ![160, 1]⟩ : Shape).ShapeCasts ⟨1, ![160]⟩)
    (hred : (⟨2, ![160, 40]⟩ : Shape).ReducesTo [1] ⟨1, ![160]⟩) (hS : 0 < (⟨0, ![]⟩ : Shape).numel)
    (ht : (⟨2, ![160, 40]⟩ : Shape).Transposes [1, 0] ⟨2, ![40, 160]⟩)
    (hb1 : (⟨1, ![160]⟩ : Shape).BroadcastsInDim ⟨2, ![1, 160]⟩ ![1])
    (hb0 : (⟨0, ![]⟩ : Shape).BroadcastsInDim ⟨2, ![1, 160]⟩ ![])
    (hb3 : (⟨2, ![1, 160]⟩ : Shape).BroadcastsInDim ⟨2, ![40, 160]⟩ ![0, 1])
    (j : Fin 40) (o : Fin 160) :
    addf (F := Ideal) (φ := .f32)
        (transpose ⟨2, ![40, 160]⟩ [1, 0] (extractStridedSlice ⟨2, ![160, 40]⟩ ![0, 0] M hs40) ht)
        (broadcastInDim ⟨2, ![40, 160]⟩ ![0, 1] hb3
          (Host.divf (F := Ideal) (φ := .f32)
            (broadcastInDim ⟨2, ![1, 160]⟩ ![1] hb1
              (subf (F := Ideal) (φ := .f32)
                (shapeCast ⟨1, ![160]⟩ (extractStridedSlice ⟨2, ![160, 1]⟩ ![0, 40] M hs1) hsc)
                (Host.reduceAdd (F := Ideal) (φ := .f32) (extractStridedSlice ⟨2, ![160, 40]⟩ ![0, 0] M hs40)
                  (constant (F := Ideal) ⟨0, ![]⟩ .f32 0x00000000#32) hred hS)))
            (broadcastInDim ⟨2, ![1, 160]⟩ ![] hb0 (constant (F := Ideal) ⟨0, ![]⟩ .f32 0x42200000#32))))
        (ix2 j o)
      = M (ix2 o (wide (by decide) j))
          + Ideal.div (M (ix2 o (40 : Fin 41)) - ∑ c' : Fin 40, M (ix2 o (wide (by decide) c'))) forty := by
  have hcut : ∀ (o : Fin 160) (k : Fin 40),
      extractStridedSlice ⟨2, ![160, 40]⟩ ![0, 0] M hs40 (ix2 o k) = M (ix2 o (wide (by decide) k)) := fun o k =>
    slice2_axis1_apply 0 M hs40 o k (wide (by decide) k) (by show k.val = 0 + k.val; omega)
  rw [addf_apply, transpose_ix2_apply, hcut]
  congr 1
  rw [broadcastInDim_apply ![0, 1] hb3 _ (ix2 j o) (ix2 (0 : Fin 1) o) (fun a => by
    match a with
    | ⟨0, _⟩ => rfl
    | ⟨1, _⟩ => rfl)]
  show Ideal.div
      (broadcastInDim ⟨2, ![1, 160]⟩ ![1] hb1
        (subf (F := Ideal) (φ := .f32)
          (shapeCast ⟨1, ![160]⟩ (extractStridedSlice ⟨2, ![160, 1]⟩ ![0, 40] M hs1) hsc)
          (Host.reduceAdd (F := Ideal) (φ := .f32) (extractStridedSlice ⟨2, ![160, 40]⟩ ![0, 0] M hs40)
            (constant (F := Ideal) ⟨0, ![]⟩ .f32 0x00000000#32) hred hS)) (ix2 (0 : Fin 1) o))
      forty = _
  rw [broadcastInDim_apply ![1] hb1 _ (ix2 (0 : Fin 1) o) (ix1 o) (fun a => by
    match a with
    | ⟨0, _⟩ => rfl)]
  rw [subf_apply, rowSum_apply]
  rw [shapeCast_apply _ hsc (ix1 o) (ix2 o (0 : Fin 1)) (by
    rw [Shape.rowMajor_val_two, Shape.rowMajor_val_one]
    show o.val * 1 + 0 = o.val
    omega)]
  rw [slice2_axis1_apply 40 M hs1 o (0 : Fin 1) (40 : Fin 41) rfl]
  simp only [hcut]

/-- The same from the weight array itself: tap `τ` cut out, folded and transposed is the specification's folded tap. -/
theorem foldTap_apply (W : Taps 41) (off : ℕ) (τ : Fin 2) (hτ : τ.val = off)
    (h1 : (⟨3, ![160, 41, 2]⟩ : Shape).Slices ![0, 0, off] ⟨3, ![160, 41, 1]⟩)
    (h2 : (⟨3, ![160, 41, 1]⟩ : Shape).ShapeCasts ⟨2, ![160, 41]⟩)
    (hs40 : (⟨2, ![160, 41]⟩ : Shape).Slices ![0, 0] ⟨2, ![160, 40]⟩)
    (hs1 : (⟨2, ![160, 41]⟩ : Shape).Slices ![0, 40] ⟨2, ![160, 1]⟩)
    (hsc : (⟨2, ![160, 1]⟩ : Shape).ShapeCasts ⟨1, ![160]⟩)
    (hred : (⟨2, ![160, 40]⟩ : Shape).ReducesTo [1] ⟨1, ![160]⟩) (hS : 0 < (⟨0, ![]⟩ : Shape).numel)
    (ht : (⟨2, ![160, 40]⟩ : Shape).Transposes [1, 0] ⟨2, ![40, 160]⟩)
    (hb1 : (⟨1, ![160]⟩ : Shape).BroadcastsInDim ⟨2, ![1, 160]⟩ ![1])
    (hb0 : (⟨0, ![]⟩ : Shape).BroadcastsInDim ⟨2, ![1, 160]⟩ ![])
    (hb3 : (⟨2, ![1, 160]⟩ : Shape).BroadcastsInDim ⟨2, ![40, 160]⟩ ![0, 1])
    (j : Fin 40) (o : Fin 160) :
    addf (F := Ideal) (φ := .f32)
        (transpose ⟨2, ![40, 160]⟩ [1, 0] (extractStridedSlice ⟨2, ![160, 40]⟩ ![0, 0]
          (shapeCast ⟨2, ![160, 41]⟩ (extractStridedSlice ⟨3, ![160, 41, 1]⟩ ![0, 0, off] W h1) h2) hs40) ht)
        (broadcastInDim ⟨2, ![40, 160]⟩ ![0, 1] hb3
          (Host.divf (F := Ideal) (φ := .f32)
            (broadcastInDim ⟨2, ![1, 160]⟩ ![1] hb1
              (subf (F := Ideal) (φ := .f32)
                (shapeCast ⟨1, ![160]⟩ (extractStridedSlice ⟨2, ![160, 1]⟩ ![0, 40]
                  (shapeCast ⟨2, ![160, 41]⟩ (extractStridedSlice ⟨3, ![160, 41, 1]⟩ ![0, 0, off] W h1) h2) hs1) hsc)
                (Host.reduceAdd (F := Ideal) (φ := .f32) (extractStridedSlice ⟨2, ![160, 40]⟩ ![0, 0]
                  (shapeCast ⟨2, ![160, 41]⟩ (extractStridedSlice ⟨3, ![160, 41, 1]⟩ ![0, 0, off] W h1) h2) hs40)
                  (constant (F := Ideal) ⟨0, ![]⟩ .f32 0x00000000#32) hred hS)))
            (broadcastInDim ⟨2, ![1, 160]⟩ ![] hb0 (constant (F := Ideal) ⟨0, ![]⟩ .f32 0x42200000#32))))
        (ix2 j o)
      = foldW W τ j o := by
  rw [foldMat_apply]
  unfold foldW
  simp only [tapCut_apply W off τ hτ h1 h2]

end Cert.Shaping.Layout

end
-- ==== Proof.Prefix.EnvW.lean ====
/-
  The envelope's taps as the region finds them. Each tap is cut out of the 41-channel weight argument and its unit
  axis dropped; the first 40 input channels are kept and transposed to (input channel, output channel); the 41st (the
  mean's weight) minus the sum of the other 40, divided by 40, is added to each of the 40 rows; the two folded taps are
  stacked, tap 0 above tap 1, and converted to the narrower float format, which changes no extended real — read back
  from the program's run as a term of the weight argument, and then at an index.
-/
import proofs.«118238_j46170898432119_2_alg».proof.Proof.Prefix.Args
import proofs.«118238_j46170898432119_2_alg».proof.Proof.Prefix.Fold
import Idealize.ShloMosaic.Lib.ValueIdx
import Idealize.ShloMosaic.Lib.StableHlo.Run

noncomputable section

namespace Cert.KernelIdeal.Prefix

open Idealize.ShloMosaic Idealize.ShloMosaic.TcCoe Idealize.ShloMosaic.ValueIdx Idealize.SL.Sem
open Cert.KernelIdeal Cert.KernelIdeal.Gen Cert.Shaping

variable (m : (ℓ : Loc nD τ sig) → Buf (Elt Ideal) ℓ) (c : Dev nD)

/-- The stacked array is the two folded taps, concatenated along the rows, then converted. -/
theorem envW_term :
    (V m c main_v36 : S80x160.Idx → EReal)
      = truncf (F := Ideal) (φ := .f32) .bf16
          (concatenate S80x160 0
            [⟨S40x160, addf (F := Ideal) (φ := .f32)
              (transpose S40x160 [1, 0] (extractStridedSlice S160x40 ![0, 0]
                (shapeCast S160x41 (extractStridedSlice S160x41x1 ![0, 0, 0] (argEnvTaps m c)
                  slices_S160x41x2_S160x41x1_0_0_0) shapeCasts_S160x41x1_S160x41) slices_S160x41_S160x40_0_0)
                transposes_S160x40_S40x160_1_0)
              (broadcastInDim S40x160 ![0, 1] bcast_S1x160_S40x160_0_1
                (Host.divf (F := Ideal) (φ := .f32)
                  (broadcastInDim S1x160 ![1] bcast_S160_S1x160_1
                    (subf (F := Ideal) (φ := .f32)
                      (shapeCast S160 (extractStridedSlice S160x1 ![0, 40]
                        (shapeCast S160x41 (extractStridedSlice S160x41x1 ![0, 0, 0] (argEnvTaps m c)
                          slices_S160x41x2_S160x41x1_0_0_0) shapeCasts_S160x41x1_S160x41)
                        slices_S160x41_S160x1_0_40) shapeCasts_S160x1_S160)
                      (Host.reduceAdd (F := Ideal) (φ := .f32) (extractStridedSlice S160x40 ![0, 0]
                        (shapeCast S160x41 (extractStridedSlice S160x41x1 ![0, 0, 0] (argEnvTaps m c)
                          slices_S160x41x2_S160x41x1_0_0_0) shapeCasts_S160x41x1_S160x41)
                        slices_S160x41_S160x40_0_0)
                        (constant (F := Ideal) S_ .f32 0x00000000#32) reducesTo_S160x40_S160_d1 h_S_)))
                  (broadcastInDim S1x160 ![] bcast_S_S1x160 (constant (F := Ideal) S_ .f32 0x42200000#32))))⟩,
             ⟨S40x160, addf (F := Ideal) (φ := .f32)
              (transpose S40x160 [1, 0] (extractStridedSlice S160x40 ![0, 0]
                (shapeCast S160x41 (extractStridedSlice S160x41x1 ![0, 0, 1] (argEnvTaps m c)
                  slices_S160x41x2_S160x41x1_0_0_1) shapeCasts_S160x41x1_S160x41) slices_S160x41_S160x40_0_0)
                transposes_S160x40_S40x160_1_0)
              (broadcastInDim S40x160 ![0, 1] bcast_S1x160_S40x160_0_1
                (Host.divf (F := Ideal) (φ := .f32)
                  (broadcastInDim S1x160 ![1] bcast_S160_S1x160_1
                    (subf (F := Ideal) (φ := .f32)
                      (shapeCast S160 (extractStridedSlice S160x1 ![0, 40]
                        (shapeCast S160x41 (extractStridedSlice S160x41x1 ![0, 0, 1] (argEnvTaps m c)
                          slices_S160x41x2_S160x41x1_0_0_1) shapeCasts_S160x41x1_S160x41)
                        slices_S160x41_S160x1_0_40) shapeCasts_S160x1_S160)
                      (Host.reduceAdd (F := Ideal) (φ := .f32) (extractStridedSlice S160x40 ![0, 0]
                        (shapeCast S160x41 (extractStridedSlice S160x41x1 ![0, 0, 1] (argEnvTaps m c)
                          slices_S160x41x2_S160x41x1_0_0_1) shapeCasts_S160x41x1_S160x41)
                        slices_S160x41_S160x40_0_0)
                        (constant (F := Ideal) S_ .f32 0x00000000#32) reducesTo_S160x40_S160_d1 h_S_)))
                  (broadcastInDim S1x160 ![] bcast_S_S1x160 (constant (F := Ideal) S_ .f32 0x42200000#32))))⟩]
            concatenates_S40x160_S40x160_S80x160_d0) bitsLt_bf16_f32 := by
  show StableHlo.after hostOps0 (fun b => m (c, b)) (Proc.devRef .tc main_v36) = _
  after_results_simp
  all_goals rfl

/-- … so at (stacked input channel k, output channel o) it is the specification's stacked folded weights. -/
theorem envW_read (k : Fin 80) (o : Fin 160) :
    (V m c main_v36 : S80x160.Idx → EReal) (ix2 k o) = stackW (n := 40) rfl (foldW (argEnvTaps m c)) k o := by
  refine (congrFun (envW_term m c) (ix2 k o)).trans ?_
  rw [truncf_apply, Layout.stack2_apply (n := 40) (N := 80) rfl]
  unfold stackW
  by_cases hk : k.val < 40
  · rw [dif_pos hk, dif_pos hk]
    exact Layout.foldTap_apply (argEnvTaps m c) 0 0 rfl _ _ _ _ _ _ _ _ _ _ _ _ o
  · rw [dif_neg hk, dif_neg hk]
    exact Layout.foldTap_apply (argEnvTaps m c) 1 1 rfl _ _ _ _ _ _ _ _ _ _ _ _ o

end Cert.KernelIdeal.Prefix

end
-- ==== Proof.HostPrefix.lean ====
/-
  The arrays the kernel's region is launched on, read at an index.

  Before the region the program prepares five arrays from the arguments, with no arithmetic on the waveform or the
  features: the waveform's rows cut into frames; each convolution's two taps transposed to (input channel, output
  channel) and stacked, tap 0 above tap 1; for the envelope's convolution with the mean folded into the weights first
  (row c of a folded tap is weight c plus a fortieth of "the mean's weight minus the sum of the 40 others"); and the sum
  of the first layer's two biases. Each is stated here as the specification's function of the argument arrays.
-/
import proofs.«118238_j46170898432119_2_alg».proof.Proof.Gen.KernelIdeal.Frame
import proofs.«118238_j46170898432119_2_alg».proof.Proof.Spec
import proofs.«118238_j46170898432119_2_alg».proof.Proof.Prefix.Bias
import proofs.«118238_j46170898432119_2_alg».proof.Proof.Prefix.Frames
import proofs.«118238_j46170898432119_2_alg».proof.Proof.Prefix.OutW
import proofs.«118238_j46170898432119_2_alg».proof.Proof.Prefix.FeatW
import proofs.«118238_j46170898432119_2_alg».proof.Proof.Prefix.EnvW
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

namespace Cert.KernelIdeal.Prefix

open Idealize.ShloMosaic Idealize.ShloMosaic.TcCoe Idealize.ShloMosaic.ValueIdx Idealize.SL.Sem Cert.KernelIdeal Cert.KernelIdeal.Gen Cert.Shaping

variable (m : (ℓ : Loc nD τ sig) → Buf (Elt Ideal) ℓ) (c : Dev nD)

/-- The argument arrays as launched on core `c`, typed as the specification's arrays. -/
abbrev aX : Wave := m ((c.tc : Thread nD τ).loc main_arg0)
abbrev aFt : Feat := m ((c.tc : Thread nD τ).loc main_arg1)
abbrev aW1f : Taps 128 := m ((c.tc : Thread nD τ).loc main_arg2)
abbrev ab1f : Bias := m ((c.tc : Thread nD τ).loc main_arg3)
abbrev aW1t : Taps 41 := m ((c.tc : Thread nD τ).loc main_arg4)
abbrev ab1t : Bias := m ((c.tc : Thread nD τ).loc main_arg5)
abbrev aW2 : Taps 160 := m ((c.tc : Thread nD τ).loc main_arg6)
abbrev ab2 : Bias := m ((c.tc : Thread nD τ).loc main_arg7)

/-- The waveform cut into frames: entry (b, t, f) is sample `160 t + f` of row `b`. -/
theorem frames_apply (b : Fin 64) (t : Fin 2000) (f : Fin 160) :
    (V m c main_v0 : S64x2000x160.Idx → EReal) (ix3 b t f) = smp (aX m c) b t f := by
  exact frames_read m c b t f

/-- The features' taps, transposed and stacked (in bf16 on the chip: the same extended reals). -/
theorem featW_apply (k : Fin 256) (o : Fin 160) :
    (V m c main_v8 : S256x160.Idx → EReal) (ix2 k o) = stackW (n := 128) rfl (tapW (aW1f m c)) k o := by
  exact featW_read m c k o

/-- The envelope's taps with the mean folded in, transposed and stacked. -/
theorem envW_apply (k : Fin 80) (o : Fin 160) :
    (V m c main_v36 : S80x160.Idx → EReal) (ix2 k o) = stackW (n := 40) rfl (foldW (aW1t m c)) k o := by
  exact envW_read m c k o

/-- The first layer's two biases, added. -/
theorem bias1_apply (o : Fin 160) :
    (V m c main_v44 : S160.Idx → EReal) (ix1 o) = ab1f m c (ix1 o) + ab1t m c (ix1 o) := by
  exact bias1_read m c o

/-- The second layer's taps, transposed and stacked. -/
theorem outW_apply (k : Fin 320) (o : Fin 160) :
    (V m c main_v43 : S320x160.Idx → EReal) (ix2 k o) = stackW (n := 160) rfl (tapW (aW2 m c)) k o := by
  exact outW_read m c k o

end Cert.KernelIdeal.Prefix

end
-- ==== Proof.KernelLayout.lean ====
/-
  The layout steps of the kernel's body, each read at an index.

  Four patterns recur in the body, once per layer. A sequence over the frames is delayed by one frame with a zero
  row in front (the causal tap): that is the specification's `prev`. The delayed rows are set beside the current
  ones, channel after channel: that is `stack`. A product of a [2000, K] matrix with a [K, 160] one into a zero
  accumulator is, entry by entry, the sum over the K inner positions. And a bias of 160 entries repeated down the
  2000 rows reads its own entry in every row.
-/
import proofs.«118238_j46170898432119_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Shaping.Layout

open Idealize.ShloMosaic Idealize.ShloMosaic.ValueIdx Cert.Shaping

/-! ## The causal tap -/

/-- Rows `0 … 1998` of `x` under one row of zeros: row `t` is row `t - 1` of `x`, and zero for `t = 0`. -/
theorem shift_apply {C : Nat} (z : (⟨2, ![1, C]⟩ : Shape).Idx → EReal) (x : (⟨2, ![2000, C]⟩ : Shape).Idx → EReal)
    (hs : (⟨2, ![2000, C]⟩ : Shape).Slices ![0, 0] ⟨2, ![1999, C]⟩)
    (hc : Shape.Concatenates [⟨2, ![1, C]⟩, ⟨2, ![1999, C]⟩] ⟨2, ![2000, C]⟩ 0)
    (hz : ∀ i, z i = 0) (t : Fin 2000) (c : Fin C) :
    concatenate ⟨2, ![2000, C]⟩ 0 [⟨⟨2, ![1, C]⟩, z⟩, ⟨⟨2, ![1999, C]⟩, extractStridedSlice ⟨2, ![1999, C]⟩ ![0, 0] x hs⟩] hc (ix2 t c)
      = prev (fun s => x (ix2 s c)) t := by
  unfold prev
  split
  · next h =>
    refine (concatenate_pair_apply_left 0 z _ hc (ix2 t c) rfl (ix2 (0 : Fin 1) c) (fun b => ?_)).trans (hz _)
    match b with
    | ⟨0, _⟩ => exact h.symm
    | ⟨1, _⟩ => rfl
  · next h =>
    have ht : t.val - 1 < 1999 := by have := t.isLt; omega
    refine (concatenate_pair_apply_right 0 z _ hc (ix2 t c) rfl rfl (ix2 (⟨t.val - 1, ht⟩ : Fin 1999) c) (fun b hb => ?_) ?_).trans ?_
    · match b with
      | ⟨0, _⟩ => exact absurd rfl hb
      | ⟨1, _⟩ => rfl
    · show t.val - 1 + 1 = t.val
      omega
    · exact slice2_axis0_apply 0 x hs _ c (pred t h) (by show t.val - 1 = 0 + (t.val - 1); omega)

/-- The delayed rows beside the current ones: channel `c` below `n` is the delayed channel `c`, channel `n + c` the
    current channel `c`. -/
theorem stack_apply {n N : Nat} (hN : N = n + n) (z : (⟨2, ![1, n]⟩ : Shape).Idx → EReal)
    (x : (⟨2, ![2000, n]⟩ : Shape).Idx → EReal)
    (hs : (⟨2, ![2000, n]⟩ : Shape).Slices ![0, 0] ⟨2, ![1999, n]⟩)
    (hc0 : Shape.Concatenates [⟨2, ![1, n]⟩, ⟨2, ![1999, n]⟩] ⟨2, ![2000, n]⟩ 0)
    (hc1 : Shape.Concatenates [⟨2, ![2000, n]⟩, ⟨2, ![2000, n]⟩] ⟨2, ![2000, N]⟩ 1)
    (hz : ∀ i, z i = 0) (t : Fin 2000) (c : Fin N) :
    concatenate ⟨2, ![2000, N]⟩ 1
        [⟨⟨2, ![2000, n]⟩, concatenate ⟨2, ![2000, n]⟩ 0
            [⟨⟨2, ![1, n]⟩, z⟩, ⟨⟨2, ![1999, n]⟩, extractStridedSlice ⟨2, ![1999, n]⟩ ![0, 0] x hs⟩] hc0⟩,
          ⟨⟨2, ![2000, n]⟩, x⟩] hc1 (ix2 t c)
      = stack hN (fun s c' => x (ix2 s c')) t c := by
  unfold stack
  split
  · next h =>
    refine (concatenate_pair_apply_left 1 _ x hc1 (ix2 t c) rfl (ix2 t (lo c h)) (fun b => ?_)).trans
      (shift_apply z x hs hc0 hz t (lo c h))
    match b with
    | ⟨0, _⟩ => rfl
    | ⟨1, _⟩ => rfl
  · next h =>
    refine concatenate_pair_apply_right 1 _ x hc1 (ix2 t c) rfl rfl (ix2 t (hi hN c h)) (fun b hb => ?_) ?_
    · match b with
      | ⟨0, _⟩ => rfl
      | ⟨1, _⟩ => exact absurd rfl hb
    · show c.val - n + n = c.val
      omega

/-! ## A matrix product, a repeated bias, a sum over groups of four -/

/-- A product of an `M × K` matrix with a `K × N` one into a zero accumulator: entry `(p, q)` is the sum over the
    `K` inner positions of the entries' products. -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    matmul (⟨[1], [0], [0], [1], [], [], wf⟩ : DotDims ⟨2, ![M, K]⟩ ⟨2, ![K, N]⟩ ⟨2, ![M, N]⟩) prec l r
        (constant ⟨2, ![M, N]⟩ .f32 0x00000000#32) (ix2 p q)
      = ∑ k : Fin K, l (ix2 p k) * r (ix2 k q) := by
  refine (Ideal.matmul_constant_zero_apply _ prec l r (ix2 p q)).trans ?_
  refine ((Equiv.sum_comp (contrEquiv1 (⟨[1], [0], [0], [1], [], [], wf⟩ : DotDims ⟨2, ![M, K]⟩ ⟨2, ![K, N]⟩ ⟨2, ![M, N]⟩) K rfl rfl).symm _).symm).trans ?_
  refine Finset.sum_congr rfl fun k _ => ?_
  have e1 : DotDims.lhsIdx (⟨[1], [0], [0], [1], [], [], wf⟩ : DotDims ⟨2, ![M, K]⟩ ⟨2, ![K, N]⟩ ⟨2, ![M, N]⟩) (ix2 p q)
      ((contrEquiv1 (⟨[1], [0], [0], [1], [], [], wf⟩ : DotDims ⟨2, ![M, K]⟩ ⟨2, ![K, N]⟩ ⟨2, ![M, N]⟩) K rfl rfl).symm k) = ix2 p k := by
    funext a
    match a with
    | ⟨0, _⟩ => rfl
    | ⟨1, _⟩ => rfl
  have e2 : DotDims.rhsIdx (⟨[1], [0], [0], [1], [], [], wf⟩ : DotDims ⟨2, ![M, K]⟩ ⟨2, ![K, N]⟩ ⟨2, ![M, N]⟩) (ix2 p q)
      ((contrEquiv1 (⟨[1], [0], [0], [1], [], [], wf⟩ : DotDims ⟨2, ![M, K]⟩ ⟨2, ![K, N]⟩ ⟨2, ![M, N]⟩) K rfl rfl).symm k) = ix2 k q := by
    funext a
    match a with
    | ⟨0, _⟩ => rfl
    | ⟨1, _⟩ => rfl
  rw [e1, e2]

/-- A bias of `n` entries laid out as one row and repeated down `m` rows reads its own entry in every row. -/
theorem bias_apply {m n : Nat} (v : (⟨1, ![n]⟩ : Shape).Idx → EReal)
    (h1 : (⟨1, ![n]⟩ : Shape).ShapeCasts ⟨2, ![1, n]⟩) (h2 : (⟨2, ![1, n]⟩ : Shape).Broadcasts ⟨2, ![m, n]⟩)
    (t : Fin m) (o : Fin n) :
    broadcastTo ⟨2, ![m, n]⟩ (shapeCast ⟨2, ![1, n]⟩ v h1) h2 (ix2 t o) = v (ix1 o) :=
  (broadcastTo_1b_ab_apply _ h2 t o).trans (shapeCast_a_1a_apply v h1 0 o)

/-- A frame's 160 samples regrouped as 40 groups of 4 and summed within each group: entry `(s, j)` is the sum of
    samples `4 j … 4 j + 3` of frame `s`. -/
theorem groupSum_apply (y : FVec Ideal ⟨2, ![2000, 160]⟩ .f32)
    (hsc : (⟨2, ![2000, 160]⟩ : Shape).ShapeCasts ⟨3, ![2000, 40, 4]⟩)
    (hred : (⟨3, ![2000, 40, 4]⟩ : Shape).Reduces [2] ⟨2, ![2000, 40]⟩)
    (hφ : FKind.Formats .f32) (hacc : (0x00000000#32 : BitVec 32) = FKind.add.neutral .f32 hφ)
    (s : Fin 2000) (j : Fin 40) :
    multiReduction .add [2] ⟨2, ![2000, 40]⟩ (shapeCast ⟨3, ![2000, 40, 4]⟩ y hsc) 0x00000000#32 hred hφ hacc (ix2 s j)
      = ∑ k : Fin 4, y (ix2 s (grpPos j k)) := by
  refine (Ideal.multiReduction_add_single _ _ hred hφ hacc (ix2 s j)).trans ?_
  show ∑ k : Fin 4, _ = _
  refine Finset.sum_congr rfl fun k _ => ?_
  refine shapeCast_apply y hsc _ (ix2 s (grpPos j k)) ?_
  rw [Shape.rowMajor_val_two, Shape.rowMajor_val_three]
  show s.val * 160 + (4 * j.val + k.val) = (s.val * 40 + j.val) * 4 + k.val
  omega

end Cert.Shaping.Layout

end
-- ==== Proof.KernelPoint.lean ====
/-
  The kernel's body at one grid point, as arithmetic at an index.

  The body is written over the blocks it loads: a row of the framed waveform, a row of the conditioning features, the
  three stacked weight matrices and the two biases. Here each is a VARIABLE together with what it holds at an index,
  and the body's three values are read at an index: the frame's samples; the first layer after the rectifier, which
  is `lrelu (pre1K …)`; and the stored block, which is `exp (pre2K …)` times the sample.
-/
import proofs.«118238_j46170898432119_2_alg».proof.Proof.Gen.KernelIdeal.Skeleton
import proofs.«118238_j46170898432119_2_alg».proof.Proof.KernelLayout

noncomputable section

open scoped BigOperators

namespace Cert.KernelIdeal.Body

open Idealize.ShloMosaic Idealize.ShloMosaic.ValueIdx
open Cert.KernelIdeal Cert.KernelIdeal.Gen Cert.Shaping Cert.Shaping.Layout

/-! ## Pointwise stages -/

/-- The log-envelope stage: absolute values, the sum over each group of four, divided by 4, plus 2⁻¹⁶, under the
    logarithm. Over a frame matrix `y` that holds row `b`'s samples it is the specification's `env`. -/
theorem envStage_apply (y : FVec Ideal ⟨2, ![2000, 160]⟩ .f32)
    (hsc : (⟨2, ![2000, 160]⟩ : Shape).ShapeCasts ⟨3, ![2000, 40, 4]⟩)
    (hred : (⟨3, ![2000, 40, 4]⟩ : Shape).Reduces [2] ⟨2, ![2000, 40]⟩)
    (hφ : FKind.Formats .f32) (hacc : (0x00000000#32 : BitVec 32) = FKind.add.neutral .f32 hφ)
    (X : Wave) (b : Fin 64) (hy : ∀ s f, y (ix2 s f) = smp X b s f) (s : Fin 2000) (j : Fin 40) :
    log (addf (divf (multiReduction .add [2] ⟨2, ![2000, 40]⟩ (shapeCast ⟨3, ![2000, 40, 4]⟩ (absf y) hsc) 0x00000000#32 hred hφ hacc)
          (broadcast ⟨2, ![2000, 40]⟩ (Scalar.ofBits .f32 0x40800000#32)))
        (broadcast ⟨2, ![2000, 40]⟩ (Scalar.ofBits .f32 0x37800000#32))) (ix2 s j)
      = env X b s j := by
  show Ideal.log (Ideal.div (multiReduction .add [2] ⟨2, ![2000, 40]⟩ (shapeCast ⟨3, ![2000, 40, 4]⟩ (absf y) hsc) 0x00000000#32 hred hφ hacc (ix2 s j)) four + eps) = _
  unfold env
  refine congrArg (fun v => Ideal.log (Ideal.div v four + eps)) ?_
  refine (groupSum_apply (absf y) hsc hred hφ hacc s j).trans (Finset.sum_congr rfl fun k _ => ?_)
  show max (y (ix2 s (grpPos j k))) (-(y (ix2 s (grpPos j k)))) = _
  rw [hy]

/-- The leaky rectifier as the body writes it: a select on `0 ≤ v` between `v` and `v` times the slope. -/
theorem lrelu_apply {S : Shape} (v : FVec Ideal S .f32) (i : S.Idx) (w : EReal) (h : v i = w) :
    select (cmpf .oge v (broadcast S (Scalar.ofBits .f32 0x00000000#32))) v
        (mulf v (broadcast S (Scalar.ofBits .f32 0x3E4CCCCD#32))) i = lrelu w := by
  subst h
  show Scalar.select (Ideal.cmp .oge (v i) (Ideal.ofBits .f32 0x00000000#32)) (v i) (v i * slope) = _
  rw [Ideal.ofBits_zero_f32]
  rfl

/-! ## The body's three values -/

/-- The loaded waveform block with its unit axis dropped. -/
theorem pay2_apply (x0 : Vec Ideal S1x2000x160 .f32) (s : Fin 2000) (f : Fin 160) :
    k0_pay2 x0 (ix2 s f) = x0 (ix3 (0 : Fin 1) s f) := by
  unfold k0_pay2
  exact shapeCast_1ab_ab_apply x0 _ s f

/-- The first layer after the rectifier. -/
theorem pay3_apply (x0 : Vec Ideal S1x2000x160 .f32) (x1 : Vec Ideal S1x2000x128 .f32) (x2 : Vec Ideal S256x160 .bf16)
    (x3 : Vec Ideal S80x160 .bf16) (x4 : Vec Ideal S160 .f32)
    (X : Wave) (Ft : Feat) (W1f : Taps 128) (b1f : Bias) (W1t : Taps 41) (b1t : Bias) (b : Fin 64)
    (hx0 : ∀ s f, x0 (ix3 (0 : Fin 1) s f) = smp X b s f)
    (hx1 : ∀ s c, x1 (ix3 (0 : Fin 1) s c) = Ft (ix3 b s c))
    (hx2 : ∀ k o, x2 (ix2 k o) = stackW (n := 128) rfl (tapW W1f) k o)
    (hx3 : ∀ k o, x3 (ix2 k o) = stackW (n := 40) rfl (foldW W1t) k o)
    (hx4 : ∀ o, x4 (ix1 o) = b1f (ix1 o) + b1t (ix1 o))
    (t : Fin 2000) (o : Fin 160) :
    k0_pay3 x0 x1 x2 x3 x4 (ix2 t o) = lrelu (pre1K X Ft W1f b1f W1t b1t b t o) := by
  unfold k0_pay3
  dsimp only
  refine lrelu_apply _ (ix2 t o) _ ?_
  unfold pre1K
  refine (addf_apply _ _ _).trans (congrArg₂ (· + ·) ((addf_apply _ _ _).trans (congrArg₂ (· + ·) ?_ ?_)) ?_)
  · refine (matmul_zero_apply _ none _ _ t o).trans (Finset.sum_congr rfl fun c _ => congrArg₂ (· * ·) ?_ ?_)
    · refine (truncf_apply (φ := .f32) (ψ := .bf16) _ _ _).trans ((stack_apply (n := 128) (N := 256) rfl _ _ _ _ _ ?_ t c).trans ?_)
      · exact fun _ => Ideal.ofBits_zero_f32
      · exact congrArg (fun A => stack (n := 128) rfl A t c)
          (funext fun s => funext fun c' => (shapeCast_1ab_ab_apply x1 _ s c').trans (hx1 s c'))
    · exact (congrFun (shapeCast_self x2 _) _).trans (hx2 c o)
  · refine (matmul_zero_apply _ none _ _ t o).trans (Finset.sum_congr rfl fun c _ => congrArg₂ (· * ·) ?_ ?_)
    · refine (truncf_apply (φ := .f32) (ψ := .bf16) _ _ _).trans ((stack_apply (n := 40) (N := 80) rfl _ _ _ _ _ ?_ t c).trans ?_)
      · exact fun _ => Ideal.ofBits_zero_f32
      · exact congrArg (fun A => stack (n := 40) rfl A t c)
          (funext fun s => funext fun j => envStage_apply _ _ _ _ _ X b (fun s f => (pay2_apply x0 s f).trans (hx0 s f)) s j)
    · exact (congrFun (shapeCast_self x3 _) _).trans (hx3 c o)
  · exact (bias_apply _ _ _ t o).trans ((congrFun (shapeCast_self x4 _) _).trans (hx4 o))

end Cert.KernelIdeal.Body

end
-- ==== Proof.KernelStore.lean ====
/-
  The block the body stores, read at an index: the second layer's three products over the stacked activations, the
  bias, the exponential, times the frame's sample.
-/
import proofs.«118238_j46170898432119_2_alg».proof.Proof.Gen.KernelIdeal.Skeleton
import proofs.«118238_j46170898432119_2_alg».proof.Proof.KernelLayout

noncomputable section

open scoped BigOperators

namespace Cert.KernelIdeal.Body

open Idealize.ShloMosaic Idealize.ShloMosaic.ValueIdx
open Cert.KernelIdeal Cert.KernelIdeal.Gen Cert.Shaping Cert.Shaping.Layout

/-- The stored block at `(u, t, f)`, over the frame's samples `v1` (holding `S`), the first layer's activations `v38`
    (holding `A`), the second layer's stacked weights and its bias: the product is taken against the weights, against
    "weights minus weights", and of "activations minus activations" against the weights, as `pre2K` writes it. -/
theorem pay1_apply (v1 v38 : FVec Ideal S2000x160 .f32) (x5 : Vec Ideal S320x160 .f32) (x6 : Vec Ideal S160 .f32)
    (S A : Fin 2000 → Fin 160 → EReal) (W2 : Taps 160) (b2 : Bias)
    (h1 : ∀ s f, v1 (ix2 s f) = S s f) (h38 : ∀ s c, v38 (ix2 s c) = A s c)
    (hx5 : ∀ k o, x5 (ix2 k o) = stackW (n := 160) rfl (tapW W2) k o) (hx6 : ∀ o, x6 (ix1 o) = b2 (ix1 o))
    (u : Fin 1) (t : Fin 2000) (f : Fin 160) :
    k0_pay1 v1 v38 x5 x6 (ix3 u t f) = Ideal.exp (pre2K A W2 b2 t f) * S t f := by
  -- the stacked activations and the weights at an index
  have hA : ∀ (z : FVec Ideal S1x160 .f32) hs hc0 hc1, (∀ i, z i = 0) → ∀ c : Fin 320,
      concatenate S2000x320 1 [⟨S2000x160, concatenate S2000x160 0 [⟨S1x160, z⟩, ⟨S1999x160, extractStridedSlice S1999x160 ![0, 0] v38 hs⟩] hc0⟩, ⟨S2000x160, v38⟩] hc1 (ix2 t c)
        = stack (n := 160) rfl A t c := fun z hs hc0 hc1 hz c =>
    (stack_apply (n := 160) (N := 320) rfl z v38 hs hc0 hc1 hz t c).trans
      (congrArg (fun B => stack (n := 160) rfl B t c) (funext fun s => funext fun c' => h38 s c'))
  have hW : ∀ h (c : Fin 320), shapeCast S320x160 x5 h (ix2 c f) = stackW (n := 160) rfl (tapW W2) c f := fun h c =>
    (congrFun (shapeCast_self x5 h) _).trans (hx5 c f)
  unfold k0_pay1
  try dsimp only
  refine (shapeCast_ab_1ab_apply _ _ u t f).trans ?_
  refine (mulf_apply _ _ _).trans (congrArg₂ (· * ·) ?_ (h1 t f))
  refine congrArg Ideal.exp ?_
  unfold pre2K
  refine (addf_apply _ _ _).trans (congrArg₂ (· + ·) ((addf_apply _ _ _).trans (congrArg₂ (· + ·)
    ((addf_apply _ _ _).trans (congrArg₂ (· + ·) ?_ ?_)) ?_)) ?_)
  · refine (matmul_zero_apply _ none _ _ t f).trans (Finset.sum_congr rfl fun c _ => congrArg₂ (· * ·) ?_ ?_)
    · exact (truncf_apply (φ := .f32) (ψ := .bf16) _ _ _).trans (hA _ _ _ _ (fun _ => Ideal.ofBits_zero_f32) c)
    · exact (truncf_apply (φ := .f32) (ψ := .bf16) _ _ _).trans (hW _ c)
  · refine (matmul_zero_apply _ none _ _ t f).trans (Finset.sum_congr rfl fun c _ => congrArg₂ (· * ·) ?_ ?_)
    · exact (truncf_apply (φ := .f32) (ψ := .bf16) _ _ _).trans (hA _ _ _ _ (fun _ => Ideal.ofBits_zero_f32) c)
    · exact (truncf_apply (φ := .f32) (ψ := .bf16) _ _ _).trans
        ((subf_apply _ _ _).trans (congrArg₂ (· - ·) (hW _ c) (hW _ c)))
  · refine (matmul_zero_apply _ none _ _ t f).trans (Finset.sum_congr rfl fun c _ => congrArg₂ (· * ·) ?_ ?_)
    · exact (truncf_apply (φ := .f32) (ψ := .bf16) _ _ _).trans
        ((subf_apply _ _ _).trans (congrArg₂ (· - ·) (hA _ _ _ _ (fun _ => Ideal.ofBits_zero_f32) c)
          (hA _ _ _ _ (fun _ => Ideal.ofBits_zero_f32) c)))
    · exact (truncf_apply (φ := .f32) (ψ := .bf16) _ _ _).trans (hW _ c)
  · exact (bias_apply _ _ _ t f).trans (hx6 f)

end Cert.KernelIdeal.Body

end
-- ==== Proof.KernelBody.lean ====
/-
  The kernel's body at one grid point, read at an index: the block it leaves for batch row `t` holds, at frame `s` and
  sample `f`, the stacked arrangement `GK` of the specification at `(t, s, f)`.

  Point `t` of the grid loads block `t` of the framed waveform and of the features (one batch row each: entry
  `(0, s, f)` of the block is entry `(t, s, f)` of the array) and the whole of the three weight matrices and the two
  biases. With the arrays' contents at an index known, the per-point arithmetic gives the block.
-/
import proofs.«118238_j46170898432119_2_alg».proof.Proof.Gen.KernelIdeal.Frame
import proofs.«118238_j46170898432119_2_alg».proof.Proof.HostPrefix
import proofs.«118238_j46170898432119_2_alg».proof.Proof.KernelPoint
import proofs.«118238_j46170898432119_2_alg».proof.Proof.KernelStore

noncomputable section

open scoped BigOperators

namespace Cert.KernelIdeal.Body

open Idealize.ShloMosaic Idealize.ShloMosaic.TcCoe Idealize.ShloMosaic.ValueIdx Idealize.SL.Sem
open Cert.KernelIdeal Cert.KernelIdeal.Gen Cert.KernelIdeal.Prefix Cert.Shaping Cert.Shaping.Layout

/-! ## The blocks a point loads -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The index maps over the grid: the waveform's and the features' block at point `t` is block `(t, 0, 0)`; every
    other input has one block, `0`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 :=
  (by decide +kernel : ∀ t : Fin grid0.N, _)

variable (m : (ℓ : Loc nD τ sig) → Buf (Elt Ideal) ℓ) (c : Dev nD)

/-- The waveform's block at point `t` is row `t` of the framed waveform. -/
theorem blk0_apply (t : Fin cfg0.N) (s : Fin 2000) (f : Fin 160) :
    iblk m c 0 t (ix3 (0 : Fin 1) s f) = (V m c main_v0 : S64x2000x160.Idx → EReal) (ix3 (⟨t.val, t.isLt⟩ : Fin 64) s f) := by
  obtain ⟨e0, e1, e2, -⟩ := idx_facts t
  show V m c main_v0 (((cfg0.win 0).blk t).view.emb (ix3 (0 : Fin 1) s f)) = V m c main_v0 _
  refine congrArg (V m c main_v0) (funext fun a => Fin.ext ?_)
  match a with
  | ⟨0, _⟩ => show win0_0.index t (0 : Fin 3) * 1 + 1 * 0 = t.val; omega
  | ⟨1, _⟩ => show win0_0.index t (1 : Fin 3) * 2000 + 1 * s.val = s.val; omega
  | ⟨2, _⟩ => show win0_0.index t (2 : Fin 3) * 160 + 1 * f.val = f.val; omega

/-- The features' block at point `t` is row `t` of the features. -/
theorem blk1_apply (t : Fin cfg0.N) (s : Fin 2000) (k : Fin 128) :
    iblk m c 1 t (ix3 (0 : Fin 1) s k) = (V m c main_arg1 : S64x2000x128.Idx → EReal) (ix3 (⟨t.val, t.isLt⟩ : Fin 64) s k) := by
  obtain ⟨-, -, -, e0, e1, e2, -⟩ := idx_facts t
  show V m c main_arg1 (((cfg0.win 1).blk t).view.emb (ix3 (0 : Fin 1) s k)) = V m c main_arg1 _
  refine congrArg (V m c main_arg1) (funext fun a => Fin.ext ?_)
  match a with
  | ⟨0, _⟩ => show win0_1.index t (0 : Fin 3) * 1 + 1 * 0 = t.val; omega
  | ⟨1, _⟩ => show win0_1.index t (1 : Fin 3) * 2000 + 1 * s.val = s.val; omega
  | ⟨2, _⟩ => show win0_1.index t (2 : Fin 3) * 128 + 1 * k.val = k.val; omega

/-- The features' stacked weights are loaded whole. -/
theorem blk2_apply (t : Fin cfg0.N) (k : Fin 256) (o : Fin 160) :
    iblk m c 2 t (ix2 k o) = (V m c main_v8 : S256x160.Idx → EReal) (ix2 k o) := by
  obtain ⟨-, -, -, -, -, -, e0, e1, -⟩ := idx_facts t
  show V m c main_v8 (((cfg0.win 2).blk t).view.emb (ix2 k o)) = V m c main_v8 _
  refine congrArg (V m c main_v8) (funext fun a => Fin.ext ?_)
  match a with
  | ⟨0, _⟩ => show win0_2.index t (0 : Fin 2) * 256 + 1 * k.val = k.val; omega
  | ⟨1, _⟩ => show win0_2.index t (1 : Fin 2) * 160 + 1 * o.val = o.val; omega

/-- The envelope's stacked weights are loaded whole. -/
theorem blk3_apply (t : Fin cfg0.N) (k : Fin 80) (o : Fin 160) :
    iblk m c 3 t (ix2 k o) = (V m c main_v36 : S80x160.Idx → EReal) (ix2 k o) := by
  obtain ⟨-, -, -, -, -, -, -, -, e0, e1, -⟩ := idx_facts t
  show V m c main_v36 (((cfg0.win 3).blk t).view.emb (ix2 k o)) = V m c main_v36 _
  refine congrArg (V m c main_v36) (funext fun a => Fin.ext ?_)
  match a with
  | ⟨0, _⟩ => show win0_3.index t (0 : Fin 2) * 80 + 1 * k.val = k.val; omega
  | ⟨1, _⟩ => show win0_3.index t (1 : Fin 2) * 160 + 1 * o.val = o.val; omega

/-- The first layer's bias is loaded whole. -/
theorem blk4_apply (t : Fin cfg0.N) (o : Fin 160) :
    iblk m c 4 t (ix1 o) = (V m c main_v44 : S160.Idx → EReal) (ix1 o) := by
  obtain ⟨-, -, -, -, -, -, -, -, -, -, e0, -⟩ := idx_facts t
  show V m c main_v44 (((cfg0.win 4).blk t).view.emb (ix1 o)) = V m c main_v44 _
  refine congrArg (V m c main_v44) (funext fun a => Fin.ext ?_)
  match a with
  | ⟨0, _⟩ => show win0_4.index t (0 : Fin 1) * 160 + 1 * o.val = o.val; omega

/-- The second layer's stacked weights are loaded whole. -/
theorem blk5_apply (t : Fin cfg0.N) (k : Fin 320) (o : Fin 160) :
    iblk m c 5 t (ix2 k o) = (V m c main_v43 : S320x160.Idx → EReal) (ix2 k o) := by
  obtain ⟨-, -, -, -, -, -, -, -, -, -, -, e0, e1, -⟩ := idx_facts t
  show V m c main_v43 (((cfg0.win 5).blk t).view.emb (ix2 k o)) = V m c main_v43 _
  refine congrArg (V m c main_v43) (funext fun a => Fin.ext ?_)
  match a with
  | ⟨0, _⟩ => show win0_5.index t (0 : Fin 2) * 320 + 1 * k.val = k.val; omega
  | ⟨1, _⟩ => show win0_5.index t (1 : Fin 2) * 160 + 1 * o.val = o.val; omega

/-- The second layer's bias is loaded whole. -/
theorem blk6_apply (t : Fin cfg0.N) (o : Fin 160) :
    iblk m c 6 t (ix1 o) = (V m c main_arg7 : S160.Idx → EReal) (ix1 o) := by
  obtain ⟨-, -, -, -, -, -, -, -, -, -, -, -, -, e0⟩ := idx_facts t
  show V m c main_arg7 (((cfg0.win 6).blk t).view.emb (ix1 o)) = V m c main_arg7 _
  refine congrArg (V m c main_arg7) (funext fun a => Fin.ext ?_)
  match a with
  | ⟨0, _⟩ => show win0_6.index t (0 : Fin 1) * 160 + 1 * o.val = o.val; omega

/-! ## The block a point leaves -/

/-- THE BLOCK: what the body leaves at grid point `t`, read at frame `s` and sample `f`, is the specification's
    stacked arrangement at batch row `t`. -/
theorem block_apply (t : Fin cfg0.N) (s : Fin 2000) (f : Fin 160) :
    Gen.out0_7 (Gen.iblk m c 0 t) (Gen.iblk m c 1 t) (Gen.iblk m c 2 t) (Gen.iblk m c 3 t) (Gen.iblk m c 4 t) (Gen.iblk m c 5 t) (Gen.iblk m c 6 t) (ix3 (0 : Fin 1) s f)
      = GK (aX m c) (aFt m c) (aW1f m c) (ab1f m c) (aW1t m c) (ab1t m c) (aW2 m c) (ab2 m c) ⟨t.val, t.isLt⟩ s f := by
  unfold Gen.out0_7
  rw [View.canon_unit_zero hz3]
  simp only [View.ld_unit_zero (S := S1x2000x160) hz3, View.ld_unit_zero (S := S1x2000x128) hz3,
    View.ld_unit_zero (S := S256x160) hz2, View.ld_unit_zero (S := S80x160) hz2, View.ld_unit_zero (S := S160) hz1,
    View.ld_unit_zero (S := S320x160) hz2]
  exact pay1_apply (k0_pay2 (iblk m c 0 t))
    (k0_pay3 (iblk m c 0 t) (iblk m c 1 t) (iblk m c 2 t) (iblk m c 3 t) (iblk m c 4 t)) (iblk m c 5 t) (iblk m c 6 t)
    (fun s f => smp (aX m c) ⟨t.val, t.isLt⟩ s f)
    (fun s o => lrelu (pre1K (aX m c) (aFt m c) (aW1f m c) (ab1f m c) (aW1t m c) (ab1t m c) ⟨t.val, t.isLt⟩ s o))
    (aW2 m c) (ab2 m c)
    (fun s f => (pay2_apply (iblk m c 0 t) s f).trans ((blk0_apply m c t s f).trans (frames_apply m c ⟨t.val, t.isLt⟩ s f)))
    (fun s o => pay3_apply (iblk m c 0 t) (iblk m c 1 t) (iblk m c 2 t) (iblk m c 3 t) (iblk m c 4 t)
      (aX m c) (aFt m c) (aW1f m c) (ab1f m c) (aW1t m c) (ab1t m c) ⟨t.val, t.isLt⟩
      (fun s f => (blk0_apply m c t s f).trans (frames_apply m c ⟨t.val, t.isLt⟩ s f))
      (fun s k => (blk1_apply m c t s k).trans (congrFun (V_main_arg1 m c) _))
      (fun k o => (blk2_apply m c t k o).trans (featW_apply m c k o))
      (fun k o => (blk3_apply m c t k o).trans (envW_apply m c k o))
      (fun o => (blk4_apply m c t o).trans (bias1_apply m c o)) s o)
    (fun k o => (blk5_apply m c t k o).trans (outW_apply m c k o))
    (fun o => (blk6_apply m c t o).trans (congrFun (V_main_arg7 m c) _))
    0 s f

end Cert.KernelIdeal.Body

end
-- ==== Proof.KernelRun.lean ====
/-
  The kernel program's result buffer.

  The region's output array has one block per batch row: grid point t writes rows (t, ·, ·), 2000 frames of 160 samples,
  and the 64 blocks tile the array. The body's output block at point t, frame s, sample f is the stacked arrangement of
  the shaping gain at row t; so after the region the array is that function of (row, frame, sample). The program then
  reshapes [64, 2000, 160] to [64, 1, 320000]: position n of row b is frame n / 160, sample n % 160.
-/
import proofs.«118238_j46170898432119_2_alg».proof.Proof.Gen.KernelIdeal.Frame
import proofs.«118238_j46170898432119_2_alg».proof.Proof.HostPrefix
import proofs.«118238_j46170898432119_2_alg».proof.Proof.KernelBody
import Idealize.ShloMosaic.Lib.Pipeline.Value
import Idealize.ShloMosaic.Lib.ValueIdx
import Idealize.ShloMosaic.Lib.StableHlo.Run

set_option maxRecDepth 16384

noncomputable section

namespace Cert.KernelIdeal.Shaped

open Idealize.ShloMosaic Idealize.ShloMosaic.TcCoe Idealize.ShloMosaic.ValueIdx Idealize.SL.Sem
open Cert.KernelIdeal Cert.KernelIdeal.Gen Cert.KernelIdeal.Prefix Cert.Shaping
open Idealize.ShloMosaic.Pipeline (Dat)

variable (m : (ℓ : Loc nD τ sig) → Buf (Elt Ideal) ℓ) (c : Dev nD)

/-- The shaped frames: the stacked arrangement at (row, frame, sample). -/
def frames : S64x2000x160.Idx → EReal := fun i =>
  GK (aX m c) (aFt m c) (aW1f m c) (ab1f m c) (aW1t m c) (ab1t m c) (aW2 m c) (ab2 m c) (i 0) (i 1) (i 2)

/-- The output window's block index at point t is (t, 0, 0). -/
theorem out_index : ∀ t : Fin cfg0.N, win0_7.index t (0 : Fin 3) = t.val ∧ win0_7.index t (1 : Fin 3) = 0 ∧ win0_7.index t (2 : Fin 3) = 0 :=
  (by decide +kernel : ∀ t : Fin grid0.N, _)

/-- What point t writes back is block t of the shaped frames. -/
theorem flushed_eq (t : Fin cfg0.N) :
    (dats m 0 c).flushed 7 t = ((cfg0.win 7).blk t).view.read (Elt Ideal) (frames m c) := by
  show (cfg0.win 7).cut (grid0.coords t) ((dats m 0 c).after 7 t) = _
  rw [after0_7]
  funext j
  obtain ⟨u, s, f, rfl⟩ : ∃ (u : Fin 1) (s : Fin 2000) (f : Fin 160), j = ix3 u s f := ⟨j 0, j 1, j 2, eq_ix3 j⟩
  obtain rfl : u = 0 := Subsingleton.elim _ _
  show out0_7 (iblk m c 0 t) (iblk m c 1 t) (iblk m c 2 t) (iblk m c 3 t) (iblk m c 4 t) (iblk m c 5 t) (iblk m c 6 t) (ix3 (0 : Fin 1) s f)
    = frames m c (((cfg0.win 7).blk t).view.emb (ix3 (0 : Fin 1) s f))
  rw [Body.block_apply]
  obtain ⟨e0, e1, e2⟩ := out_index t
  unfold frames
  congr 1
  · apply Fin.ext
    show t.val = win0_7.index t (0 : Fin 3) * 1 + 1 * 0
    omega
  · apply Fin.ext
    show s.val = win0_7.index t (1 : Fin 3) * 2000 + 1 * s.val
    omega
  · apply Fin.ext
    show f.val = win0_7.index t (2 : Fin 3) * 160 + 1 * f.val
    omega

/-- An index of the array is in point t's block iff each coordinate is in the block's range on its axis. -/
theorem mem_blk (t : Fin cfg0.N) (i : S64x2000x160.Idx) :
    i ∈ ((cfg0.win 7).blk t).view.set ↔ ∀ a : Fin 3, win0_7.index t a * S1x2000x160.size a ≤ (i a).val
      ∧ (i a).val < win0_7.index t a * S1x2000x160.size a + S1x2000x160.size a := by
  show i ∈ ((View.whole main_v45).slice (win0_7.rect t)).set ↔ _
  rw [View.set_slice_whole, Rect.mem_set_unit]
  exact Iff.rfl

/-- Every index of the array is in the block of the point numbered by its row. -/
theorem cover (i : S64x2000x160.Idx) : ∃ t : Fin cfg0.N, (cfg0.win 7).flush t = true ∧ i ∈ ((cfg0.win 7).blk t).view.set := by
  have h0 : (i 0).val < 64 := (i 0).isLt
  have h1 : (i 1).val < 2000 := (i 1).isLt
  have h2 : (i 2).val < 160 := (i 2).isLt
  refine ⟨⟨(i 0).val, h0⟩, flush0_7 _, ?_⟩
  obtain ⟨e0, e1, e2⟩ := out_index ⟨(i 0).val, h0⟩
  rw [mem_blk]
  intro a
  match a with
  | ⟨0, _⟩ => show win0_7.index ⟨(i 0).val, h0⟩ (0 : Fin 3) * 1 ≤ (i 0).val ∧ (i 0).val < win0_7.index ⟨(i 0).val, h0⟩ (0 : Fin 3) * 1 + 1; simp only [] at e0; omega
  | ⟨1, _⟩ => show win0_7.index ⟨(i 0).val, h0⟩ (1 : Fin 3) * 2000 ≤ (i 1).val ∧ (i 1).val < win0_7.index ⟨(i 0).val, h0⟩ (1 : Fin 3) * 2000 + 2000; omega
  | ⟨2, _⟩ => show win0_7.index ⟨(i 0).val, h0⟩ (2 : Fin 3) * 160 ≤ (i 2).val ∧ (i 2).val < win0_7.index ⟨(i 0).val, h0⟩ (2 : Fin 3) * 160 + 160; omega

/-- After the region the output array is the shaped frames. -/
theorem final : (dats m 0 c).arrAt 7 cfg0.N = frames m c :=
  (dats m 0 c).arrAt_eq_of_cover 7 (frames m c) (fun t _ => flushed_eq m c t) (cover)

/-- The result buffer: the shaped frames read as rows of 320000 positions. -/
def out : Buf (Elt Ideal) ((c.tc : Thread nD τ).loc main_v46) :=
  shapeCast S64x1x320000 (frames m c) shapeCasts_S64x2000x160_S64x1x320000

/-- What the one host operation after the region leaves in the result buffer. -/
theorem tail : Pipeline.afterTail₀ cfgs (dats m) 0 (V0 m) [hostOps1] c main_v46 = out m c := by
  have hw : Pipeline.withArrays (cfgs 0).spec c (V0 m c) (fun w => (dats m 0 c).arrAt w (cfgs 0).N) (Proc.devRef .tc main_v45)
      = frames m c :=
    (Pipeline.withArrays_arr spec0 launch0.win.arr_inj c (V0 m c) (fun w => (dats m 0 c).arrAt w cfg0.N) 7).trans (final m c)
  unfold Pipeline.afterTail₀
  show StableHlo.after hostOps1 _ (Proc.devRef .tc main_v46) = _
  after_results
  funext i
  show shapeCast S64x1x320000 (Pipeline.withArrays (cfgs 0).spec c (V0 m c) (fun w => (dats m 0 c).arrAt w (cfgs 0).N)
    (Proc.devRef .tc main_v45)) shapeCasts_S64x2000x160_S64x1x320000 i = _
  rw [hw]
  rfl

/-- Position `160 t + f` of row `b` of the result is the stacked arrangement at (b, t, f). -/
theorem out_apply (b : Fin 64) (t : Fin 2000) (f : Fin 160) :
    (out m c : S64x1x320000.Idx → EReal) (ix3 b 0 (smpPos t f))
      = GK (aX m c) (aFt m c) (aW1f m c) (ab1f m c) (aW1t m c) (ab1t m c) (aW2 m c) (ab2 m c) b t f := by
  unfold out
  rw [shapeCast_apply (frames m c) shapeCasts_S64x2000x160_S64x1x320000 (ix3 b 0 (smpPos t f)) (ix3 b t f) (by
    rw [Shape.rowMajor_val_three, Shape.rowMajor_val_three]
    show (b.val * 2000 + t.val) * 160 + f.val = (b.val * 1 + 0) * 320000 + (160 * t.val + f.val)
    omega)]
  rfl

/-- The kernel program runs, leaves the shaped waveform in its result buffer, and its arguments unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v46) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_v46 (Pipeline.mem_restRefs_of main_v46 (by decide) (by decide))).trans (tail m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      ((h c).1 6).trans (((dats m 0 c).arrAt_in 6 rfl _).trans ((A_eq m c 6).trans (V_main_arg7 m c)))⟩)
    (run_main m ρ)

end Cert.KernelIdeal.Shaped

end
-- ==== Proof.RefOps.lean ====
/-
  The reference program's sixty-nine statements as one straight line of seventy-seven host operations: the four
  outlined functions (three pads by one frame, the leaky rectifier with its nested select) are written out at
  their call sites over the calls' own buffers. The line is cut into six consecutive stretches, each ending at a
  value the next one starts from: the log-envelope, its centred form with the mean appended, the features'
  convolution, the first layer's sum, the rectifier, and the second layer with the final product.
-/
import proofs.«118238_j46170898432119_2_alg».proof.Proof.Gen.ReferenceIdeal
import Idealize.ShloMosaic.Lib.StableHlo.Run

noncomputable section

namespace Cert.ReferenceIdeal.Shaped

open Cert.ReferenceIdeal Cert.ReferenceIdeal.Gen Idealize.ShloMosaic Idealize.ShloMosaic.TcCoe Idealize.SL.Sem Idealize.ShloMosaic.StableHlo

variable {F : FTy → Type} [FloatOps F]

/-- From the waveform to the log-envelope, frame by frame. -/
abbrev opsA : List (HloOp τ sig (Elt F)) :=
  [ StableHlo.reshape main_arg0 main_v0 rfl shapeCasts_S64x1x320000_S64x320000,
    StableHlo.unary main_v0 main_v1 (Host.absf : (⟨S64x320000, .f32⟩ : BufTy).Contents (Elt F) → (⟨S64x320000, .f32⟩ : BufTy).Contents (Elt F)),
    StableHlo.reshape main_v1 main_v2 rfl shapeCasts_S64x320000_S64x80000x4,
    StableHlo.nullary main_cst (constant S_ .f32 0x00000000#32),
    StableHlo.binary main_v2 main_cst main_v3 ((fun x v => Host.reduceAdd x v reducesTo_S64x80000x4_S64x80000_d2 h_S_) : (⟨S64x80000x4, .f32⟩ : BufTy).Contents (Elt F) → (⟨S_, .f32⟩ : BufTy).Contents (Elt F) → (⟨S64x80000, .f32⟩ : BufTy).Contents (Elt F)),
    StableHlo.nullary main_cst_0 (constant S_ .f32 0x40800000#32),
    StableHlo.unary main_cst_0 main_v4 (broadcastInDim S64x80000 ![] bcast_S_S64x80000 : (⟨S_, .f32⟩ : BufTy).Contents (Elt F) → (⟨S64x80000, .f32⟩ : BufTy).Contents (Elt F)),
    StableHlo.binary main_v3 main_v4 main_v5 (Host.divf : (⟨S64x80000, .f32⟩ : BufTy).Contents (Elt F) → (⟨S64x80000, .f32⟩ : BufTy).Contents (Elt F) → (⟨S64x80000, .f32⟩ : BufTy).Contents (Elt F)),
    StableHlo.nullary main_cst_1 (constant S_ .f32 0x37800000#32),
    StableHlo.unary main_cst_1 main_v6 (broadcastInDim S64x80000 ![] bcast_S_S64x80000 : (⟨S_, .f32⟩ : BufTy).Contents (Elt F) → (⟨S64x80000, .f32⟩ : BufTy).Contents (Elt F)),
    StableHlo.binary main_v5 main_v6 main_v7 (addf : (⟨S64x80000, .f32⟩ : BufTy).Contents (Elt F) → (⟨S64x80000, .f32⟩ : BufTy).Contents (Elt F) → (⟨S64x80000, .f32⟩ : BufTy).Contents (Elt F)),
    StableHlo.unary main_v7 main_v8 (Host.log : (⟨S64x80000, .f32⟩ : BufTy).Contents (Elt F) → (⟨S64x80000, .f32⟩ : BufTy).Contents (Elt F)),
    StableHlo.reshape main_v8 main_v9 rfl shapeCasts_S64x80000_S64x2000x40 ]

/-- The envelope's mean, the centred envelope, and the two joined: 41 channels. -/
abbrev opsB : List (HloOp τ sig (Elt F)) :=
  [ StableHlo.nullary main_cst_2 (constant S_ .f32 0x00000000#32),
    StableHlo.binary main_v9 main_cst_2 main_v10 ((fun x v => Host.reduceAdd x v reducesTo_S64x2000x40_S64x2000_d2 h_S_) : (⟨S64x2000x40, .f32⟩ : BufTy).Contents (Elt F) → (⟨S_, .f32⟩ : BufTy).Contents (Elt F) → (⟨S64x2000, .f32⟩ : BufTy).Contents (Elt F)),
    StableHlo.unary main_v10 main_v11 (broadcastInDim S64x2000x1 ![0, 1] bcast_S64x2000_S64x2000x1_0_1 : (⟨S64x2000, .f32⟩ : BufTy).Contents (Elt F) → (⟨S64x2000x1, .f32⟩ : BufTy).Contents (Elt F)),
    StableHlo.nullary main_cst_3 (constant S_ .f32 0x42200000#32),
    StableHlo.unary main_cst_3 main_v12 (broadcastInDim S64x2000x1 ![] bcast_S_S64x2000x1 : (⟨S_, .f32⟩ : BufTy).Contents (Elt F) → (⟨S64x2000x1, .f32⟩ : BufTy).Contents (Elt F)),
    StableHlo.binary main_v11 main_v12 main_v13 (Host.divf : (⟨S64x2000x1, .f32⟩ : BufTy).Contents (Elt F) → (⟨S64x2000x1, .f32⟩ : BufTy).Contents (Elt F) → (⟨S64x2000x1, .f32⟩ : BufTy).Contents (Elt F)),
    StableHlo.unary main_v13 main_v14 (broadcastInDim S64x2000x40 ![0, 1, 2] bcast_S64x2000x1_S64x2000x40_0_1_2 : (⟨S64x2000x1, .f32⟩ : BufTy).Contents (Elt F) → (⟨S64x2000x40, .f32⟩ : BufTy).Contents (Elt F)),
    StableHlo.binary main_v9 main_v14 main_v15 (subf : (⟨S64x2000x40, .f32⟩ : BufTy).Contents (Elt F) → (⟨S64x2000x40, .f32⟩ : BufTy).Contents (Elt F) → (⟨S64x2000x40, .f32⟩ : BufTy).Contents (Elt F)),
    StableHlo.binary main_v15 main_v13 main_v16 ((fun a b => concatenate S64x2000x41 2 [⟨S64x2000x40, a⟩, ⟨S64x2000x1, b⟩] concatenates_S64x2000x40_S64x2000x1_S64x2000x41_d2) : (⟨S64x2000x40, .f32⟩ : BufTy).Contents (Elt F) → (⟨S64x2000x1, .f32⟩ : BufTy).Contents (Elt F) → (⟨S64x2000x41, .f32⟩ : BufTy).Contents (Elt F)) ]

/-- The features shifted by one frame and their two-tap convolution with its bias. -/
abbrev opsC : List (HloOp τ sig (Elt F)) :=
  [ StableHlo.nullary main_c (constantI S_ 32 0#32),
    TRef.unary (.of main_c : TRef sig ⟨S_, .i32⟩) main_call0.v0 (sitofp .f32),
    TRef.binary (.of main_arg1 : TRef sig ⟨S64x2000x128, .f32⟩) main_call0.v0 main_call0.v1 (fun x v => pad S64x2001x128 ![0, 1, 0] ![0, 0, 0] ![0, 0, 0] x v pads_S64x2000x128_S64x2001x128_000_100_000 h_S_),
    StableHlo.unary main_v17 main_v18 ((extractStridedSlice S64x2000x128 ![0, 0, 0] · slices_S64x2001x128_S64x2000x128_0_0_0) : (⟨S64x2001x128, .f32⟩ : BufTy).Contents (Elt F) → (⟨S64x2000x128, .f32⟩ : BufTy).Contents (Elt F)),
    StableHlo.unary main_arg2 main_v19 ((extractStridedSlice S160x128x1 ![0, 0, 0] · slices_S160x128x2_S160x128x1_0_0_0) : (⟨S160x128x2, .f32⟩ : BufTy).Contents (Elt F) → (⟨S160x128x1, .f32⟩ : BufTy).Contents (Elt F)),
    StableHlo.reshape main_v19 main_v20 rfl shapeCasts_S160x128x1_S160x128,
    StableHlo.binary main_v18 main_v20 main_v21 ((fun l r => Host.dotGeneral dot_S64x2000x128_S160x128_S64x2000x160_2_1_01_0_n_n none l r) : (⟨S64x2000x128, .f32⟩ : BufTy).Contents (Elt F) → (⟨S160x128, .f32⟩ : BufTy).Contents (Elt F) → (⟨S64x2000x160, .f32⟩ : BufTy).Contents (Elt F)),
    StableHlo.unary main_arg2 main_v22 ((extractStridedSlice S160x128x1 ![0, 0, 1] · slices_S160x128x2_S160x128x1_0_0_1) : (⟨S160x128x2, .f32⟩ : BufTy).Contents (Elt F) → (⟨S160x128x1, .f32⟩ : BufTy).Contents (Elt F)),
    StableHlo.reshape main_v22 main_v23 rfl shapeCasts_S160x128x1_S160x128,
    StableHlo.binary main_arg1 main_v23 main_v24 ((fun l r => Host.dotGeneral dot_S64x2000x128_S160x128_S64x2000x160_2_1_01_0_n_n none l r) : (⟨S64x2000x128, .f32⟩ : BufTy).Contents (Elt F) → (⟨S160x128, .f32⟩ : BufTy).Contents (Elt F) → (⟨S64x2000x160, .f32⟩ : BufTy).Contents (Elt F)),
    StableHlo.binary main_v21 main_v24 main_v25 (addf : (⟨S64x2000x160, .f32⟩ : BufTy).Contents (Elt F) → (⟨S64x2000x160, .f32⟩ : BufTy).Contents (Elt F) → (⟨S64x2000x160, .f32⟩ : BufTy).Contents (Elt F)),
    StableHlo.unary main_arg3 main_v26 (broadcastInDim S1x1x160 ![2] bcast_S160_S1x1x160_2 : (⟨S160, .f32⟩ : BufTy).Contents (Elt F) → (⟨S1x1x160, .f32⟩ : BufTy).Contents (Elt F)),
    StableHlo.unary main_v26 main_v27 (broadcastInDim S64x2000x160 ![0, 1, 2] bcast_S1x1x160_S64x2000x160_0_1_2 : (⟨S1x1x160, .f32⟩ : BufTy).Contents (Elt F) → (⟨S64x2000x160, .f32⟩ : BufTy).Contents (Elt F)),
    StableHlo.binary main_v25 main_v27 main_v28 (addf : (⟨S64x2000x160, .f32⟩ : BufTy).Contents (Elt F) → (⟨S64x2000x160, .f32⟩ : BufTy).Contents (Elt F) → (⟨S64x2000x160, .f32⟩ : BufTy).Contents (Elt F)) ]

/-- The 41 channels shifted by one frame, their two-tap convolution with its bias, and the first layer's sum. -/
abbrev opsD : List (HloOp τ sig (Elt F)) :=
  [ StableHlo.nullary main_c_4 (constantI S_ 32 0#32),
    TRef.unary (.of main_c_4 : TRef sig ⟨S_, .i32⟩) main_call1.v0 (sitofp .f32),
    TRef.binary (.of main_v16 : TRef sig ⟨S64x2000x41, .f32⟩) main_call1.v0 main_call1.v1 (fun x v => pad S64x2001x41 ![0, 1, 0] ![0, 0, 0] ![0, 0, 0] x v pads_S64x2000x41_S64x2001x41_000_100_000 h_S_),
    StableHlo.unary main_v29 main_v30 ((extractStridedSlice S64x2000x41 ![0, 0, 0] · slices_S64x2001x41_S64x2000x41_0_0_0) : (⟨S64x2001x41, .f32⟩ : BufTy).Contents (Elt F) → (⟨S64x2000x41, .f32⟩ : BufTy).Contents (Elt F)),
    StableHlo.unary main_arg4 main_v31 ((extractStridedSlice S160x41x1 ![0, 0, 0] · slices_S160x41x2_S160x41x1_0_0_0) : (⟨S160x41x2, .f32⟩ : BufTy).Contents (Elt F) → (⟨S160x41x1, .f32⟩ : BufTy).Contents (Elt F)),
    StableHlo.reshape main_v31 main_v32 rfl shapeCasts_S160x41x1_S160x41,
    StableHlo.binary main_v30 main_v32 main_v33 ((fun l r => Host.dotGeneral dot_S64x2000x41_S160x41_S64x2000x160_2_1_01_0_n_n none l r) : (⟨S64x2000x41, .f32⟩ : BufTy).Contents (Elt F) → (⟨S160x41, .f32⟩ : BufTy).Contents (Elt F) → (⟨S64x2000x160, .f32⟩ : BufTy).Contents (Elt F)),
    StableHlo.unary main_arg4 main_v34 ((extractStridedSlice S160x41x1 ![0, 0, 1] · slices_S160x41x2_S160x41x1_0_0_1) : (⟨S160x41x2, .f32⟩ : BufTy).Contents (Elt F) → (⟨S160x41x1, .f32⟩ : BufTy).Contents (Elt F)),
    StableHlo.reshape main_v34 main_v35 rfl shapeCasts_S160x41x1_S160x41,
    StableHlo.binary main_v16 main_v35 main_v36 ((fun l r => Host.dotGeneral dot_S64x2000x41_S160x41_S64x2000x160_2_1_01_0_n_n none l r) : (⟨S64x2000x41, .f32⟩ : BufTy).Contents (Elt F) → (⟨S160x41, .f32⟩ : BufTy).Contents (Elt F) → (⟨S64x2000x160, .f32⟩ : BufTy).Contents (Elt F)),
    StableHlo.binary main_v33 main_v36 main_v37 (addf : (⟨S64x2000x160, .f32⟩ : BufTy).Contents (Elt F) → (⟨S64x2000x160, .f32⟩ : BufTy).Contents (Elt F) → (⟨S64x2000x160, .f32⟩ : BufTy).Contents (Elt F)),
    StableHlo.unary main_arg5 main_v38 (broadcastInDim S1x1x160 ![2] bcast_S160_S1x1x160_2 : (⟨S160, .f32⟩ : BufTy).Contents (Elt F) → (⟨S1x1x160, .f32⟩ : BufTy).Contents (Elt F)),
    StableHlo.unary main_v38 main_v39 (broadcastInDim S64x2000x160 ![0, 1, 2] bcast_S1x1x160_S64x2000x160_0_1_2 : (⟨S1x1x160, .f32⟩ : BufTy).Contents (Elt F) → (⟨S64x2000x160, .f32⟩ : BufTy).Contents (Elt F)),
    StableHlo.binary main_v37 main_v39 main_v40 (addf : (⟨S64x2000x160, .f32⟩ : BufTy).Contents (Elt F) → (⟨S64x2000x160, .f32⟩ : BufTy).Contents (Elt F) → (⟨S64x2000x160, .f32⟩ : BufTy).Contents (Elt F)),
    StableHlo.binary main_v28 main_v40 main_v41 (addf : (⟨S64x2000x160, .f32⟩ : BufTy).Contents (Elt F) → (⟨S64x2000x160, .f32⟩ : BufTy).Contents (Elt F) → (⟨S64x2000x160, .f32⟩ : BufTy).Contents (Elt F)) ]

/-- The leaky rectifier, written out: compare with zero, scale by the slope, select. -/
abbrev opsE : List (HloOp τ sig (Elt F)) :=
  [ StableHlo.nullary main_cst_5 (constant S_ .f32 0x3E4CCCCD#32),
    TRef.nullary main_call2.cst (constant S_ .f32 0x00000000#32),
    TRef.unary main_call2.cst main_call2.v0 (broadcastInDim S64x2000x160 ![] bcast_S_S64x2000x160),
    TRef.binary (.of main_v41 : TRef sig ⟨S64x2000x160, .f32⟩) main_call2.v0 main_call2.v1 (cmpf .oge),
    TRef.unary (.of main_cst_5 : TRef sig ⟨S_, .f32⟩) main_call2.v2 id,
    TRef.unary main_call2.v2 main_call2.v3 (broadcastInDim S64x2000x160 ![] bcast_S_S64x2000x160),
    TRef.binary main_call2.v3 (.of main_v41 : TRef sig ⟨S64x2000x160, .f32⟩) main_call2.v4 mulf,
    TRef.ternary main_call2.v1 (.of main_v41 : TRef sig ⟨S64x2000x160, .f32⟩) main_call2.v4 main_call2.call0.v0 select ]

/-- The activations shifted by one frame, the second convolution, the exponential, and the product with the framed waveform. -/
abbrev opsG : List (HloOp τ sig (Elt F)) :=
  [ StableHlo.nullary main_c_6 (constantI S_ 32 0#32),
    TRef.unary (.of main_c_6 : TRef sig ⟨S_, .i32⟩) main_call3.v0 (sitofp .f32),
    TRef.binary (.of main_v42 : TRef sig ⟨S64x2000x160, .f32⟩) main_call3.v0 main_call3.v1 (fun x v => pad S64x2001x160 ![0, 1, 0] ![0, 0, 0] ![0, 0, 0] x v pads_S64x2000x160_S64x2001x160_000_100_000 h_S_),
    StableHlo.unary main_v43 main_v44 ((extractStridedSlice S64x2000x160 ![0, 0, 0] · slices_S64x2001x160_S64x2000x160_0_0_0) : (⟨S64x2001x160, .f32⟩ : BufTy).Contents (Elt F) → (⟨S64x2000x160, .f32⟩ : BufTy).Contents (Elt F)),
    StableHlo.unary main_arg6 main_v45 ((extractStridedSlice S160x160x1 ![0, 0, 0] · slices_S160x160x2_S160x160x1_0_0_0) : (⟨S160x160x2, .f32⟩ : BufTy).Contents (Elt F) → (⟨S160x160x1, .f32⟩ : BufTy).Contents (Elt F)),
    StableHlo.reshape main_v45 main_v46 rfl shapeCasts_S160x160x1_S160x160,
    StableHlo.binary main_v44 main_v46 main_v47 ((fun l r => Host.dotGeneral dot_S64x2000x160_S160x160_S64x2000x160_2_1_01_0_n_n none l r) : (⟨S64x2000x160, .f32⟩ : BufTy).Contents (Elt F) → (⟨S160x160, .f32⟩ : BufTy).Contents (Elt F) → (⟨S64x2000x160, .f32⟩ : BufTy).Contents (Elt F)),
    StableHlo.unary main_arg6 main_v48 ((extractStridedSlice S160x160x1 ![0, 0, 1] · slices_S160x160x2_S160x160x1_0_0_1) : (⟨S160x160x2, .f32⟩ : BufTy).Contents (Elt F) → (⟨S160x160x1, .f32⟩ : BufTy).Contents (Elt F)),
    StableHlo.reshape main_v48 main_v49 rfl shapeCasts_S160x160x1_S160x160,
    StableHlo.binary main_v42 main_v49 main_v50 ((fun l r => Host.dotGeneral dot_S64x2000x160_S160x160_S64x2000x160_2_1_01_0_n_n none l r) : (⟨S64x2000x160, .f32⟩ : BufTy).Contents (Elt F) → (⟨S160x160, .f32⟩ : BufTy).Contents (Elt F) → (⟨S64x2000x160, .f32⟩ : BufTy).Contents (Elt F)),
    StableHlo.binary main_v47 main_v50 main_v51 (addf : (⟨S64x2000x160, .f32⟩ : BufTy).Contents (Elt F) → (⟨S64x2000x160, .f32⟩ : BufTy).Contents (Elt F) → (⟨S64x2000x160, .f32⟩ : BufTy).Contents (Elt F)),
    StableHlo.unary main_arg7 main_v52 (broadcastInDim S1x1x160 ![2] bcast_S160_S1x1x160_2 : (⟨S160, .f32⟩ : BufTy).Contents (Elt F) → (⟨S1x1x160, .f32⟩ : BufTy).Contents (Elt F)),
    StableHlo.unary main_v52 main_v53 (broadcastInDim S64x2000x160 ![0, 1, 2] bcast_S1x1x160_S64x2000x160_0_1_2 : (⟨S1x1x160, .f32⟩ : BufTy).Contents (Elt F) → (⟨S64x2000x160, .f32⟩ : BufTy).Contents (Elt F)),
    StableHlo.binary main_v51 main_v53 main_v54 (addf : (⟨S64x2000x160, .f32⟩ : BufTy).Contents (Elt F) → (⟨S64x2000x160, .f32⟩ : BufTy).Contents (Elt F) → (⟨S64x2000x160, .f32⟩ : BufTy).Contents (Elt F)),
    StableHlo.unary main_v54 main_v55 (Host.exp : (⟨S64x2000x160, .f32⟩ : BufTy).Contents (Elt F) → (⟨S64x2000x160, .f32⟩ : BufTy).Contents (Elt F)),
    StableHlo.reshape main_arg0 main_v56 rfl shapeCasts_S64x1x320000_S64x2000x160,
    StableHlo.binary main_v55 main_v56 main_v57 (mulf : (⟨S64x2000x160, .f32⟩ : BufTy).Contents (Elt F) → (⟨S64x2000x160, .f32⟩ : BufTy).Contents (Elt F) → (⟨S64x2000x160, .f32⟩ : BufTy).Contents (Elt F)),
    StableHlo.reshape main_v57 main_v58 rfl shapeCasts_S64x2000x160_S64x1x320000 ]

/-- The whole line. -/
abbrev ops : List (HloOp τ sig (Elt F)) :=
  [ StableHlo.reshape main_arg0 main_v0 rfl shapeCasts_S64x1x320000_S64x320000,
    StableHlo.unary main_v0 main_v1 (Host.absf : (⟨S64x320000, .f32⟩ : BufTy).Contents (Elt F) → (⟨S64x320000, .f32⟩ : BufTy).Contents (Elt F)),
    StableHlo.reshape main_v1 main_v2 rfl shapeCasts_S64x320000_S64x80000x4,
    StableHlo.nullary main_cst (constant S_ .f32 0x00000000#32),
    StableHlo.binary main_v2 main_cst main_v3 ((fun x v => Host.reduceAdd x v reducesTo_S64x80000x4_S64x80000_d2 h_S_) : (⟨S64x80000x4, .f32⟩ : BufTy).Contents (Elt F) → (⟨S_, .f32⟩ : BufTy).Contents (Elt F) → (⟨S64x80000, .f32⟩ : BufTy).Contents (Elt F)),
    StableHlo.nullary main_cst_0 (constant S_ .f32 0x40800000#32),
    StableHlo.unary main_cst_0 main_v4 (broadcastInDim S64x80000 ![] bcast_S_S64x80000 : (⟨S_, .f32⟩ : BufTy).Contents (Elt F) → (⟨S64x80000, .f32⟩ : BufTy).Contents (Elt F)),
    StableHlo.binary main_v3 main_v4 main_v5 (Host.divf : (⟨S64x80000, .f32⟩ : BufTy).Contents (Elt F) → (⟨S64x80000, .f32⟩ : BufTy).Contents (Elt F) → (⟨S64x80000, .f32⟩ : BufTy).Contents (Elt F)),
    StableHlo.nullary main_cst_1 (constant S_ .f32 0x37800000#32),
    StableHlo.unary main_cst_1 main_v6 (broadcastInDim S64x80000 ![] bcast_S_S64x80000 : (⟨S_, .f32⟩ : BufTy).Contents (Elt F) → (⟨S64x80000, .f32⟩ : BufTy).Contents (Elt F)),
    StableHlo.binary main_v5 main_v6 main_v7 (addf : (⟨S64x80000, .f32⟩ : BufTy).Contents (Elt F) → (⟨S64x80000, .f32⟩ : BufTy).Contents (Elt F) → (⟨S64x80000, .f32⟩ : BufTy).Contents (Elt F)),
    StableHlo.unary main_v7 main_v8 (Host.log : (⟨S64x80000, .f32⟩ : BufTy).Contents (Elt F) → (⟨S64x80000, .f32⟩ : BufTy).Contents (Elt F)),
    StableHlo.reshape main_v8 main_v9 rfl shapeCasts_S64x80000_S64x2000x40,
    StableHlo.nullary main_cst_2 (constant S_ .f32 0x00000000#32),
    StableHlo.binary main_v9 main_cst_2 main_v10 ((fun x v => Host.reduceAdd x v reducesTo_S64x2000x40_S64x2000_d2 h_S_) : (⟨S64x2000x40, .f32⟩ : BufTy).Contents (Elt F) → (⟨S_, .f32⟩ : BufTy).Contents (Elt F) → (⟨S64x2000, .f32⟩ : BufTy).Contents (Elt F)),
    StableHlo.unary main_v10 main_v11 (broadcastInDim S64x2000x1 ![0, 1] bcast_S64x2000_S64x2000x1_0_1 : (⟨S64x2000, .f32⟩ : BufTy).Contents (Elt F) → (⟨S64x2000x1, .f32⟩ : BufTy).Contents (Elt F)),
    StableHlo.nullary main_cst_3 (constant S_ .f32 0x42200000#32),
    StableHlo.unary main_cst_3 main_v12 (broadcastInDim S64x2000x1 ![] bcast_S_S64x2000x1 : (⟨S_, .f32⟩ : BufTy).Contents (Elt F) → (⟨S64x2000x1, .f32⟩ : BufTy).Contents (Elt F)),
    StableHlo.binary main_v11 main_v12 main_v13 (Host.divf : (⟨S64x2000x1, .f32⟩ : BufTy).Contents (Elt F) → (⟨S64x2000x1, .f32⟩ : BufTy).Contents (Elt F) → (⟨S64x2000x1, .f32⟩ : BufTy).Contents (Elt F)),
    StableHlo.unary main_v13 main_v14 (broadcastInDim S64x2000x40 ![0, 1, 2] bcast_S64x2000x1_S64x2000x40_0_1_2 : (⟨S64x2000x1, .f32⟩ : BufTy).Contents (Elt F) → (⟨S64x2000x40, .f32⟩ : BufTy).Contents (Elt F)),
    StableHlo.binary main_v9 main_v14 main_v15 (subf : (⟨S64x2000x40, .f32⟩ : BufTy).Contents (Elt F) → (⟨S64x2000x40, .f32⟩ : BufTy).Contents (Elt F) → (⟨S64x2000x40, .f32⟩ : BufTy).Contents (Elt F)),
    StableHlo.binary main_v15 main_v13 main_v16 ((fun a b => concatenate S64x2000x41 2 [⟨S64x2000x40, a⟩, ⟨S64x2000x1, b⟩] concatenates_S64x2000x40_S64x2000x1_S64x2000x41_d2) : (⟨S64x2000x40, .f32⟩ : BufTy).Contents (Elt F) → (⟨S64x2000x1, .f32⟩ : BufTy).Contents (Elt F) → (⟨S64x2000x41, .f32⟩ : BufTy).Contents (Elt F)),
    StableHlo.nullary main_c (constantI S_ 32 0#32),
    TRef.unary (.of main_c : TRef sig ⟨S_, .i32⟩) main_call0.v0 (sitofp .f32),
    TRef.binary (.of main_arg1 : TRef sig ⟨S64x2000x128, .f32⟩) main_call0.v0 main_call0.v1 (fun x v => pad S64x2001x128 ![0, 1, 0] ![0, 0, 0] ![0, 0, 0] x v pads_S64x2000x128_S64x2001x128_000_100_000 h_S_),
    StableHlo.unary main_v17 main_v18 ((extractStridedSlice S64x2000x128 ![0, 0, 0] · slices_S64x2001x128_S64x2000x128_0_0_0) : (⟨S64x2001x128, .f32⟩ : BufTy).Contents (Elt F) → (⟨S64x2000x128, .f32⟩ : BufTy).Contents (Elt F)),
    StableHlo.unary main_arg2 main_v19 ((extractStridedSlice S160x128x1 ![0, 0, 0] · slices_S160x128x2_S160x128x1_0_0_0) : (⟨S160x128x2, .f32⟩ : BufTy).Contents (Elt F) → (⟨S160x128x1, .f32⟩ : BufTy).Contents (Elt F)),
    StableHlo.reshape main_v19 main_v20 rfl shapeCasts_S160x128x1_S160x128,
    StableHlo.binary main_v18 main_v20 main_v21 ((fun l r => Host.dotGeneral dot_S64x2000x128_S160x128_S64x2000x160_2_1_01_0_n_n none l r) : (⟨S64x2000x128, .f32⟩ : BufTy).Contents (Elt F) → (⟨S160x128, .f32⟩ : BufTy).Contents (Elt F) → (⟨S64x2000x160, .f32⟩ : BufTy).Contents (Elt F)),
    StableHlo.unary main_arg2 main_v22 ((extractStridedSlice S160x128x1 ![0, 0, 1] · slices_S160x128x2_S160x128x1_0_0_1) : (⟨S160x128x2, .f32⟩ : BufTy).Contents (Elt F) → (⟨S160x128x1, .f32⟩ : BufTy).Contents (Elt F)),
    StableHlo.reshape main_v22 main_v23 rfl shapeCasts_S160x128x1_S160x128,
    StableHlo.binary main_arg1 main_v23 main_v24 ((fun l r => Host.dotGeneral dot_S64x2000x128_S160x128_S64x2000x160_2_1_01_0_n_n none l r) : (⟨S64x2000x128, .f32⟩ : BufTy).Contents (Elt F) → (⟨S160x128, .f32⟩ : BufTy).Contents (Elt F) → (⟨S64x2000x160, .f32⟩ : BufTy).Contents (Elt F)),
    StableHlo.binary main_v21 main_v24 main_v25 (addf : (⟨S64x2000x160, .f32⟩ : BufTy).Contents (Elt F) → (⟨S64x2000x160, .f32⟩ : BufTy).Contents (Elt F) → (⟨S64x2000x160, .f32⟩ : BufTy).Contents (Elt F)),
    StableHlo.unary main_arg3 main_v26 (broadcastInDim S1x1x160 ![2] bcast_S160_S1x1x160_2 : (⟨S160, .f32⟩ : BufTy).Contents (Elt F) → (⟨S1x1x160, .f32⟩ : BufTy).Contents (Elt F)),
    StableHlo.unary main_v26 main_v27 (broadcastInDim S64x2000x160 ![0, 1, 2] bcast_S1x1x160_S64x2000x160_0_1_2 : (⟨S1x1x160, .f32⟩ : BufTy).Contents (Elt F) → (⟨S64x2000x160, .f32⟩ : BufTy).Contents (Elt F)),
    StableHlo.binary main_v25 main_v27 main_v28 (addf : (⟨S64x2000x160, .f32⟩ : BufTy).Contents (Elt F) → (⟨S64x2000x160, .f32⟩ : BufTy).Contents (Elt F) → (⟨S64x2000x160, .f32⟩ : BufTy).Contents (Elt F)),
    StableHlo.nullary main_c_4 (constantI S_ 32 0#32),
    TRef.unary (.of main_c_4 : TRef sig ⟨S_, .i32⟩) main_call1.v0 (sitofp .f32),
    TRef.binary (.of main_v16 : TRef sig ⟨S64x2000x41, .f32⟩) main_call1.v0 main_call1.v1 (fun x v => pad S64x2001x41 ![0, 1, 0] ![0, 0, 0] ![0, 0, 0] x v pads_S64x2000x41_S64x2001x41_000_100_000 h_S_),
    StableHlo.unary main_v29 main_v30 ((extractStridedSlice S64x2000x41 ![0, 0, 0] · slices_S64x2001x41_S64x2000x41_0_0_0) : (⟨S64x2001x41, .f32⟩ : BufTy).Contents (Elt F) → (⟨S64x2000x41, .f32⟩ : BufTy).Contents (Elt F)),
    StableHlo.unary main_arg4 main_v31 ((extractStridedSlice S160x41x1 ![0, 0, 0] · slices_S160x41x2_S160x41x1_0_0_0) : (⟨S160x41x2, .f32⟩ : BufTy).Contents (Elt F) → (⟨S160x41x1, .f32⟩ : BufTy).Contents (Elt F)),
    StableHlo.reshape main_v31 main_v32 rfl shapeCasts_S160x41x1_S160x41,
    StableHlo.binary main_v30 main_v32 main_v33 ((fun l r => Host.dotGeneral dot_S64x2000x41_S160x41_S64x2000x160_2_1_01_0_n_n none l r) : (⟨S64x2000x41, .f32⟩ : BufTy).Contents (Elt F) → (⟨S160x41, .f32⟩ : BufTy).Contents (Elt F) → (⟨S64x2000x160, .f32⟩ : BufTy).Contents (Elt F)),
    StableHlo.unary main_arg4 main_v34 ((extractStridedSlice S160x41x1 ![0, 0, 1] · slices_S160x41x2_S160x41x1_0_0_1) : (⟨S160x41x2, .f32⟩ : BufTy).Contents (Elt F) → (⟨S160x41x1, .f32⟩ : BufTy).Contents (Elt F)),
    StableHlo.reshape main_v34 main_v35 rfl shapeCasts_S160x41x1_S160x41,
    StableHlo.binary main_v16 main_v35 main_v36 ((fun l r => Host.dotGeneral dot_S64x2000x41_S160x41_S64x2000x160_2_1_01_0_n_n none l r) : (⟨S64x2000x41, .f32⟩ : BufTy).Contents (Elt F) → (⟨S160x41, .f32⟩ : BufTy).Contents (Elt F) → (⟨S64x2000x160, .f32⟩ : BufTy).Contents (Elt F)),
    StableHlo.binary main_v33 main_v36 main_v37 (addf : (⟨S64x2000x160, .f32⟩ : BufTy).Contents (Elt F) → (⟨S64x2000x160, .f32⟩ : BufTy).Contents (Elt F) → (⟨S64x2000x160, .f32⟩ : BufTy).Contents (Elt F)),
    StableHlo.unary main_arg5 main_v38 (broadcastInDim S1x1x160 ![2] bcast_S160_S1x1x160_2 : (⟨S160, .f32⟩ : BufTy).Contents (Elt F) → (⟨S1x1x160, .f32⟩ : BufTy).Contents (Elt F)),
    StableHlo.unary main_v38 main_v39 (broadcastInDim S64x2000x160 ![0, 1, 2] bcast_S1x1x160_S64x2000x160_0_1_2 : (⟨S1x1x160, .f32⟩ : BufTy).Contents (Elt F) → (⟨S64x2000x160, .f32⟩ : BufTy).Contents (Elt F)),
    StableHlo.binary main_v37 main_v39 main_v40 (addf : (⟨S64x2000x160, .f32⟩ : BufTy).Contents (Elt F) → (⟨S64x2000x160, .f32⟩ : BufTy).Contents (Elt F) → (⟨S64x2000x160, .f32⟩ : BufTy).Contents (Elt F)),
    StableHlo.binary main_v28 main_v40 main_v41 (addf : (⟨S64x2000x160, .f32⟩ : BufTy).Contents (Elt F) → (⟨S64x2000x160, .f32⟩ : BufTy).Contents (Elt F) → (⟨S64x2000x160, .f32⟩ : BufTy).Contents (Elt F)),
    StableHlo.nullary main_cst_5 (constant S_ .f32 0x3E4CCCCD#32),
    TRef.nullary main_call2.cst (constant S_ .f32 0x00000000#32),
    TRef.unary main_call2.cst main_call2.v0 (broadcastInDim S64x2000x160 ![] bcast_S_S64x2000x160),
    TRef.binary (.of main_v41 : TRef sig ⟨S64x2000x160, .f32⟩) main_call2.v0 main_call2.v1 (cmpf .oge),
    TRef.unary (.of main_cst_5 : TRef sig ⟨S_, .f32⟩) main_call2.v2 id,
    TRef.unary main_call2.v2 main_call2.v3 (broadcastInDim S64x2000x160 ![] bcast_S_S64x2000x160),
    TRef.binary main_call2.v3 (.of main_v41 : TRef sig ⟨S64x2000x160, .f32⟩) main_call2.v4 mulf,
    TRef.ternary main_call2.v1 (.of main_v41 : TRef sig ⟨S64x2000x160, .f32⟩) main_call2.v4 main_call2.call0.v0 select,
    StableHlo.nullary main_c_6 (constantI S_ 32 0#32),
    TRef.unary (.of main_c_6 : TRef sig ⟨S_, .i32⟩) main_call3.v0 (sitofp .f32),
    TRef.binary (.of main_v42 : TRef sig ⟨S64x2000x160, .f32⟩) main_call3.v0 main_call3.v1 (fun x v => pad S64x2001x160 ![0, 1, 0] ![0, 0, 0] ![0, 0, 0] x v pads_S64x2000x160_S64x2001x160_000_100_000 h_S_),
    StableHlo.unary main_v43 main_v44 ((extractStridedSlice S64x2000x160 ![0, 0, 0] · slices_S64x2001x160_S64x2000x160_0_0_0) : (⟨S64x2001x160, .f32⟩ : BufTy).Contents (Elt F) → (⟨S64x2000x160, .f32⟩ : BufTy).Contents (Elt F)),
    StableHlo.unary main_arg6 main_v45 ((extractStridedSlice S160x160x1 ![0, 0, 0] · slices_S160x160x2_S160x160x1_0_0_0) : (⟨S160x160x2, .f32⟩ : BufTy).Contents (Elt F) → (⟨S160x160x1, .f32⟩ : BufTy).Contents (Elt F)),
    StableHlo.reshape main_v45 main_v46 rfl shapeCasts_S160x160x1_S160x160,
    StableHlo.binary main_v44 main_v46 main_v47 ((fun l r => Host.dotGeneral dot_S64x2000x160_S160x160_S64x2000x160_2_1_01_0_n_n none l r) : (⟨S64x2000x160, .f32⟩ : BufTy).Contents (Elt F) → (⟨S160x160, .f32⟩ : BufTy).Contents (Elt F) → (⟨S64x2000x160, .f32⟩ : BufTy).Contents (Elt F)),
    StableHlo.unary main_arg6 main_v48 ((extractStridedSlice S160x160x1 ![0, 0, 1] · slices_S160x160x2_S160x160x1_0_0_1) : (⟨S160x160x2, .f32⟩ : BufTy).Contents (Elt F) → (⟨S160x160x1, .f32⟩ : BufTy).Contents (Elt F)),
    StableHlo.reshape main_v48 main_v49 rfl shapeCasts_S160x160x1_S160x160,
    StableHlo.binary main_v42 main_v49 main_v50 ((fun l r => Host.dotGeneral dot_S64x2000x160_S160x160_S64x2000x160_2_1_01_0_n_n none l r) : (⟨S64x2000x160, .f32⟩ : BufTy).Contents (Elt F) → (⟨S160x160, .f32⟩ : BufTy).Contents (Elt F) → (⟨S64x2000x160, .f32⟩ : BufTy).Contents (Elt F)),
    StableHlo.binary main_v47 main_v50 main_v51 (addf : (⟨S64x2000x160, .f32⟩ : BufTy).Contents (Elt F) → (⟨S64x2000x160, .f32⟩ : BufTy).Contents (Elt F) → (⟨S64x2000x160, .f32⟩ : BufTy).Contents (Elt F)),
    StableHlo.unary main_arg7 main_v52 (broadcastInDim S1x1x160 ![2] bcast_S160_S1x1x160_2 : (⟨S160, .f32⟩ : BufTy).Contents (Elt F) → (⟨S1x1x160, .f32⟩ : BufTy).Contents (Elt F)),
    StableHlo.unary main_v52 main_v53 (broadcastInDim S64x2000x160 ![0, 1, 2] bcast_S1x1x160_S64x2000x160_0_1_2 : (⟨S1x1x160, .f32⟩ : BufTy).Contents (Elt F) → (⟨S64x2000x160, .f32⟩ : BufTy).Contents (Elt F)),
    StableHlo.binary main_v51 main_v53 main_v54 (addf : (⟨S64x2000x160, .f32⟩ : BufTy).Contents (Elt F) → (⟨S64x2000x160, .f32⟩ : BufTy).Contents (Elt F) → (⟨S64x2000x160, .f32⟩ : BufTy).Contents (Elt F)),
    StableHlo.unary main_v54 main_v55 (Host.exp : (⟨S64x2000x160, .f32⟩ : BufTy).Contents (Elt F) → (⟨S64x2000x160, .f32⟩ : BufTy).Contents (Elt F)),
    StableHlo.reshape main_arg0 main_v56 rfl shapeCasts_S64x1x320000_S64x2000x160,
    StableHlo.binary main_v55 main_v56 main_v57 (mulf : (⟨S64x2000x160, .f32⟩ : BufTy).Contents (Elt F) → (⟨S64x2000x160, .f32⟩ : BufTy).Contents (Elt F) → (⟨S64x2000x160, .f32⟩ : BufTy).Contents (Elt F)),
    StableHlo.reshape main_v57 main_v58 rfl shapeCasts_S64x2000x160_S64x1x320000 ]

theorem ops_eq : (ops : List (HloOp τ sig (Elt F))) = opsA ++ (opsB ++ (opsC ++ (opsD ++ (opsE ++ opsG)))) := rfl

-- seventy-seven binds re-associated: the rewriting under the chain recurses once per statement
set_option maxRecDepth 4096 in
set_option maxHeartbeats 4000000 in
/-- @main is that straight line: the functions unfolded at their calls, sequencing re-associated. -/
theorem main_eq (c : Dev nD) : main (F := F) c = seq ops := by
  simp only [main, main_part0, main_part1, fn_pad.body, fn_pad_0.body, fn_pad_1.body, fn_leaky_relu.body, fn_where.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨reshape_bufs_sub .., unary_bufs_sub .., reshape_bufs_sub .., nullary_bufs_sub .., binary_bufs_sub .., nullary_bufs_sub .., unary_bufs_sub .., binary_bufs_sub .., nullary_bufs_sub .., unary_bufs_sub .., binary_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., unary_bufs_sub .., binary_bufs_sub .., unary_bufs_sub .., unary_bufs_sub .., reshape_bufs_sub .., binary_bufs_sub .., unary_bufs_sub .., reshape_bufs_sub .., binary_bufs_sub .., binary_bufs_sub .., unary_bufs_sub .., unary_bufs_sub .., binary_bufs_sub .., nullary_bufs_sub .., unary_bufs_sub .., binary_bufs_sub .., unary_bufs_sub .., unary_bufs_sub .., reshape_bufs_sub .., binary_bufs_sub .., unary_bufs_sub .., reshape_bufs_sub .., binary_bufs_sub .., binary_bufs_sub .., unary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., unary_bufs_sub .., unary_bufs_sub .., reshape_bufs_sub .., binary_bufs_sub .., unary_bufs_sub .., reshape_bufs_sub .., binary_bufs_sub .., binary_bufs_sub .., unary_bufs_sub .., unary_bufs_sub .., binary_bufs_sub .., unary_bufs_sub .., reshape_bufs_sub .., binary_bufs_sub .., reshape_bufs_sub ..⟩

set_option maxRecDepth 8192 in
set_option maxHeartbeats 4000000 in
/-- Every weakly fair execution of @main terminates with each buffer at the line's fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- A line run after another is the two folds composed. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

end Cert.ReferenceIdeal.Shaped

end
-- ==== Proof.RefStages.lean ====
/-
  The reference's value as a composition of named stages, and its run.

  Each stretch of the line computes one stage from the buffers it finds: the log-envelope from the waveform; the
  centred envelope with its mean appended; a causal two-tap convolution (three times, over 128, 41 and 160 channels);
  the leaky rectifier; and the exponential times the framed waveform, laid back as rows. A stretch leaves the
  argument buffers as it found them, so the folds compose to the stages' composition at the launch contents.
-/
import proofs.«118238_j46170898432119_2_alg».proof.Proof.RefOps

noncomputable section

namespace Cert.ReferenceIdeal.Shaped

open Cert.ReferenceIdeal Cert.ReferenceIdeal.Gen Idealize.ShloMosaic Idealize.ShloMosaic.TcCoe Idealize.SL.Sem Idealize.ShloMosaic.StableHlo

/-- The contents of an f32 buffer of shape `S`. -/
abbrev Ct (F : FTy → Type) [FloatOps F] (S : Shape) : Type := (⟨S, .f32⟩ : BufTy).Contents (Elt F)

variable {F : FTy → Type} [FloatOps F]

/-! ## The stages -/

/-- The absolute values of the samples, regrouped in fours. -/
def absq (x : Ct F S64x1x320000) : Ct F S64x80000x4 :=
  shapeCast S64x80000x4 (Host.absf (shapeCast S64x320000 x shapeCasts_S64x1x320000_S64x320000) : Ct F S64x320000)
    shapeCasts_S64x320000_S64x80000x4

/-- Per group: the logarithm of (the four absolute values' sum over 4, plus 2⁻¹⁶). -/
def envq (x : Ct F S64x1x320000) : Ct F S64x80000 :=
  Host.log (addf
    (Host.divf (Host.reduceAdd (absq x) (constant S_ .f32 0x00000000#32) reducesTo_S64x80000x4_S64x80000_d2 h_S_ : Ct F S64x80000)
      (broadcastInDim S64x80000 ![] bcast_S_S64x80000 (constant S_ .f32 0x40800000#32)))
    (broadcastInDim S64x80000 ![] bcast_S_S64x80000 (constant S_ .f32 0x37800000#32)))

/-- The log-envelope, 40 groups per frame. -/
def envF (x : Ct F S64x1x320000) : Ct F S64x2000x40 :=
  shapeCast S64x2000x40 (envq x) shapeCasts_S64x80000_S64x2000x40

/-- The envelope's mean over the 40 groups, kept as a unit channel. -/
def avgK (e : Ct F S64x2000x40) : Ct F S64x2000x1 :=
  Host.divf
    (broadcastInDim S64x2000x1 ![0, 1] bcast_S64x2000_S64x2000x1_0_1
      (Host.reduceAdd e (constant S_ .f32 0x00000000#32) reducesTo_S64x2000x40_S64x2000_d2 h_S_ : Ct F S64x2000))
    (broadcastInDim S64x2000x1 ![] bcast_S_S64x2000x1 (constant S_ .f32 0x42200000#32))

/-- The centred envelope followed by its mean: 41 channels. -/
def tenvF (e : Ct F S64x2000x40) : Ct F S64x2000x41 :=
  concatenate S64x2000x41 2
    [⟨S64x2000x40, subf e (broadcastInDim S64x2000x40 ![0, 1, 2] bcast_S64x2000x1_S64x2000x40_0_1_2 (avgK e))⟩,
     ⟨S64x2000x1, avgK e⟩]
    concatenates_S64x2000x40_S64x2000x1_S64x2000x41_d2

/-- A sequence of 128-channel frames shifted by one frame: padded with one frame of the integer zero converted, then cut back to 2000 frames. -/
def shift128 (a : Ct F S64x2000x128) : Ct F S64x2000x128 :=
  extractStridedSlice S64x2000x128 ![0, 0, 0]
    (pad S64x2001x128 ![0, 1, 0] ![0, 0, 0] ![0, 0, 0] a (sitofp .f32 (constantI S_ 32 0#32)) pads_S64x2000x128_S64x2001x128_000_100_000 h_S_)
    slices_S64x2001x128_S64x2000x128_0_0_0

/-- One tap of the 128-channel weights: the slice at that tap with the unit axis dropped. -/
def tap128 (W : Ct F S160x128x2) (off : Fin 3 → Nat) (h : S160x128x2.Slices off S160x128x1) : Ct F S160x128 :=
  shapeCast S160x128 (extractStridedSlice S160x128x1 off W h) shapeCasts_S160x128x1_S160x128

/-- The causal two-tap convolution of 128 channels: tap 0 against the shifted frames, tap 1 against the frames, plus the bias. -/
def conv128 (a : Ct F S64x2000x128) (W : Ct F S160x128x2) (bias : Ct F S160) : Ct F S64x2000x160 :=
  addf
    (addf (Host.dotGeneral dot_S64x2000x128_S160x128_S64x2000x160_2_1_01_0_n_n none (shift128 a) (tap128 W ![0, 0, 0] slices_S160x128x2_S160x128x1_0_0_0))
      (Host.dotGeneral dot_S64x2000x128_S160x128_S64x2000x160_2_1_01_0_n_n none a (tap128 W ![0, 0, 1] slices_S160x128x2_S160x128x1_0_0_1)))
    (broadcastInDim S64x2000x160 ![0, 1, 2] bcast_S1x1x160_S64x2000x160_0_1_2 (broadcastInDim S1x1x160 ![2] bcast_S160_S1x1x160_2 bias))

/-- A sequence of 41-channel frames shifted by one frame: padded with one frame of the integer zero converted, then cut back to 2000 frames. -/
def shift41 (a : Ct F S64x2000x41) : Ct F S64x2000x41 :=
  extractStridedSlice S64x2000x41 ![0, 0, 0]
    (pad S64x2001x41 ![0, 1, 0] ![0, 0, 0] ![0, 0, 0] a (sitofp .f32 (constantI S_ 32 0#32)) pads_S64x2000x41_S64x2001x41_000_100_000 h_S_)
    slices_S64x2001x41_S64x2000x41_0_0_0

/-- One tap of the 41-channel weights: the slice at that tap with the unit axis dropped. -/
def tap41 (W : Ct F S160x41x2) (off : Fin 3 → Nat) (h : S160x41x2.Slices off S160x41x1) : Ct F S160x41 :=
  shapeCast S160x41 (extractStridedSlice S160x41x1 off W h) shapeCasts_S160x41x1_S160x41

/-- The causal two-tap convolution of 41 channels: tap 0 against the shifted frames, tap 1 against the frames, plus the bias. -/
def conv41 (a : Ct F S64x2000x41) (W : Ct F S160x41x2) (bias : Ct F S160) : Ct F S64x2000x160 :=
  addf
    (addf (Host.dotGeneral dot_S64x2000x41_S160x41_S64x2000x160_2_1_01_0_n_n none (shift41 a) (tap41 W ![0, 0, 0] slices_S160x41x2_S160x41x1_0_0_0))
      (Host.dotGeneral dot_S64x2000x41_S160x41_S64x2000x160_2_1_01_0_n_n none a (tap41 W ![0, 0, 1] slices_S160x41x2_S160x41x1_0_0_1)))
    (broadcastInDim S64x2000x160 ![0, 1, 2] bcast_S1x1x160_S64x2000x160_0_1_2 (broadcastInDim S1x1x160 ![2] bcast_S160_S1x1x160_2 bias))

/-- A sequence of 160-channel frames shifted by one frame: padded with one frame of the integer zero converted, then cut back to 2000 frames. -/
def shift160 (a : Ct F S64x2000x160) : Ct F S64x2000x160 :=
  extractStridedSlice S64x2000x160 ![0, 0, 0]
    (pad S64x2001x160 ![0, 1, 0] ![0, 0, 0] ![0, 0, 0] a (sitofp .f32 (constantI S_ 32 0#32)) pads_S64x2000x160_S64x2001x160_000_100_000 h_S_)
    slices_S64x2001x160_S64x2000x160_0_0_0

/-- One tap of the 160-channel weights: the slice at that tap with the unit axis dropped. -/
def tap160 (W : Ct F S160x160x2) (off : Fin 3 → Nat) (h : S160x160x2.Slices off S160x160x1) : Ct F S160x160 :=
  shapeCast S160x160 (extractStridedSlice S160x160x1 off W h) shapeCasts_S160x160x1_S160x160

/-- The causal two-tap convolution of 160 channels: tap 0 against the shifted frames, tap 1 against the frames, plus the bias. -/
def conv160 (a : Ct F S64x2000x160) (W : Ct F S160x160x2) (bias : Ct F S160) : Ct F S64x2000x160 :=
  addf
    (addf (Host.dotGeneral dot_S64x2000x160_S160x160_S64x2000x160_2_1_01_0_n_n none (shift160 a) (tap160 W ![0, 0, 0] slices_S160x160x2_S160x160x1_0_0_0))
      (Host.dotGeneral dot_S64x2000x160_S160x160_S64x2000x160_2_1_01_0_n_n none a (tap160 W ![0, 0, 1] slices_S160x160x2_S160x160x1_0_0_1)))
    (broadcastInDim S64x2000x160 ![0, 1, 2] bcast_S1x1x160_S64x2000x160_0_1_2 (broadcastInDim S1x1x160 ![2] bcast_S160_S1x1x160_2 bias))

/-- The leaky rectifier: the value where it is at least zero, the slope times the value elsewhere. -/
def lreluF (v : Ct F S64x2000x160) : Ct F S64x2000x160 :=
  select (cmpf .oge v (broadcastInDim S64x2000x160 ![] bcast_S_S64x2000x160 (constant S_ .f32 0x00000000#32))) v
    (mulf (broadcastInDim S64x2000x160 ![] bcast_S_S64x2000x160 (id (constant S_ .f32 0x3E4CCCCD#32))) v)

/-- The exponential of the gain's logarithm times the framed waveform, laid back as rows. -/
def outF (x : Ct F S64x1x320000) (z : Ct F S64x2000x160) : Ct F S64x1x320000 :=
  shapeCast S64x1x320000 (mulf (Host.exp z) (shapeCast S64x2000x160 x shapeCasts_S64x1x320000_S64x2000x160))
    shapeCasts_S64x2000x160_S64x1x320000

/-- The reference's result as a function of its eight arguments. -/
def outAll (x : Ct F S64x1x320000) (ft : Ct F S64x2000x128) (w1f : Ct F S160x128x2) (b1f : Ct F S160) (w1t : Ct F S160x41x2)
    (b1t : Ct F S160) (w2 : Ct F S160x160x2) (b2 : Ct F S160) : Ct F S64x1x320000 :=
  outF x (conv160 (lreluF (addf (conv128 ft w1f b1f) (conv41 (tenvF (envF x)) w1t b1t))) w2 b2)

/-! ## Each stretch computes its stage and keeps the arguments -/

variable (W : Valuation τ sig (Elt F))

theorem afterA_main_v9 : after opsA W (main_v9 : DevRef τ sig) = envF (W (main_arg0 : DevRef τ sig)) := by
  simp only [after_cons, after_nil]; rfl
theorem afterB_main_v16 : after opsB W (main_v16 : DevRef τ sig) = tenvF (W (main_v9 : DevRef τ sig)) := by
  simp only [after_cons, after_nil]; rfl
theorem afterC_main_v28 : after opsC W (main_v28 : DevRef τ sig) = conv128 (W (main_arg1 : DevRef τ sig)) (W (main_arg2 : DevRef τ sig)) (W (main_arg3 : DevRef τ sig)) := by
  simp only [after_cons, after_nil]; rfl
theorem afterD_main_v41 : after opsD W (main_v41 : DevRef τ sig)
    = addf (W (main_v28 : DevRef τ sig)) (conv41 (W (main_v16 : DevRef τ sig)) (W (main_arg4 : DevRef τ sig)) (W (main_arg5 : DevRef τ sig))) := by
  simp only [after_cons, after_nil]; rfl
theorem afterE_main_v42 : after opsE W (main_v42 : DevRef τ sig) = lreluF (W (main_v41 : DevRef τ sig)) := by
  simp only [after_cons, after_nil]; rfl
theorem afterG_main_v58 : after opsG W (main_v58 : DevRef τ sig)
    = outF (W (main_arg0 : DevRef τ sig)) (conv160 (W (main_v42 : DevRef τ sig)) (W (main_arg6 : DevRef τ sig)) (W (main_arg7 : DevRef τ sig))) := by
  simp only [after_cons, after_nil]; rfl

theorem afterA_main_arg0 : after opsA W (main_arg0 : DevRef τ sig) = W (main_arg0 : DevRef τ sig) := by
  simp only [after_cons, after_nil]; rfl
theorem afterA_main_arg1 : after opsA W (main_arg1 : DevRef τ sig) = W (main_arg1 : DevRef τ sig) := by
  simp only [after_cons, after_nil]; rfl
theorem afterA_main_arg2 : after opsA W (main_arg2 : DevRef τ sig) = W (main_arg2 : DevRef τ sig) := by
  simp only [after_cons, after_nil]; rfl
theorem afterA_main_arg3 : after opsA W (main_arg3 : DevRef τ sig) = W (main_arg3 : DevRef τ sig) := by
  simp only [after_cons, after_nil]; rfl
theorem afterA_main_arg4 : after opsA W (main_arg4 : DevRef τ sig) = W (main_arg4 : DevRef τ sig) := by
  simp only [after_cons, after_nil]; rfl
theorem afterA_main_arg5 : after opsA W (main_arg5 : DevRef τ sig) = W (main_arg5 : DevRef τ sig) := by
  simp only [after_cons, after_nil]; rfl
theorem afterA_main_arg6 : after opsA W (main_arg6 : DevRef τ sig) = W (main_arg6 : DevRef τ sig) := by
  simp only [after_cons, after_nil]; rfl
theorem afterA_main_arg7 : after opsA W (main_arg7 : DevRef τ sig) = W (main_arg7 : DevRef τ sig) := by
  simp only [after_cons, after_nil]; rfl
theorem afterB_main_arg0 : after opsB W (main_arg0 : DevRef τ sig) = W (main_arg0 : DevRef τ sig) := by
  simp only [after_cons, after_nil]; rfl
theorem afterB_main_arg1 : after opsB W (main_arg1 : DevRef τ sig) = W (main_arg1 : DevRef τ sig) := by
  simp only [after_cons, after_nil]; rfl
theorem afterB_main_arg2 : after opsB W (main_arg2 : DevRef τ sig) = W (main_arg2 : DevRef τ sig) := by
  simp only [after_cons, after_nil]; rfl
theorem afterB_main_arg3 : after opsB W (main_arg3 : DevRef τ sig) = W (main_arg3 : DevRef τ sig) := by
  simp only [after_cons, after_nil]; rfl
theorem afterB_main_arg4 : after opsB W (main_arg4 : DevRef τ sig) = W (main_arg4 : DevRef τ sig) := by
  simp only [after_cons, after_nil]; rfl
theorem afterB_main_arg5 : after opsB W (main_arg5 : DevRef τ sig) = W (main_arg5 : DevRef τ sig) := by
  simp only [after_cons, after_nil]; rfl
theorem afterB_main_arg6 : after opsB W (main_arg6 : DevRef τ sig) = W (main_arg6 : DevRef τ sig) := by
  simp only [after_cons, after_nil]; rfl
theorem afterB_main_arg7 : after opsB W (main_arg7 : DevRef τ sig) = W (main_arg7 : DevRef τ sig) := by
  simp only [after_cons, after_nil]; rfl
theorem afterC_main_arg0 : after opsC W (main_arg0 : DevRef τ sig) = W (main_arg0 : DevRef τ sig) := by
  simp only [after_cons, after_nil]; rfl
theorem afterC_main_arg1 : after opsC W (main_arg1 : DevRef τ sig) = W (main_arg1 : DevRef τ sig) := by
  simp only [after_cons, after_nil]; rfl
theorem afterC_main_arg2 : after opsC W (main_arg2 : DevRef τ sig) = W (main_arg2 : DevRef τ sig) := by
  simp only [after_cons, after_nil]; rfl
theorem afterC_main_arg3 : after opsC W (main_arg3 : DevRef τ sig) = W (main_arg3 : DevRef τ sig) := by
  simp only [after_cons, after_nil]; rfl
theorem afterC_main_arg4 : after opsC W (main_arg4 : DevRef τ sig) = W (main_arg4 : DevRef τ sig) := by
  simp only [after_cons, after_nil]; rfl
theorem afterC_main_arg5 : after opsC W (main_arg5 : DevRef τ sig) = W (main_arg5 : DevRef τ sig) := by
  simp only [after_cons, after_nil]; rfl
theorem afterC_main_arg6 : after opsC W (main_arg6 : DevRef τ sig) = W (main_arg6 : DevRef τ sig) := by
  simp only [after_cons, after_nil]; rfl
theorem afterC_main_arg7 : after opsC W (main_arg7 : DevRef τ sig) = W (main_arg7 : DevRef τ sig) := by
  simp only [after_cons, after_nil]; rfl
theorem afterC_main_v16 : after opsC W (main_v16 : DevRef τ sig) = W (main_v16 : DevRef τ sig) := by
  simp only [after_cons, after_nil]; rfl
theorem afterD_main_arg0 : after opsD W (main_arg0 : DevRef τ sig) = W (main_arg0 : DevRef τ sig) := by
  simp only [after_cons, after_nil]; rfl
theorem afterD_main_arg1 : after opsD W (main_arg1 : DevRef τ sig) = W (main_arg1 : DevRef τ sig) := by
  simp only [after_cons, after_nil]; rfl
theorem afterD_main_arg2 : after opsD W (main_arg2 : DevRef τ sig) = W (main_arg2 : DevRef τ sig) := by
  simp only [after_cons, after_nil]; rfl
theorem afterD_main_arg3 : after opsD W (main_arg3 : DevRef τ sig) = W (main_arg3 : DevRef τ sig) := by
  simp only [after_cons, after_nil]; rfl
theorem afterD_main_arg4 : after opsD W (main_arg4 : DevRef τ sig) = W (main_arg4 : DevRef τ sig) := by
  simp only [after_cons, after_nil]; rfl
theorem afterD_main_arg5 : after opsD W (main_arg5 : DevRef τ sig) = W (main_arg5 : DevRef τ sig) := by
  simp only [after_cons, after_nil]; rfl
theorem afterD_main_arg6 : after opsD W (main_arg6 : DevRef τ sig) = W (main_arg6 : DevRef τ sig) := by
  simp only [after_cons, after_nil]; rfl
theorem afterD_main_arg7 : after opsD W (main_arg7 : DevRef τ sig) = W (main_arg7 : DevRef τ sig) := by
  simp only [after_cons, after_nil]; rfl
theorem afterE_main_arg0 : after opsE W (main_arg0 : DevRef τ sig) = W (main_arg0 : DevRef τ sig) := by
  simp only [after_cons, after_nil]; rfl
theorem afterE_main_arg1 : after opsE W (main_arg1 : DevRef τ sig) = W (main_arg1 : DevRef τ sig) := by
  simp only [after_cons, after_nil]; rfl
theorem afterE_main_arg2 : after opsE W (main_arg2 : DevRef τ sig) = W (main_arg2 : DevRef τ sig) := by
  simp only [after_cons, after_nil]; rfl
theorem afterE_main_arg3 : after opsE W (main_arg3 : DevRef τ sig) = W (main_arg3 : DevRef τ sig) := by
  simp only [after_cons, after_nil]; rfl
theorem afterE_main_arg4 : after opsE W (main_arg4 : DevRef τ sig) = W (main_arg4 : DevRef τ sig) := by
  simp only [after_cons, after_nil]; rfl
theorem afterE_main_arg5 : after opsE W (main_arg5 : DevRef τ sig) = W (main_arg5 : DevRef τ sig) := by
  simp only [after_cons, after_nil]; rfl
theorem afterE_main_arg6 : after opsE W (main_arg6 : DevRef τ sig) = W (main_arg6 : DevRef τ sig) := by
  simp only [after_cons, after_nil]; rfl
theorem afterE_main_arg7 : after opsE W (main_arg7 : DevRef τ sig) = W (main_arg7 : DevRef τ sig) := by
  simp only [after_cons, after_nil]; rfl
theorem afterG_main_arg0 : after opsG W (main_arg0 : DevRef τ sig) = W (main_arg0 : DevRef τ sig) := by
  simp only [after_cons, after_nil]; rfl
theorem afterG_main_arg1 : after opsG W (main_arg1 : DevRef τ sig) = W (main_arg1 : DevRef τ sig) := by
  simp only [after_cons, after_nil]; rfl
theorem afterG_main_arg2 : after opsG W (main_arg2 : DevRef τ sig) = W (main_arg2 : DevRef τ sig) := by
  simp only [after_cons, after_nil]; rfl
theorem afterG_main_arg3 : after opsG W (main_arg3 : DevRef τ sig) = W (main_arg3 : DevRef τ sig) := by
  simp only [after_cons, after_nil]; rfl
theorem afterG_main_arg4 : after opsG W (main_arg4 : DevRef τ sig) = W (main_arg4 : DevRef τ sig) := by
  simp only [after_cons, after_nil]; rfl
theorem afterG_main_arg5 : after opsG W (main_arg5 : DevRef τ sig) = W (main_arg5 : DevRef τ sig) := by
  simp only [after_cons, after_nil]; rfl
theorem afterG_main_arg6 : after opsG W (main_arg6 : DevRef τ sig) = W (main_arg6 : DevRef τ sig) := by
  simp only [after_cons, after_nil]; rfl
theorem afterG_main_arg7 : after opsG W (main_arg7 : DevRef τ sig) = W (main_arg7 : DevRef τ sig) := by
  simp only [after_cons, after_nil]; rfl

end Cert.ReferenceIdeal.Shaped

end
-- ==== Proof.RefRun.lean ====
/-
  The reference's run: every weakly fair execution ends with the result buffer at the stages' composition of the
  launch contents of the eight arguments, and with the arguments as they were.
-/
import proofs.«118238_j46170898432119_2_alg».proof.Proof.RefStages
import proofs.«118238_j46170898432119_2_alg».proof.Proof.Spec

noncomputable section

namespace Cert.ReferenceIdeal.Shaped

open Cert.ReferenceIdeal Cert.ReferenceIdeal.Gen Idealize.ShloMosaic Idealize.ShloMosaic.TcCoe Idealize.SL.Sem Idealize.ShloMosaic.StableHlo

section Fold
variable {F : FTy → Type} [FloatOps F] (V : Valuation τ sig (Elt F))

/-- The whole line's fold at the result buffer: the stretches' stages composed, each read where the previous stretch left it. -/
theorem after_ops_main_v58 : after ops V (main_v58 : DevRef τ sig)
    = outAll (V (main_arg0 : DevRef τ sig)) (V (main_arg1 : DevRef τ sig)) (V (main_arg2 : DevRef τ sig)) (V (main_arg3 : DevRef τ sig))
        (V (main_arg4 : DevRef τ sig)) (V (main_arg5 : DevRef τ sig)) (V (main_arg6 : DevRef τ sig)) (V (main_arg7 : DevRef τ sig)) := by
  rw [ops_eq, after_app, after_app, after_app, after_app, after_app]
  rw [afterG_main_v58]
  rw [afterE_main_v42, afterE_main_arg0, afterE_main_arg6, afterE_main_arg7]
  rw [afterD_main_v41, afterD_main_arg0, afterD_main_arg6, afterD_main_arg7]
  rw [afterC_main_v28, afterC_main_v16, afterC_main_arg0, afterC_main_arg4, afterC_main_arg5, afterC_main_arg6, afterC_main_arg7]
  rw [afterB_main_v16, afterB_main_arg0, afterB_main_arg1, afterB_main_arg2, afterB_main_arg3, afterB_main_arg4, afterB_main_arg5,
    afterB_main_arg6, afterB_main_arg7]
  rw [afterA_main_v9, afterA_main_arg0, afterA_main_arg1, afterA_main_arg2, afterA_main_arg3, afterA_main_arg4, afterA_main_arg5,
    afterA_main_arg6, afterA_main_arg7]
  rfl

theorem after_ops_main_arg0 : after ops V (main_arg0 : DevRef τ sig) = V (main_arg0 : DevRef τ sig) := by
  rw [ops_eq, after_app, after_app, after_app, after_app, after_app, afterG_main_arg0, afterE_main_arg0, afterD_main_arg0, afterC_main_arg0, afterB_main_arg0, afterA_main_arg0]
theorem after_ops_main_arg1 : after ops V (main_arg1 : DevRef τ sig) = V (main_arg1 : DevRef τ sig) := by
  rw [ops_eq, after_app, after_app, after_app, after_app, after_app, afterG_main_arg1, afterE_main_arg1, afterD_main_arg1, afterC_main_arg1, afterB_main_arg1, afterA_main_arg1]
theorem after_ops_main_arg2 : after ops V (main_arg2 : DevRef τ sig) = V (main_arg2 : DevRef τ sig) := by
  rw [ops_eq, after_app, after_app, after_app, after_app, after_app, afterG_main_arg2, afterE_main_arg2, afterD_main_arg2, afterC_main_arg2, afterB_main_arg2, afterA_main_arg2]
theorem after_ops_main_arg3 : after ops V (main_arg3 : DevRef τ sig) = V (main_arg3 : DevRef τ sig) := by
  rw [ops_eq, after_app, after_app, after_app, after_app, after_app, afterG_main_arg3, afterE_main_arg3, afterD_main_arg3, afterC_main_arg3, afterB_main_arg3, afterA_main_arg3]
theorem after_ops_main_arg4 : after ops V (main_arg4 : DevRef τ sig) = V (main_arg4 : DevRef τ sig) := by
  rw [ops_eq, after_app, after_app, after_app, after_app, after_app, afterG_main_arg4, afterE_main_arg4, afterD_main_arg4, afterC_main_arg4, afterB_main_arg4, afterA_main_arg4]
theorem after_ops_main_arg5 : after ops V (main_arg5 : DevRef τ sig) = V (main_arg5 : DevRef τ sig) := by
  rw [ops_eq, after_app, after_app, after_app, after_app, after_app, afterG_main_arg5, afterE_main_arg5, afterD_main_arg5, afterC_main_arg5, afterB_main_arg5, afterA_main_arg5]
theorem after_ops_main_arg6 : after ops V (main_arg6 : DevRef τ sig) = V (main_arg6 : DevRef τ sig) := by
  rw [ops_eq, after_app, after_app, after_app, after_app, after_app, afterG_main_arg6, afterE_main_arg6, afterD_main_arg6, afterC_main_arg6, afterB_main_arg6, afterA_main_arg6]
theorem after_ops_main_arg7 : after ops V (main_arg7 : DevRef τ sig) = V (main_arg7 : DevRef τ sig) := by
  rw [ops_eq, after_app, after_app, after_app, after_app, after_app, afterG_main_arg7, afterE_main_arg7, afterD_main_arg7, afterC_main_arg7, afterB_main_arg7, afterA_main_arg7]

end Fold

variable (m' : (ℓ : Loc nD τ sig) → Buf (Elt Ideal) ℓ)

/-- The argument arrays at launch on core `c`, typed as the specification's arrays. -/
abbrev rX (c : Dev nD) : Cert.Shaping.Wave := m' ((c.tc : Thread nD τ).loc main_arg0)
abbrev rFt (c : Dev nD) : Cert.Shaping.Feat := m' ((c.tc : Thread nD τ).loc main_arg1)
abbrev rW1f (c : Dev nD) : Cert.Shaping.Taps 128 := m' ((c.tc : Thread nD τ).loc main_arg2)
abbrev rb1f (c : Dev nD) : Cert.Shaping.Bias := m' ((c.tc : Thread nD τ).loc main_arg3)
abbrev rW1t (c : Dev nD) : Cert.Shaping.Taps 41 := m' ((c.tc : Thread nD τ).loc main_arg4)
abbrev rb1t (c : Dev nD) : Cert.Shaping.Bias := m' ((c.tc : Thread nD τ).loc main_arg5)
abbrev rW2 (c : Dev nD) : Cert.Shaping.Taps 160 := m' ((c.tc : Thread nD τ).loc main_arg6)
abbrev rb2 (c : Dev nD) : Cert.Shaping.Bias := m' ((c.tc : Thread nD τ).loc main_arg7)

/-- The reference's result on core `c`: the stages composed over the launch contents. -/
def out (c : Dev nD) : Buf (Elt Ideal) ((c.tc : Thread nD τ).loc main_v58) :=
  outAll (F := Ideal) (m' ((c.tc : Thread nD τ).loc main_arg0))
    (m' ((c.tc : Thread nD τ).loc main_arg1))
    (m' ((c.tc : Thread nD τ).loc main_arg2))
    (m' ((c.tc : Thread nD τ).loc main_arg3))
    (m' ((c.tc : Thread nD τ).loc main_arg4))
    (m' ((c.tc : Thread nD τ).loc main_arg5))
    (m' ((c.tc : Thread nD τ).loc main_arg6))
    (m' ((c.tc : Thread nD τ).loc main_arg7))

/-- At the ideal values, from any memory with zero counters: every weakly fair execution of @main terminates with the
    result buffer at `out` and the eight arguments unchanged. -/
theorem run (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v58) = out m' c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)) :=
  (θ_run defs _ _).mono (fun _ h c => ⟨(h c main_v58).trans (after_ops_main_v58 _),
      (h c main_arg0).trans (after_ops_main_arg0 _),
      (h c main_arg1).trans (after_ops_main_arg1 _),
      (h c main_arg2).trans (after_ops_main_arg2 _),
      (h c main_arg3).trans (after_ops_main_arg3 _),
      (h c main_arg4).trans (after_ops_main_arg4 _),
      (h c main_arg5).trans (after_ops_main_arg5 _),
      (h c main_arg6).trans (after_ops_main_arg6 _),
      (h c main_arg7).trans (after_ops_main_arg7 _)⟩)
    (run_fold m' ρ')

end Cert.ReferenceIdeal.Shaped

end
-- ==== Proof.RefEnv.lean ====
/-
  The envelope side of the reference read at an index: the samples' absolute values in fours, the log of their mean
  plus 2⁻¹⁶, the frame's 40 groups, their mean, and the 41 channels "centred envelope, then the mean".
-/
import proofs.«118238_j46170898432119_2_alg».proof.Proof.RefStages
import proofs.«118238_j46170898432119_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.Shaped

open Cert.ReferenceIdeal Cert.ReferenceIdeal.Gen Idealize.ShloMosaic Idealize.ShloMosaic.ValueIdx Cert.Shaping

/-! ## Pointwise host operations and scalar broadcasts at the ideal values -/

theorem hlog_apply {s : Shape} (a : s.Idx → EReal) (i : s.Idx) : (Host.log (F := Ideal) (φ := .f32) a) i = Ideal.log (a i) := rfl
theorem hexp_apply {s : Shape} (a : s.Idx → EReal) (i : s.Idx) : (Host.exp (F := Ideal) (φ := .f32) a) i = Ideal.exp (a i) := rfl
theorem hdivf_apply {s : Shape} (a b : s.Idx → EReal) (i : s.Idx) :
    (Host.divf (F := Ideal) (φ := .f32) a b) i = Ideal.div (a i) (b i) := rfl
theorem habsf_apply {s : Shape} (a : s.Idx → EReal) (i : s.Idx) :
    (Host.absf (F := Ideal) (φ := .f32) a) i = max (a i) (-(a i)) := rfl

/-- A scalar constant broadcast to any shape reads as the constant everywhere. -/
theorem bcastConst_apply {S : Shape} (h : S_.BroadcastsInDim S (![] : Fin 0 → Fin S.rank)) (w : BitVec 32) (i : S.Idx) :
    (broadcastInDim S ![] h (constant (F := Ideal) S_ .f32 w) : S.Idx → EReal) i = Ideal.ofBits .f32 w :=
  (broadcastInDim_apply (![] : Fin 0 → Fin S.rank) h (constant (F := Ideal) S_ .f32 w) i ix0 (fun a => a.elim0)).trans rfl

/-! ## The log-envelope -/

/-- Entry (b, q, k) of the regrouped absolute values is |sample 4 q + k of row b|. -/
theorem absq_apply (x : Ct Ideal S64x1x320000) (b : Fin 64) (q : Fin 80000) (k : Fin 4) (p : Fin 320000)
    (hp : p.val = 4 * q.val + k.val) :
    (absq x : S64x80000x4.Idx → EReal) (ix3 b q k) = max (x (ix3 b 0 p)) (-(x (ix3 b 0 p))) := by
  unfold absq
  refine (shapeCast_apply _ _ (ix3 b q k) (ix2 b p) ?_).trans ?_
  · rw [Shape.rowMajor_val_two, Shape.rowMajor_val_three]
    show b.val * 320000 + p.val = (b.val * 80000 + q.val) * 4 + k.val
    omega
  · refine (habsf_apply _ _).trans ?_
    have e : (shapeCast S64x320000 x shapeCasts_S64x1x320000_S64x320000 : S64x320000.Idx → EReal) (ix2 b p) = x (ix3 b 0 p) :=
      shapeCast_apply _ _ (ix2 b p) (ix3 b 0 p) (by
        rw [Shape.rowMajor_val_two, Shape.rowMajor_val_three]
        show (b.val * 1 + 0) * 320000 + p.val = b.val * 320000 + p.val
        omega)
    rw [e]

/-- Group q of row b: the logarithm of a quarter of its four absolute values' sum, plus 2⁻¹⁶. -/
theorem envq_apply (x : Ct Ideal S64x1x320000) (b : Fin 64) (q : Fin 80000) :
    (envq x : S64x80000.Idx → EReal) (ix2 b q)
      = Ideal.log (Ideal.div (∑ k : Fin 4, (absq x : S64x80000x4.Idx → EReal) (ix3 b q k)) four + eps) := by
  have hR : S64x80000x4.Reduces [2] S64x80000 := by decide
  unfold envq
  refine (hlog_apply _ _).trans (congrArg Ideal.log ?_)
  refine (addf_apply _ _ _).trans ?_
  rw [bcastConst_apply]
  refine congrArg (· + eps) ?_
  refine (hdivf_apply _ _ _).trans ?_
  rw [bcastConst_apply]
  refine congrArg (Ideal.div · four) ?_
  refine (Ideal.hostReduceAdd_single reducesTo_S64x80000x4_S64x80000_d2 hR _ _ _).trans ?_
  refine (congrArg (· + _) Ideal.ofBits_zero_f32).trans ((zero_add _).trans ?_)
  refine Finset.sum_congr rfl fun k _ => congrArg (absq x) (funext fun a => Fin.ext ?_)
  match a with
  | ⟨0, _⟩ => rfl
  | ⟨1, _⟩ => rfl
  | ⟨2, _⟩ => rfl

/-- Group j of frame t is group 40 t + j of the row. -/
theorem envF_apply (x : Ct Ideal S64x1x320000) (b : Fin 64) (t : Fin 2000) (j : Fin 40) (q : Fin 80000)
    (hq : q.val = 40 * t.val + j.val) :
    (envF x : S64x2000x40.Idx → EReal) (ix3 b t j) = (envq x : S64x80000.Idx → EReal) (ix2 b q) := by
  unfold envF
  refine shapeCast_apply _ _ (ix3 b t j) (ix2 b q) ?_
  rw [Shape.rowMajor_val_two, Shape.rowMajor_val_three]
  show b.val * 80000 + q.val = (b.val * 2000 + t.val) * 40 + j.val
  omega

/-- The reference's log-envelope is the specification's. -/
theorem envF_eq_env (x : Ct Ideal S64x1x320000) (b : Fin 64) (t : Fin 2000) (j : Fin 40) :
    (envF x : S64x2000x40.Idx → EReal) (ix3 b t j) = env x b t j := by
  have hq : 40 * t.val + j.val < 80000 := by have := t.isLt; have := j.isLt; omega
  rw [envF_apply x b t j ⟨40 * t.val + j.val, hq⟩ rfl, envq_apply]
  unfold env smp
  refine congrArg (fun s => Ideal.log (Ideal.div s four + eps)) (Finset.sum_congr rfl fun k _ => ?_)
  exact absq_apply x b _ k (smpPos t (grpPos j k)) (by show 160 * t.val + (4 * j.val + k.val) = 4 * (40 * t.val + j.val) + k.val; omega)

end Cert.ReferenceIdeal.Shaped

end
-- ==== Proof.RefChan.lean ====
/-
  The 41 channels, the rectifier and the last product of the reference, read at an index.

  The mean of a frame's 40 log-envelope entries is kept as a unit channel, broadcast back over the 40 to centre them,
  and appended as channel 40. The rectifier compares with zero and selects between the value and the slope times
  the value. The result multiplies the exponential, frame by frame, with the waveform cut into frames of 160, and is
  laid back as one row per batch entry.
-/
import proofs.«118238_j46170898432119_2_alg».proof.Proof.RefEnv

noncomputable section

open scoped BigOperators

namespace Cert.ReferenceIdeal.Shaped

open Cert.ReferenceIdeal Cert.ReferenceIdeal.Gen Idealize.ShloMosaic Idealize.ShloMosaic.ValueIdx Cert.Shaping

/-! ## The mean and the 41 channels -/

/-- The unit channel holds a fortieth of the frame's 40 entries' sum. -/
theorem avgK_apply (e : Ct Ideal S64x2000x40) (b : Fin 64) (t : Fin 2000) (u : Fin 1) :
    (avgK e : S64x2000x1.Idx → EReal) (ix3 b t u) = Ideal.div (∑ j : Fin 40, e (ix3 b t j)) forty := by
  have hR : S64x2000x40.Reduces [2] S64x2000 := by decide
  unfold avgK
  refine (hdivf_apply _ _ _).trans ?_
  rw [bcastConst_apply]
  refine congrArg (Ideal.div · forty) ?_
  refine (broadcastInDim_apply (![0, 1] : Fin 2 → Fin 3) bcast_S64x2000_S64x2000x1_0_1 _ (ix3 b t u) (ix2 b t) ?_).trans ?_
  · intro a
    match a with
    | ⟨0, _⟩ => show b.val = if (64 : ℕ) = 1 then 0 else b.val; exact (if_neg (by decide)).symm
    | ⟨1, _⟩ => show t.val = if (2000 : ℕ) = 1 then 0 else t.val; exact (if_neg (by decide)).symm
  · refine (Ideal.hostReduceAdd_single reducesTo_S64x2000x40_S64x2000_d2 hR _ _ _).trans ?_
    refine (congrArg (· + _) Ideal.ofBits_zero_f32).trans ((zero_add _).trans ?_)
    refine Finset.sum_congr rfl fun k _ => congrArg e (funext fun a => Fin.ext ?_)
    match a with
    | ⟨0, _⟩ => rfl
    | ⟨1, _⟩ => rfl
    | ⟨2, _⟩ => rfl

/-- Channel c of the 41: below 40 the entry minus the mean, at 40 the mean. -/
theorem tenvF_apply (e : Ct Ideal S64x2000x40) (b : Fin 64) (t : Fin 2000) (c : Fin 41) :
    (tenvF e : S64x2000x41.Idx → EReal) (ix3 b t c)
      = if h : c.val < 40 then e (ix3 b t (lo c h)) - (avgK e : S64x2000x1.Idx → EReal) (ix3 b t 0)
        else (avgK e : S64x2000x1.Idx → EReal) (ix3 b t 0) := by
  unfold tenvF
  by_cases h : c.val < 40
  · rw [dif_pos h]
    refine (concatenate_pair_apply_left _ _ _ concatenates_S64x2000x40_S64x2000x1_S64x2000x41_d2 (ix3 b t c) rfl
      (ix3 b t (lo c h)) ?_).trans ?_
    · intro a
      match a with
      | ⟨0, _⟩ => rfl
      | ⟨1, _⟩ => rfl
      | ⟨2, _⟩ => rfl
    · refine (subf_apply _ _ _).trans (congrArg (e (ix3 b t (lo c h)) - ·) ?_)
      refine broadcastInDim_apply (![0, 1, 2] : Fin 3 → Fin 3) bcast_S64x2000x1_S64x2000x40_0_1_2 _ (ix3 b t (lo c h)) (ix3 b t 0) ?_
      intro a
      match a with
      | ⟨0, _⟩ => show b.val = if (64 : ℕ) = 1 then 0 else b.val; exact (if_neg (by decide)).symm
      | ⟨1, _⟩ => show t.val = if (2000 : ℕ) = 1 then 0 else t.val; exact (if_neg (by decide)).symm
      | ⟨2, _⟩ => show (0 : ℕ) = if (1 : ℕ) = 1 then 0 else (lo c h).val; exact (if_pos rfl).symm
  · rw [dif_neg h]
    refine concatenate_pair_apply_right _ _ _ concatenates_S64x2000x40_S64x2000x1_S64x2000x41_d2 (ix3 b t c) rfl rfl
      (ix3 b t 0) ?_ ?_
    · intro a hne
      match a, hne with
      | ⟨0, _⟩, _ => rfl
      | ⟨1, _⟩, _ => rfl
      | ⟨2, _⟩, hne => exact absurd rfl hne
    · show 0 + 40 = c.val
      have := c.isLt
      omega

/-- The reference's 41 channels of the reference's log-envelope are the specification's. -/
theorem tenvF_eq_tenv (x : Ct Ideal S64x1x320000) (b : Fin 64) (t : Fin 2000) (c : Fin 41) :
    (tenvF (envF x) : S64x2000x41.Idx → EReal) (ix3 b t c) = tenv x b t c := by
  have hav : (avgK (envF x) : S64x2000x1.Idx → EReal) (ix3 b t 0) = avg x b t := by
    rw [avgK_apply]
    unfold avg
    exact congrArg (Ideal.div · forty) (Finset.sum_congr rfl fun j _ => envF_eq_env x b t j)
  rw [tenvF_apply, hav]
  unfold tenv
  by_cases h : c.val < 40
  · rw [dif_pos h, dif_pos h, envF_eq_env]
  · rw [dif_neg h, dif_neg h]

/-! ## The rectifier -/

theorem lreluF_apply (v : Ct Ideal S64x2000x160) (i : S64x2000x160.Idx) :
    (lreluF v : S64x2000x160.Idx → EReal) i = lrelu (v i) := by
  unfold lreluF lrelu
  show Scalar.select (Ideal.cmp .oge (v i)
      ((broadcastInDim S64x2000x160 ![] bcast_S_S64x2000x160 (constant (F := Ideal) S_ .f32 0x00000000#32) : S64x2000x160.Idx → EReal) i))
      (v i)
      ((broadcastInDim S64x2000x160 ![] bcast_S_S64x2000x160 (constant (F := Ideal) S_ .f32 0x3E4CCCCD#32) : S64x2000x160.Idx → EReal) i * v i)
    = _
  rw [bcastConst_apply, bcastConst_apply, Ideal.ofBits_zero_f32, mul_comm]

/-! ## The last product -/

/-- Sample f of frame t of row b of the result: the exponential at (b, t, f) times that sample of the waveform. -/
theorem outF_apply (x : Ct Ideal S64x1x320000) (z : Ct Ideal S64x2000x160) (b : Fin 64) (t : Fin 2000) (f : Fin 160) :
    (outF x z : S64x1x320000.Idx → EReal) (ix3 b 0 (smpPos t f)) = Ideal.exp (z (ix3 b t f)) * x (ix3 b 0 (smpPos t f)) := by
  unfold outF
  refine (shapeCast_apply _ _ (ix3 b 0 (smpPos t f)) (ix3 b t f) ?_).trans ?_
  · rw [Shape.rowMajor_val_three, Shape.rowMajor_val_three]
    show (b.val * 2000 + t.val) * 160 + f.val = (b.val * 1 + 0) * 320000 + (160 * t.val + f.val)
    omega
  · refine (mulf_apply _ _ _).trans ?_
    refine congrArg (Ideal.exp (z (ix3 b t f)) * ·) ?_
    refine shapeCast_apply _ _ (ix3 b t f) (ix3 b 0 (smpPos t f)) ?_
    rw [Shape.rowMajor_val_three, Shape.rowMajor_val_three]
    show (b.val * 1 + 0) * 320000 + (160 * t.val + f.val) = (b.val * 2000 + t.val) * 160 + f.val
    omega

end Cert.ReferenceIdeal.Shaped

end
-- ==== Proof.RefConv.lean ====
/-
  The reference's causal two-tap convolution, read at an index.

  The reference delays a sequence of frames by padding one frame in front and dropping the last: frame t of the result
  is frame t − 1 of the operand, and the pad value — the integer zero converted, the real number 0 — at t = 0. A tap of the
  weights (output channel, input channel, tap) is the slice at that tap with the unit axis dropped. The product
  contracts the input channel. The bias, laid out as [1, 1, 160] and repeated over rows and frames, reads its own
  entry everywhere. Together: the specification's `conv`, for any number of input channels.
-/
import proofs.«118238_j46170898432119_2_alg».proof.Proof.RefStages
import proofs.«118238_j46170898432119_2_alg».proof.Proof.Spec
import Idealize.ShloMosaic.Lib.ValueIdx
import Idealize.ShloMosaic.Lib.Pipeline.Value
import Idealize.ShloMosaic.Lib.KernelVsHost
import Idealize.ShloMosaic.PureOps.Ideal.Laws

noncomputable section

open scoped BigOperators

namespace Cert.Shaping.ConvRead

open Idealize.ShloMosaic Idealize.ShloMosaic.ValueIdx Cert.Shaping

variable {n : Nat}

/-- The delayed frames: pad one frame of zero in front, keep the first 2000. -/
theorem shift_apply (a : (⟨3, ![64, 2000, n]⟩ : Shape).Idx → EReal)
    (hp : (⟨3, ![64, 2000, n]⟩ : Shape).Pads (![0, 1, 0] : Fin 3 → Nat) ![0, 0, 0] ![0, 0, 0] ⟨3, ![64, 2001, n]⟩)
    (hu : 0 < (⟨0, ![]⟩ : Shape).numel)
    (hs : (⟨3, ![64, 2001, n]⟩ : Shape).Slices ![0, 0, 0] ⟨3, ![64, 2000, n]⟩)
    (b : Fin 64) (t : Fin 2000) (c : Fin n) :
    extractStridedSlice ⟨3, ![64, 2000, n]⟩ ![0, 0, 0]
        (pad ⟨3, ![64, 2001, n]⟩ ![0, 1, 0] ![0, 0, 0] ![0, 0, 0] a
          (sitofp (F := Ideal) .f32 (constantI ⟨0, ![]⟩ 32 0#32)) hp hu) hs (ix3 b t c)
      = prev (fun s => a (ix3 b s c)) t := by
  have ht : t.val < 2001 := by have := t.isLt; omega
  refine (extractStridedSlice_apply _ _ hs (ix3 b t c) (ix3 b (⟨t.val, ht⟩ : Fin 2001) c) (fun ax => ?_)).trans ?_
  · match ax with
    | ⟨0, _⟩ => exact (Nat.zero_add _).symm
    | ⟨1, _⟩ => exact (Nat.zero_add _).symm
    | ⟨2, _⟩ => exact (Nat.zero_add _).symm
  unfold prev
  split
  · next h =>
    refine (pad_apply_of_not_inside _ _ _ a _ hp hu _ (1 : Fin 3) (fun hin => ?_)).trans ?_
    · have h1 : (1 : Nat) ≤ t.val := hin.1
      omega
    · show (((0#32 : BitVec 32).toInt : ℝ) : EReal) = 0
      simp
  · next h =>
    refine pad_apply_of_inside _ _ _ a _ hp hu _ (ix3 b (pred t h) c) (fun ax => ?_)
    match ax with
    | ⟨0, _⟩ => show b.val = 0 + b.val * (0 + 1); omega
    | ⟨1, _⟩ => show t.val = 1 + (t.val - 1) * (0 + 1); omega
    | ⟨2, _⟩ => show c.val = 0 + c.val * (0 + 1); omega

/-- One tap of the weights, as (output channel, input channel). -/
theorem tap_apply (W : (⟨3, ![160, n, 2]⟩ : Shape).Idx → EReal) (τ : Fin 2)
    (hs : (⟨3, ![160, n, 2]⟩ : Shape).Slices ![0, 0, τ.val] ⟨3, ![160, n, 1]⟩)
    (hc : (⟨3, ![160, n, 1]⟩ : Shape).ShapeCasts ⟨2, ![160, n]⟩) (o : Fin 160) (c : Fin n) :
    shapeCast ⟨2, ![160, n]⟩ (extractStridedSlice ⟨3, ![160, n, 1]⟩ ![0, 0, τ.val] W hs) hc (ix2 o c) = W (ix3 o c τ) := by
  refine (shapeCast_apply _ hc (ix2 o c) (ix3 o c (0 : Fin 1)) ?_).trans ?_
  · rw [Shape.rowMajor_val_three, Shape.rowMajor_val_two]
    show (o.val * n + c.val) * 1 + 0 = o.val * n + c.val
    omega
  · refine extractStridedSlice_apply _ W hs _ (ix3 o c τ) (fun ax => ?_)
    match ax with
    | ⟨0, _⟩ => exact (Nat.zero_add _).symm
    | ⟨1, _⟩ => exact (Nat.zero_add _).symm
    | ⟨2, _⟩ => show τ.val = τ.val + 0; omega

/-- The product of [64, 2000, n] frames with [160, n] weights over the input channel. -/
theorem dot_apply (wf : DotDims.WF ⟨3, ![64, 2000, n]⟩ ⟨2, ![160, n]⟩ ⟨3, ![64, 2000, 160]⟩ [2] [1] [0, 1] [0] [] [])
    (prec : Option ContractPrecision) (A : FVec Ideal ⟨3, ![64, 2000, n]⟩ .f32) (B : FVec Ideal ⟨2, ![160, n]⟩ .f32)
    (b : Fin 64) (t : Fin 2000) (o : Fin 160) :
    Host.dotGeneral (⟨[2], [1], [0, 1], [0], [], [], wf⟩ : DotDims ⟨3, ![64, 2000, n]⟩ ⟨2, ![160, n]⟩ ⟨3, ![64, 2000, 160]⟩) prec A B (ix3 b t o)
      = ∑ c : Fin n, A (ix3 b t c) * B (ix2 o c) := by
  show FloatOps.dotGeneral _ prec _ A B (ix3 b t o) = _
  rw [Ideal.dotGeneral_apply,
    ← Equiv.sum_comp (contrEquiv1 (⟨[2], [1], [0, 1], [0], [], [], wf⟩ : DotDims ⟨3, ![64, 2000, n]⟩ ⟨2, ![160, n]⟩ ⟨3, ![64, 2000, 160]⟩) n rfl rfl).symm]
  refine Finset.sum_congr rfl fun c _ => ?_
  have c3 := contrEquiv1_symm_val
    (⟨[2], [1], [0, 1], [0], [], [], wf⟩ : DotDims ⟨3, ![64, 2000, n]⟩ ⟨2, ![160, n]⟩ ⟨3, ![64, 2000, 160]⟩) n rfl rfl c
  have l3 : (⟨[2], [1], [0, 1], [0], [], [], wf⟩ : DotDims ⟨3, ![64, 2000, n]⟩ ⟨2, ![160, n]⟩ ⟨3, ![64, 2000, 160]⟩).lhsIdx (ix3 b t o)
      ((contrEquiv1 _ n rfl rfl).symm c) = ix3 b t c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [1], [0, 1], [0], [], [], wf⟩ : DotDims ⟨3, ![64, 2000, n]⟩ ⟨2, ![160, n]⟩ ⟨3, ![64, 2000, 160]⟩).rhsIdx (ix3 b t o)
      ((contrEquiv1 _ n rfl rfl).symm c) = ix2 o c := by
    funext ax; apply Fin.ext
    match ax with
    | ⟨0, _⟩ => simp [DotDims.rhsIdx]; rfl
    | ⟨1, _⟩ => simp [DotDims.rhsIdx]; exact c3
  rw [l3, r3]

/-- The bias repeated over rows and frames. -/
theorem bias_apply (bias : (⟨1, ![160]⟩ : Shape).Idx → EReal)
    (h1 : (⟨1, ![160]⟩ : Shape).BroadcastsInDim ⟨3, ![1, 1, 160]⟩ (![2] : Fin 1 → Fin 3))
    (h2 : (⟨3, ![1, 1, 160]⟩ : Shape).BroadcastsInDim ⟨3, ![64, 2000, 160]⟩ (![0, 1, 2] : Fin 3 → Fin 3))
    (b : Fin 64) (t : Fin 2000) (o : Fin 160) :
    broadcastInDim ⟨3, ![64, 2000, 160]⟩ ![0, 1, 2] h2 (broadcastInDim ⟨3, ![1, 1, 160]⟩ ![2] h1 bias) (ix3 b t o) = bias (ix1 o) := by
  refine (broadcastInDim_apply _ h2 _ (ix3 b t o) (ix3 (0 : Fin 1) (0 : Fin 1) o) (fun ax => ?_)).trans ?_
  · match ax with
    | ⟨0, _⟩ => rfl
    | ⟨1, _⟩ => rfl
    | ⟨2, _⟩ => rfl
  · refine broadcastInDim_apply _ h1 bias _ (ix1 o) (fun ax => ?_)
    match ax with
    | ⟨0, _⟩ => rfl

end Cert.Shaping.ConvRead

namespace Cert.ReferenceIdeal.Shaped

open Idealize.ShloMosaic Idealize.ShloMosaic.ValueIdx Cert.ReferenceIdeal Cert.Shaping Cert.Shaping.ConvRead

theorem conv128_apply (a : Ct Ideal S64x2000x128) (W : Ct Ideal S160x128x2) (bias : Ct Ideal S160) (b : Fin 64) (t : Fin 2000) (o : Fin 160) :
    (conv128 a W bias : S64x2000x160.Idx → EReal) (ix3 b t o) = Cert.Shaping.conv (fun s c => a (ix3 b s c)) W bias t o := by
  unfold conv128 shift128 tap128 Cert.Shaping.conv
  show (_ + _) + _ = _
  congr 1
  · congr 1
    · refine (dot_apply _ none _ _ b t o).trans (Finset.sum_congr rfl fun c _ => ?_)
      exact congrArg₂ (· * ·) (shift_apply a _ _ _ b t c) (tap_apply W 0 _ _ o c)
    · refine (dot_apply _ none _ _ b t o).trans (Finset.sum_congr rfl fun c _ => ?_)
      exact congrArg (a (ix3 b t c) * ·) (tap_apply W 1 _ _ o c)
  · exact bias_apply bias _ _ b t o

theorem conv41_apply (a : Ct Ideal S64x2000x41) (W : Ct Ideal S160x41x2) (bias : Ct Ideal S160) (b : Fin 64) (t : Fin 2000) (o : Fin 160) :
    (conv41 a W bias : S64x2000x160.Idx → EReal) (ix3 b t o) = Cert.Shaping.conv (fun s c => a (ix3 b s c)) W bias t o := by
  unfold conv41 shift41 tap41 Cert.Shaping.conv
  show (_ + _) + _ = _
  congr 1
  · congr 1
    · refine (dot_apply _ none _ _ b t o).trans (Finset.sum_congr rfl fun c _ => ?_)
      exact congrArg₂ (· * ·) (shift_apply a _ _ _ b t c) (tap_apply W 0 _ _ o c)
    · refine (dot_apply _ none _ _ b t o).trans (Finset.sum_congr rfl fun c _ => ?_)
      exact congrArg (a (ix3 b t c) * ·) (tap_apply W 1 _ _ o c)
  · exact bias_apply bias _ _ b t o

theorem conv160_apply (a : Ct Ideal S64x2000x160) (W : Ct Ideal S160x160x2) (bias : Ct Ideal S160) (b : Fin 64) (t : Fin 2000) (o : Fin 160) :
    (conv160 a W bias : S64x2000x160.Idx → EReal) (ix3 b t o) = Cert.Shaping.conv (fun s c => a (ix3 b s c)) W bias t o := by
  unfold conv160 shift160 tap160 Cert.Shaping.conv
  show (_ + _) + _ = _
  congr 1
  · congr 1
    · refine (dot_apply _ none _ _ b t o).trans (Finset.sum_congr rfl fun c _ => ?_)
      exact congrArg₂ (· * ·) (shift_apply a _ _ _ b t c) (tap_apply W 0 _ _ o c)
    · refine (dot_apply _ none _ _ b t o).trans (Finset.sum_congr rfl fun c _ => ?_)
      exact congrArg (a (ix3 b t c) * ·) (tap_apply W 1 _ _ o c)
  · exact bias_apply bias _ _ b t o

end Cert.ReferenceIdeal.Shaped

end
-- ==== Proof.RefValue.lean ====
/-
  The reference's result read at an index is the specification's convolution arrangement: the last product at
  (row, frame, sample), the second convolution of the rectified first layer, and under it the features' convolution
  plus the 41 envelope channels' — each stage's reading composed, outermost first.
-/
import proofs.«118238_j46170898432119_2_alg».proof.Proof.RefRun
import proofs.«118238_j46170898432119_2_alg».proof.Proof.RefChan
import proofs.«118238_j46170898432119_2_alg».proof.Proof.RefConv

noncomputable section

open scoped BigOperators

namespace Cert.ReferenceIdeal.Shaped

open Cert.ReferenceIdeal Cert.ReferenceIdeal.Gen Idealize.ShloMosaic Idealize.ShloMosaic.TcCoe Idealize.ShloMosaic.ValueIdx Idealize.SL.Sem Cert.Shaping

variable (m' : (ℓ : Loc nD τ sig) → Buf (Elt Ideal) ℓ)

/-- The first layer before the rectifier, as the reference computes it, is the specification's. -/
theorem pre1_apply (x : Ct Ideal S64x1x320000) (ft : Ct Ideal S64x2000x128) (w1f : Ct Ideal S160x128x2) (b1f : Ct Ideal S160)
    (w1t : Ct Ideal S160x41x2) (b1t : Ct Ideal S160) (b : Fin 64) (s : Fin 2000) (o : Fin 160) :
    (addf (conv128 ft w1f b1f) (conv41 (tenvF (envF x)) w1t b1t) : S64x2000x160.Idx → EReal) (ix3 b s o)
      = pre1R x ft w1f b1f w1t b1t b s o := by
  refine (addf_apply _ _ _).trans ?_
  unfold pre1R
  rw [conv128_apply, conv41_apply]
  refine congrArg (conv (fun s c => ft (ix3 b s c)) w1f b1f s o + ·) ?_
  refine congrArg (fun A => conv A w1t b1t s o) (funext fun s' => funext fun c' => ?_)
  exact tenvF_eq_tenv x b s' c'

/-- The reference's result at sample f of frame t of row b is the specification's convolution arrangement. -/
theorem out_apply (c : Dev nD) (b : Fin 64) (t : Fin 2000) (f : Fin 160) :
    (out m' c : S64x1x320000.Idx → EReal) (ix3 b 0 (smpPos t f))
      = GR (rX m' c) (rFt m' c) (rW1f m' c) (rb1f m' c) (rW1t m' c) (rb1t m' c) (rW2 m' c) (rb2 m' c) b t f := by
  unfold out outAll
  refine (outF_apply _ _ b t f).trans ?_
  unfold GR smp
  refine congrArg (Ideal.exp · * _) ?_
  rw [conv160_apply]
  refine congrArg (fun A => conv A (rW2 m' c) (rb2 m' c) t f) (funext fun s => funext fun o => ?_)
  rw [lreluF_apply]
  exact congrArg lrelu (pre1_apply _ _ _ _ _ _ b s o)

end Cert.ReferenceIdeal.Shaped

end
-- ==== Proof.Consts.lean ====
/-
  The four float literals of the shaping gain, as the real numbers their patterns denote: the group length 4, the
  offset 2⁻¹⁶ under the logarithm, the group count 40, and the rectifier's slope (the f32 nearest 0.2, which is
  13421773 / 2²⁶). Only the first three are used by value (4 and 40 must be nonzero, 2⁻¹⁶ positive); of the slope
  only that it is a real number.
-/
import Idealize.ShloMosaic.PureOps.Ideal

noncomputable section

namespace Cert.Shaping.Lit

open Idealize.ShloMosaic

theorem four_eq : Ideal.ofBits .f32 0x40800000#32 = ((4 : ℝ) : EReal) := by
  simp [Ideal.ofBits, Ideal.ieee, -EReal.coe_mul]; norm_num

theorem eps_eq : Ideal.ofBits .f32 0x37800000#32 = ((1 / 65536 : ℝ) : EReal) := by
  simp [Ideal.ofBits, Ideal.ieee, -EReal.coe_mul]; norm_num

theorem forty_eq : Ideal.ofBits .f32 0x42200000#32 = ((40 : ℝ) : EReal) := by
  simp [Ideal.ofBits, Ideal.ieee, -EReal.coe_mul]; norm_num

theorem slope_eq : Ideal.ofBits .f32 0x3E4CCCCD#32 = ((13421773 / 67108864 : ℝ) : EReal) := by
  simp [Ideal.ofBits, Ideal.ieee, -EReal.coe_mul]; norm_num

end Cert.Shaping.Lit

end
-- ==== Proof.Law.lean ====
/-
  The stacked arrangement of the shaping gain equals the convolution arrangement wherever every argument entry is a
  real number.

  Three facts carry it. (1) A sum over previous-frame channels followed by current-frame channels, against the two taps'
  weights stacked the same way, is the sum of the two taps' sums: a re-indexing, true of all extended reals.
  (2) Folding the envelope's mean into the weights: with m the mean of p₀ … p₃₉,
      ∑ c<40 p_c · (w_c + (w₄₀ − ∑ w)/40)  =  ∑ c<40 (p_c − m) · w_c + m · w₄₀,
  which distributes products over sums and so needs the p and w to be real numbers — they are: a log-envelope is the
  logarithm of a positive real, the weights are finite by hypothesis. (3) For real a and w, a·(w − w) = 0 and
  (a − a)·w = 0, so the second layer's three products are one. The first layer's activations are real numbers because
  they are finite sums of products of reals passed through the rectifier, which returns its argument or a real multiple
  of it.
-/
import proofs.«118238_j46170898432119_2_alg».proof.Proof.Spec
import proofs.«118238_j46170898432119_2_alg».proof.Proof.Consts

noncomputable section

open scoped BigOperators

namespace Cert.Shaping

open Idealize.ShloMosaic Idealize.ShloMosaic.ValueIdx

/-! ## Extended reals that are real numbers -/

/-- An extended real that is a real number. -/
def IsReal (a : EReal) : Prop := ∃ r : ℝ, a = (r : EReal)

theorem four_coe : four = ((4 : ℝ) : EReal) := Lit.four_eq
theorem eps_coe : eps = ((1 / 65536 : ℝ) : EReal) := Lit.eps_eq
theorem forty_coe : forty = ((40 : ℝ) : EReal) := Lit.forty_eq
theorem slope_coe : slope = ((13421773 / 67108864 : ℝ) : EReal) := Lit.slope_eq

/-- A finite sum of real numbers, taken in the extended reals, is the real sum. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

namespace IsReal

variable {a b : EReal}

theorem zero : IsReal 0 := ⟨0, rfl⟩
theorem coe (r : ℝ) : IsReal (r : EReal) := ⟨r, rfl⟩
theorem add (ha : IsReal a) (hb : IsReal b) : IsReal (a + b) := by
  obtain ⟨x, rfl⟩ := ha; obtain ⟨y, rfl⟩ := hb; exact ⟨x + y, (EReal.coe_add x y).symm⟩
theorem mul (ha : IsReal a) (hb : IsReal b) : IsReal (a * b) := by
  obtain ⟨x, rfl⟩ := ha; obtain ⟨y, rfl⟩ := hb; exact ⟨x * y, (EReal.coe_mul x y).symm⟩
theorem sub (ha : IsReal a) (hb : IsReal b) : IsReal (a - b) := by
  obtain ⟨x, rfl⟩ := ha; obtain ⟨y, rfl⟩ := hb; exact ⟨x - y, (EReal.coe_sub x y).symm⟩
theorem sum {ι : Type*} (s : Finset ι) {f : ι → EReal} (h : ∀ i ∈ s, IsReal (f i)) : IsReal (∑ i ∈ s, f i) := by
  classical
  induction s using Finset.induction_on with
  | empty => simpa using zero
  | insert a s ha ih =>
    rw [Finset.sum_insert ha]
    exact add (h _ (Finset.mem_insert_self _ _)) (ih fun i hi => h i (Finset.mem_insert_of_mem hi))
/-- A real number minus itself is zero (an infinity minus itself is not). -/
theorem sub_self (ha : IsReal a) : a - a = 0 := by
  obtain ⟨x, rfl⟩ := ha; rw [← EReal.coe_sub, _root_.sub_self, EReal.coe_zero]
theorem div_forty (ha : IsReal a) : IsReal (Ideal.div a forty) := by
  rw [forty_coe, Ideal.div_coe (by norm_num)]; exact ha.mul (coe _)

end IsReal

theorem isReal_lrelu {a : EReal} (ha : IsReal a) : IsReal (lrelu a) := by
  unfold lrelu Scalar.select
  split_ifs
  · exact ha
  · exact ha.mul (by rw [slope_coe]; exact IsReal.coe _)

theorem isReal_prev {f : Fin 2000 → EReal} (h : ∀ s, IsReal (f s)) (t : Fin 2000) : IsReal (prev f t) := by
  unfold prev; split_ifs
  · exact IsReal.zero
  · exact h _

theorem isReal_stack {n N : Nat} (hN : N = n + n) {a : Fin 2000 → Fin n → EReal} (h : ∀ s c, IsReal (a s c)) (t : Fin 2000) (c : Fin N) :
    IsReal (stack hN a t c) := by
  unfold stack; split_ifs
  · exact isReal_prev (fun s => h s _) t
  · exact h _ _

theorem isReal_stackW {n N : Nat} (hN : N = n + n) {M : Fin 2 → Fin n → Fin 160 → EReal} (h : ∀ τ c o, IsReal (M τ c o)) (c : Fin N) (o : Fin 160) :
    IsReal (stackW hN M c o) := by
  unfold stackW; split_ifs
  · exact h _ _ _
  · exact h _ _ _

/-- A log-envelope entry of a finite waveform is a real number: the mean of four absolute values is a nonnegative real,
    and the logarithm of that plus 2⁻¹⁶ is the real logarithm of a positive real. -/
theorem isReal_env {X : Wave} (hX : ∀ i, IsReal (X i)) (b : Fin 64) (t : Fin 2000) (j : Fin 40) : IsReal (env X b t j) := by
  have hs : ∀ k : Fin 4, ∃ r : ℝ, 0 ≤ r ∧ max (smp X b t (grpPos j k)) (-(smp X b t (grpPos j k))) = (r : EReal) := by
    intro k
    obtain ⟨x, hx⟩ := hX (ix3 b 0 (smpPos t (grpPos j k)))
    refine ⟨max x (-x), ?_, ?_⟩
    · rcases le_total 0 x with h | h
      · exact le_max_of_le_left h
      · exact le_max_of_le_right (by linarith)
    · unfold smp; rw [hx, ← EReal.coe_neg]; exact (EReal.coe_strictMono.monotone.map_max).symm
  choose r hr0 hr using hs
  unfold env
  simp only [hr]
  have hpos : ¬ ((∑ k : Fin 4, r k) * (1 / 4) + 1 / 65536 ≤ 0) := by
    have h0 : 0 ≤ ∑ k : Fin 4, r k := Finset.sum_nonneg fun k _ => hr0 k
    have := mul_nonneg h0 (by norm_num : (0 : ℝ) ≤ 1 / 4)
    linarith
  rw [coe_sum, four_coe, Ideal.div_coe (by norm_num), eps_coe, ← EReal.coe_mul, ← EReal.coe_add, Ideal.log_coe, if_neg hpos]
  exact ⟨_, rfl⟩

theorem isReal_foldW {W1t : Taps 41} (hW : ∀ i, IsReal (W1t i)) (τ : Fin 2) (c : Fin 40) (o : Fin 160) : IsReal (foldW W1t τ c o) := by
  unfold foldW
  exact (hW _).add (((hW _).sub (IsReal.sum _ fun _ _ => hW _)).div_forty)

/-! ## (1) A stacked sum is the two taps' sums -/

theorem sum_stack {n N : Nat} (hN : N = n + n) (a : Fin 2000 → Fin n → EReal) (M : Fin 2 → Fin n → Fin 160 → EReal) (t : Fin 2000) (o : Fin 160) :
    ∑ c : Fin N, stack hN a t c * stackW hN M c o
      = (∑ c : Fin n, prev (fun s => a s c) t * M 0 c o) + ∑ c : Fin n, a t c * M 1 c o := by
  subst hN
  rw [Fin.sum_univ_add]
  congr 1
  · refine Finset.sum_congr rfl fun c _ => ?_
    have h : (Fin.castAdd n c).val < n := c.isLt
    unfold stack stackW
    rw [dif_pos h, dif_pos h]
    rfl
  · refine Finset.sum_congr rfl fun c _ => ?_
    have h : ¬ (Fin.natAdd n c).val < n := by simp [Fin.natAdd]
    have e : hi (n := n) (n' := n) rfl (Fin.natAdd n c) h = c := Fin.ext (by simp [hi])
    unfold stack stackW
    rw [dif_neg h, dif_neg h, e]

end Cert.Shaping

end
-- ==== Proof.Layers.lean ====
/-
  The two layers of the shaping gain, stacked arrangement against convolution arrangement, and the law `GK = GR`.
-/
import proofs.«118238_j46170898432119_2_alg».proof.Proof.Law

noncomputable section

open scoped BigOperators

namespace Cert.Shaping

open Idealize.ShloMosaic Idealize.ShloMosaic.ValueIdx

/-! ## (2) The envelope's mean folded into the weights -/

/-- At one frame and one tap: the centred envelope (41 channels) against the tap's weights is the plain envelope
    (40 channels) against the folded weights. With p the envelope, S its sum, w the weights:
    ∑ c<40 (p_c − S/40)·w_c + (S/40)·w₄₀ = ∑ c<40 p_c·(w_c + (w₄₀ − ∑ w)/40). -/
theorem tenv_fold {X : Wave} {W1t : Taps 41} (hX : ∀ i, IsReal (X i)) (hW : ∀ i, IsReal (W1t i)) (b : Fin 64) (s : Fin 2000)
    (τ : Fin 2) (o : Fin 160) :
    ∑ c : Fin 41, tenv X b s c * W1t (ix3 o c τ) = ∑ c : Fin 40, env X b s c * foldW W1t τ c o := by
  choose p hp using fun j => isReal_env hX b s j
  choose w hw using fun c : Fin 41 => hW (ix3 o c τ)
  have hA : avg X b s = (((∑ j : Fin 40, p j) * (1 / 40) : ℝ) : EReal) := by
    unfold avg; simp only [hp]; rw [coe_sum, forty_coe, Ideal.div_coe (by norm_num), ← EReal.coe_mul]
  have hF : ∀ c : Fin 40, foldW W1t τ c o
      = ((w (Fin.castSucc c) + (w (Fin.last 40) - ∑ c' : Fin 40, w (Fin.castSucc c')) * (1 / 40) : ℝ) : EReal) := by
    intro c
    have e1 : ∀ c' : Fin 40, W1t (ix3 o (wide (by decide) c') τ) = (w (Fin.castSucc c') : EReal) := fun c' => hw (Fin.castSucc c')
    have e2 : W1t (ix3 o (40 : Fin 41) τ) = (w (Fin.last 40) : EReal) := hw (Fin.last 40)
    unfold foldW
    simp only [e1, e2]
    rw [coe_sum, forty_coe, Ideal.div_coe (by norm_num), ← EReal.coe_sub, ← EReal.coe_mul, ← EReal.coe_add]
  have hT : ∀ c : Fin 40, tenv X b s (Fin.castSucc c) = ((p c - (∑ j : Fin 40, p j) * (1 / 40) : ℝ) : EReal) := by
    intro c
    unfold tenv
    rw [dif_pos (show (Fin.castSucc c).val < 40 from c.isLt), hA]
    show env X b s c - _ = _
    rw [hp, ← EReal.coe_sub]
  have hL : tenv X b s (Fin.last 40) = (((∑ j : Fin 40, p j) * (1 / 40) : ℝ) : EReal) := by
    unfold tenv; rw [dif_neg (by simp), hA]
  rw [Fin.sum_univ_castSucc]
  simp only [hT, hL, hF, hp, hw, ← EReal.coe_mul, coe_sum, ← EReal.coe_add]
  congr 1
  simp only [sub_mul, mul_add, Finset.sum_sub_distrib, Finset.sum_add_distrib, ← Finset.sum_mul, ← Finset.mul_sum]
  ring

/-! ## The first layer -/

theorem pre1K_eq_pre1R {X : Wave} {Ft : Feat} {W1f : Taps 128} {b1f : Bias} {W1t : Taps 41} {b1t : Bias}
    (hX : ∀ i, IsReal (X i)) (hW1t : ∀ i, IsReal (W1t i)) (b : Fin 64) (t : Fin 2000) (o : Fin 160) :
    pre1K X Ft W1f b1f W1t b1t b t o = pre1R X Ft W1f b1f W1t b1t b t o := by
  have hT1 := tenv_fold hX hW1t b t 1 o
  have hT0 : ∑ c : Fin 41, prev (fun s => tenv X b s c) t * W1t (ix3 o c 0)
      = ∑ c : Fin 40, prev (fun s => env X b s c) t * foldW W1t 0 c o := by
    by_cases h : t.val = 0
    · simp only [prev, dif_pos h, zero_mul, Finset.sum_const_zero]
    · simp only [prev, dif_neg h]; exact tenv_fold hX hW1t b (pred t h) 0 o
  unfold pre1K pre1R conv
  rw [sum_stack, sum_stack, hT0, hT1]
  exact add_add_add_comm _ _ _ _

theorem isReal_pre1K {X : Wave} {Ft : Feat} {W1f : Taps 128} {b1f : Bias} {W1t : Taps 41} {b1t : Bias}
    (hX : ∀ i, IsReal (X i)) (hFt : ∀ i, IsReal (Ft i)) (hW1f : ∀ i, IsReal (W1f i)) (hb1f : ∀ i, IsReal (b1f i))
    (hW1t : ∀ i, IsReal (W1t i)) (hb1t : ∀ i, IsReal (b1t i)) (b : Fin 64) (t : Fin 2000) (o : Fin 160) :
    IsReal (pre1K X Ft W1f b1f W1t b1t b t o) := by
  unfold pre1K
  have hF : ∀ k : Fin 256, IsReal (stack (n := 128) rfl (fun s c' => Ft (ix3 b s c')) t k * stackW (n := 128) rfl (tapW W1f) k o) :=
    fun k => (isReal_stack (a := fun s c' => Ft (ix3 b s c')) rfl (fun s c => hFt _) t k).mul
      (isReal_stackW (M := tapW W1f) rfl (fun τ c o => hW1f (ix3 o c τ)) k o)
  have hE : ∀ k : Fin 80, IsReal (stack (n := 40) rfl (fun s j => env X b s j) t k * stackW (n := 40) rfl (foldW W1t) k o) :=
    fun k => (isReal_stack (a := fun s j => env X b s j) rfl (fun s j => isReal_env hX b s j) t k).mul
      (isReal_stackW (M := foldW W1t) rfl (fun τ c o => isReal_foldW hW1t τ c o) k o)
  exact ((IsReal.sum _ fun k _ => hF k).add (IsReal.sum _ fun k _ => hE k)).add ((hb1f _).add (hb1t _))

/-! ## (3) The second layer: three products are one -/

theorem pre2K_eq_conv {A : Fin 2000 → Fin 160 → EReal} {W2 : Taps 160} (hA : ∀ s c, IsReal (A s c)) (hW : ∀ i, IsReal (W2 i))
    (b2 : Bias) (t : Fin 2000) (o : Fin 160) : pre2K A W2 b2 t o = conv A W2 b2 t o := by
  have hWr : ∀ c : Fin 320, IsReal (stackW (n := 160) rfl (tapW W2) c o) := fun c => isReal_stackW (M := tapW W2) rfl (fun τ c o => hW (ix3 o c τ)) c o
  have hAr : ∀ c : Fin 320, IsReal (stack (n := 160) rfl A t c) := fun c => isReal_stack rfl hA t c
  have hQ : ∑ c : Fin 320, stack (n := 160) rfl A t c
      * (stackW (n := 160) rfl (tapW W2) c o - stackW (n := 160) rfl (tapW W2) c o) = 0 :=
    Finset.sum_eq_zero fun c _ => by rw [(hWr c).sub_self, mul_zero]
  have hR : ∑ c : Fin 320, (stack (n := 160) rfl A t c - stack (n := 160) rfl A t c)
      * stackW (n := 160) rfl (tapW W2) c o = 0 :=
    Finset.sum_eq_zero fun c _ => by rw [(hAr c).sub_self, zero_mul]
  unfold pre2K conv
  rw [hQ, hR, add_zero, add_zero, sum_stack]
  rfl

/-! ## The law -/

/-- Where every argument entry is a real number the two arrangements give the same result. -/
theorem law {X : Wave} {Ft : Feat} {W1f : Taps 128} {b1f : Bias} {W1t : Taps 41} {b1t : Bias} {W2 : Taps 160} {b2 : Bias}
    (hX : ∀ i, IsReal (X i)) (hFt : ∀ i, IsReal (Ft i)) (hW1f : ∀ i, IsReal (W1f i)) (hb1f : ∀ i, IsReal (b1f i))
    (hW1t : ∀ i, IsReal (W1t i)) (hb1t : ∀ i, IsReal (b1t i)) (hW2 : ∀ i, IsReal (W2 i))
    (b : Fin 64) (t : Fin 2000) (f : Fin 160) :
    GK X Ft W1f b1f W1t b1t W2 b2 b t f = GR X Ft W1f b1f W1t b1t W2 b2 b t f := by
  have h1 : (fun s c => lrelu (pre1K X Ft W1f b1f W1t b1t b s c)) = fun s c => lrelu (pre1R X Ft W1f b1f W1t b1t b s c) := by
    funext s c; rw [pre1K_eq_pre1R hX hW1t]
  unfold GK GR
  rw [pre2K_eq_conv (fun s c => isReal_lrelu (isReal_pre1K hX hFt hW1f hb1f hW1t hb1t b s c)) hW2, h1]

end Cert.Shaping

end
-- ==== Proof.Finite.lean ====
/-
  The precondition, read back: every entry of every input is a real number.

  The printed predicate is the conjunction, over the eight inputs, of "every entry's absolute value is below +∞".
  An extended real a with max a (−a) < ⊤ is neither ⊤ nor ⊥ (−⊥ = ⊤), hence a real number.
-/
import proofs.«118238_j46170898432119_2_alg».proof.Pre_finite_inputs
import proofs.«118238_j46170898432119_2_alg».proof.Proof.Law
import Idealize.ShloMosaic.Lib.ReduceAll
import Idealize.ShloMosaic.Lib.ValueIdx

noncomputable section

namespace Cert.Shaping

open Idealize.ShloMosaic Idealize.ShloMosaic.ValueIdx

/-- The f32 pattern of +∞ denotes ⊤. -/
theorem inf_eq_top : Ideal.ofBits .f32 0x7F800000#32 = (⊤ : EReal) := by simp [Ideal.ofBits, Ideal.ieee]

/-- An extended real whose absolute value compares below +∞ is a real number. -/
theorem isReal_of_abs_lt (a : EReal) (h : Ideal.cmp .olt (max a (-a)) (Ideal.ofBits .f32 0x7F800000#32) = 1#1) : IsReal a := by
  rw [inf_eq_top] at h
  have hlt : max a (-a) < ⊤ := by
    by_contra hn
    simp [Ideal.cmp, hn] at h
  induction a using EReal.rec with
  | bot => simp at hlt
  | coe r => exact ⟨r, rfl⟩
  | top => simp at hlt

instance : Subsingleton Cert.Pre_finite_inputs.S_.Idx := ⟨fun a b => funext fun d => d.elim0⟩

open Cert.Pre_finite_inputs in
/-- The printed precondition at all ones makes every entry of each of the eight inputs a real number. -/
theorem reals_of_pre [Cert.Pre_finite_inputs.Facts] (a0 : FVec Ideal S64x1x320000 .f32) (a1 : FVec Ideal S64x2000x128 .f32)
    (a2 : FVec Ideal S160x128x2 .f32) (a3 : FVec Ideal S160 .f32) (a4 : FVec Ideal S160x41x2 .f32) (a5 : FVec Ideal S160 .f32)
    (a6 : FVec Ideal S160x160x2 .f32) (a7 : FVec Ideal S160 .f32)
    (h : Cert.Pre_finite_inputs.fn (F := Ideal) a0 a1 a2 a3 a4 a5 a6 a7 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) := by
  have h0 := congrFun h ix0
  dsimp only [Cert.Pre_finite_inputs.fn, Cert.Pre_finite_inputs.fn_part1, Cert.Pre_finite_inputs.fn_part2, andi] at h0
  simp only [IntOp.andi_eq_one] at h0
  obtain ⟨⟨⟨⟨⟨⟨⟨e0, e1⟩, e2⟩, e3⟩, e4⟩, e5⟩, e6⟩, e7⟩ := h0
  refine ⟨fun i => ?_, fun i => ?_, fun i => ?_, fun i => ?_, fun i => ?_, fun i => ?_, fun i => ?_, fun i => ?_⟩
  · exact isReal_of_abs_lt _ (Host.reduce_andi_all _ _ _ _ _ e0 i)
  · exact isReal_of_abs_lt _ (Host.reduce_andi_all _ _ _ _ _ e1 i)
  · exact isReal_of_abs_lt _ (Host.reduce_andi_all _ _ _ _ _ e2 i)
  · exact isReal_of_abs_lt _ (Host.reduce_andi_all _ _ _ _ _ e3 i)
  · exact isReal_of_abs_lt _ (Host.reduce_andi_all _ _ _ _ _ e4 i)
  · exact isReal_of_abs_lt _ (Host.reduce_andi_all _ _ _ _ _ e5 i)
  · exact isReal_of_abs_lt _ (Host.reduce_andi_all _ _ _ _ _ e6 i)
  · exact isReal_of_abs_lt _ (Host.reduce_andi_all _ _ _ _ _ e7 i)

end Cert.Shaping

end
-- ==== Proof.lean ====
/-
  A temporal-envelope shaping gain, computed two ways, gives the same extended reals on finite inputs.

  Each of 64 waveforms is cut into 2000 frames of 160 samples. From a frame, the log-envelope is the logarithm of
  (the mean absolute value of each of its 40 groups of 4 samples, plus 2⁻¹⁶). Two causal two-tap convolutions over the
  frames — of 128 conditioning features, and of the envelope centred on its mean with the mean appended (41 channels) —
  are added, passed through a leaky rectifier of slope 0.2, convolved once more (160 → 160 channels) and exponentiated;
  the result multiplies the frame's samples.

  The reference computes exactly this. The kernel, one batch row per grid point, contracts for each layer ONE product
  over the previous frame's channels followed by the current frame's, against the two taps' weights stacked; it never
  forms the centred envelope, having folded the mean into the weights beforehand (row c of a folded tap is weight c plus
  a fortieth of "the mean's weight minus the sum of the other 40"); and it takes the last product three times, against
  the weights' and the activations' bf16 high parts and low parts — which on the extended reals are the value itself and
  "the value minus itself".

  The two agree where every input entry is a real number (Proof/Layers.lean, `Cert.Shaping.law`): the stacked sums split
  into the two taps' sums by re-indexing; folding the mean is distributivity, valid because a log-envelope is the
  logarithm of a positive real and the weights are finite; and a real number minus itself is zero, so two of the three
  last products vanish. The precondition gives the finiteness (Proof/Finite.lean). What each program leaves in its result
  buffer is read off its run: the kernel's in Proof/KernelRun.lean (the region's output array from its 64 blocks, then
  the final reshape), over Proof/KernelBody.lean (the body's arithmetic at an index) and Proof/HostPrefix.lean (the arrays
  prepared before the region); the reference's in Proof/RefRun.lean and Proof/RefValue.lean.
-/
import proofs.«118238_j46170898432119_2_alg».proof.Defs
import proofs.«118238_j46170898432119_2_alg».proof.Proof.Gen.Kernel
import proofs.«118238_j46170898432119_2_alg».proof.Proof.Gen.Kernel.Skeleton
import proofs.«118238_j46170898432119_2_alg».proof.Proof.Gen.Kernel.Launch
import proofs.«118238_j46170898432119_2_alg».proof.Proof.Gen.Kernel.Points
import proofs.«118238_j46170898432119_2_alg».proof.Proof.Gen.Kernel.Frame
import proofs.«118238_j46170898432119_2_alg».proof.Proof.Gen.KernelIdeal
import proofs.«118238_j46170898432119_2_alg».proof.Proof.Gen.KernelIdeal.Skeleton
import proofs.«118238_j46170898432119_2_alg».proof.Proof.Gen.KernelIdeal.Launch
import proofs.«118238_j46170898432119_2_alg».proof.Proof.Gen.KernelIdeal.Points
import proofs.«118238_j46170898432119_2_alg».proof.Proof.Gen.KernelIdeal.Frame
import proofs.«118238_j46170898432119_2_alg».proof.Proof.Gen.ReferenceIdeal
import proofs.«118238_j46170898432119_2_alg».proof.Proof.Gen.Pre_finite_inputs
import proofs.«118238_j46170898432119_2_alg».proof.Proof.KernelRun
import proofs.«118238_j46170898432119_2_alg».proof.Proof.RefValue
import proofs.«118238_j46170898432119_2_alg».proof.Proof.Layers
import proofs.«118238_j46170898432119_2_alg».proof.Proof.Finite
import Idealize.ShloMosaic.Adequacy
import Idealize.ShloMosaic.Init

noncomputable section

namespace Cert.Proof.Shaping

open Idealize.ShloMosaic Idealize.ShloMosaic.TcCoe Idealize.ShloMosaic.ValueIdx Idealize.SL.Sem Cert.Shaping

/-- Every position of a row is sample `n % 160` of frame `n / 160`. -/
theorem pos_eq (n : Fin 320000) :
    n = smpPos ⟨n.val / 160, by have := n.isLt; omega⟩ ⟨n.val % 160, Nat.mod_lt _ (by norm_num)⟩ :=
  Fin.ext (by simp only [smpPos]; omega)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Shaped.run m ρ)

/-- The two round trips through bf16 the idealization removed (the activations' and the weights' high parts): each is
    the identity on the extended reals and the rounding on words. -/
theorem preserves : Cert.preserves_Kernel_KernelIdeal :=
  ⟨IdealRules.truncf_extf.statement _ .f32 .bf16, IdealRules.truncf_extf.statement _ .f32 .bf16⟩

/-- Both programs end with the shaped waveform: the kernel's in the stacked arrangement, the reference's in the
    convolution arrangement, equal because the inputs are finite. -/
theorem algebraic : Cert.algebraic_KernelIdeal_ReferenceIdeal := by
  intro m ρ m' ρ' hpre hagree
  refine ⟨fun c => Cert.KernelIdeal.Shaped.out m c, Cert.KernelIdeal.Shaped.run m ρ, ?_⟩
  refine (θ_run Cert.ReferenceIdeal.defs _ _).mono (fun r h c => ⟨(h c).1.trans ?_, (h c).2⟩)
    (Cert.ReferenceIdeal.Shaped.run m' ρ')
  obtain ⟨h0, h1, h2, h3, h4, h5, h6, h7⟩ := hagree c
  obtain ⟨r0, r1, r2, r3, r4, r5, r6, -⟩ := reals_of_pre _ _ _ _ _ _ _ _ (hpre c)
  funext i
  obtain ⟨b, u, n, rfl⟩ : ∃ (b : Fin 64) (u : Fin 1) (n : Fin 320000), i = ix3 b u n := ⟨i 0, i 1, i 2, eq_ix3 i⟩
  obtain rfl : u = 0 := Subsingleton.elim _ _
  rw [pos_eq n]
  refine (Cert.ReferenceIdeal.Shaped.out_apply m' c b _ _).trans (Eq.trans ?_ (Cert.KernelIdeal.Shaped.out_apply m c b _ _).symm)
  rw [show Cert.ReferenceIdeal.Shaped.rX m' c = Cert.KernelIdeal.Prefix.aX m c from h0,
    show Cert.ReferenceIdeal.Shaped.rFt m' c = Cert.KernelIdeal.Prefix.aFt m c from h1,
    show Cert.ReferenceIdeal.Shaped.rW1f m' c = Cert.KernelIdeal.Prefix.aW1f m c from h2,
    show Cert.ReferenceIdeal.Shaped.rb1f m' c = Cert.KernelIdeal.Prefix.ab1f m c from h3,
    show Cert.ReferenceIdeal.Shaped.rW1t m' c = Cert.KernelIdeal.Prefix.aW1t m c from h4,
    show Cert.ReferenceIdeal.Shaped.rb1t m' c = Cert.KernelIdeal.Prefix.ab1t m c from h5,
    show Cert.ReferenceIdeal.Shaped.rW2 m' c = Cert.KernelIdeal.Prefix.aW2 m c from h6,
    show Cert.ReferenceIdeal.Shaped.rb2 m' c = Cert.KernelIdeal.Prefix.ab2 m c from h7]
  exact (law r0 r1 r2 r3 r4 r5 r6 b _ _).symm

end Cert.Proof.Shaping

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Shaping.frame_k, Cert.Proof.Shaping.frame_ki, Cert.Proof.Shaping.frame_ri, Cert.Proof.Shaping.preserves,
  Cert.Proof.Shaping.algebraic⟩

end Cert.Proof

end
